-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S128x1024 : Shape := ⟨2, ![128, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_

variable [Facts]

def fn_part1 {F : FTy → Type} [FloatOps F] (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  main_v18

def fn {F : FTy → Type} [FloatOps F] (main_arg0 : FVec F S8x2048x1024 .f32) (main_arg1 : FVec F S128x1024 .f32) (main_arg2 : FVec F S128x1024 .f32) (main_arg3 : FVec F S128x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_v13 main_v16
-- ==== Kernel.lean ====
abbrev S8x2048x1024 : Shape := ⟨3, ![8, 2048, 1024]⟩
abbrev S128x1024 : Shape := ⟨2, ![128, 1024]⟩
abbrev S1024x128 : Shape := ⟨2, ![1024, 128]⟩
abbrev S_ : Shape := ⟨0, ![]⟩
abbrev S1024x384 : Shape := ⟨2, ![1024, 384]⟩
abbrev S16384x1024 : Shape := ⟨2, ![16384, 1024]⟩
abbrev S16384x384 : Shape := ⟨2, ![16384, 384]⟩
abbrev S1024x1024 : Shape := ⟨2, ![1024, 1024]⟩
abbrev S16384x128 : Shape := ⟨2, ![16384, 128]⟩
abbrev S8x2048x128 : Shape := ⟨3, ![8, 2048, 128]⟩
abbrev S1x1024x128 : Shape := ⟨3, ![1, 1024, 128]⟩
abbrev S1x512x128 : Shape := ⟨3, ![1, 512, 128]⟩
abbrev S1024x1 : Shape := ⟨2, ![1024, 1]⟩
abbrev S512x128 : Shape := ⟨2, ![512, 128]⟩
abbrev S1024x512 : Shape := ⟨2, ![1024, 512]⟩
abbrev S1024 : Shape := ⟨1, ![1024]⟩

abbrev nBuf : Space → Nat
  | .hbm => 20
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1024x128, .f32⟩
  | .hbm, ⟨5, _⟩ => ⟨S_, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x384, .f32⟩
  | .hbm, ⟨11, _⟩ => ⟨S16384x1024, .f32⟩
  | .hbm, ⟨12, _⟩ => ⟨S16384x384, .bf16⟩
  | .hbm, ⟨13, _⟩ => ⟨S16384x128, .bf16⟩
  | .hbm, ⟨14, _⟩ => ⟨S8x2048x128, .bf16⟩
  | .hbm, ⟨15, _⟩ => ⟨S16384x128, .bf16⟩
  | .hbm, ⟨16, _⟩ => ⟨S8x2048x128, .bf16⟩
  | .hbm, ⟨17, _⟩ => ⟨S16384x128, .bf16⟩
  | .hbm, ⟨18, _⟩ => ⟨S8x2048x128, .bf16⟩
  | .hbm, ⟨19, _⟩ => ⟨S8x2048x128, .f32⟩
  | .local _ .vmem, ⟨0, _⟩ => ⟨S1024x1024, .f32⟩
  | .local _ .vmem, ⟨1, _⟩ => ⟨S1024x1024, .f32⟩
  | .local _ .vmem, ⟨2, _⟩ => ⟨S1024x384, .f32⟩
  | .local _ .vmem, ⟨3, _⟩ => ⟨S1024x384, .bf16⟩
  | .local _ .vmem, ⟨4, _⟩ => ⟨S1024x384, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x128, .bf16⟩
  | .local _ .vmem, ⟨11, _⟩ => ⟨S1x1024x128, .f32⟩
  | .local _ .vmem, ⟨12, _⟩ => ⟨S1x1024x128, .f32⟩
  | .local _ .vmem, ⟨13, _⟩ => ⟨S1024x1, .f32⟩
  | .local _ .vmem, ⟨14, _⟩ => ⟨S1024x1, .f32⟩
  | .local _ .vmem, ⟨15, _⟩ => ⟨S1024x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 4], ![false, false, false]⟩

def k1_cond3 (i : grid1.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_2 : BitVec 32 := 0#32
  let v11 : BitVec 1 := Scalar.cmpi .ne v10 c0_i32_2
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c1024_i32 : BitVec 32 := 1024#32
  let v1 : BitVec 32 := Scalar.muli v0 c1024_i32
  let c1_i32_0 : BitVec 32 := 1#32
  let v2 : BitVec 32 := Scalar.subi v1 c1_i32_0
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  ![arg0.toNat, v20.toNat, c0_i32_6.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c1024_i32 : BitVec 32 := 1024#32
  let v1 : BitVec 32 := Scalar.muli v0 c1024_i32
  let c1_i32_0 : BitVec 32 := 1#32
  let v2 : BitVec 32 := Scalar.subi v1 c1_i32_0
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  ![arg0.toNat, v20.toNat, c0_i32_6.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  transposes_S128x1024_S1024x128_1_0 : S128x1024.Transposes [1, 0] S1024x128
  bcast_S_S1024x128 : S_.BroadcastsInDim S1024x128 (![] : Fin 0 → Fin S1024x128.rank)
  concatenates_S1024x128_S1024x128_S1024x128_S1024x384_d1 : Shape.Concatenates [S1024x128, S1024x128, S1024x128] S1024x384 1
  shapeCasts_S8x2048x1024_S16384x1024 : S8x2048x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  packedbf16_S1024x384_S1024x384_0_0 : (Rect.unit (s := S1024x384) ![0, 0] S1024x384.size inb_S1024x384_S1024x384_0_0).PackedRows (EltTy.packing .bf16)
  slices_S16384x384_S16384x128_0_0 : S16384x384.Slices ![0, 0] S16384x128
  shapeCasts_S16384x128_S8x2048x128 : S16384x128.ShapeCasts S8x2048x128
  slices_S16384x384_S16384x128_0_128 : S16384x384.Slices ![0, 128] S16384x128
  slices_S16384x384_S16384x128_0_256 : S16384x384.Slices ![0, 256] S16384x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x128 : S1024x1.Broadcasts S1024x128
  shapeCasts_S1024x128_S1x1024x128 : S1024x128.ShapeCasts S1x1024x128
  dot_S1024x1024_S1024x384_S1024x384_1_0_0_1_n_n_wf : DotDims.WF S1024x1024 S1024x384 S1024x384 [1] [0] [0] [1] [] []
  dot_S1024x128_S512x128_S1024x512_1_1_0_0_n_n_wf : DotDims.WF S1024x128 S512x128 S1024x512 [1] [1] [0] [0] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .f32 = 32 ∨ (Rect.block (s := S1024x384) S1024x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x384.size a ≤ S16384x384.size a
  hwx0_2 : ∀ i : grid0.Coords, EltTy.bits .bf16 = 32 ∨ (Rect.block (s := S16384x384) S1024x384.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x2048x128.size a
  hwx1_0 : ∀ i : grid1.Coords, EltTy.bits .bf16 = 32 ∨ (Rect.block (s := S8x2048x128) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x128.size a ≤ S8x2048x128.size a
  hwx1_1 : ∀ i : grid1.Coords, EltTy.bits .bf16 = 32 ∨ (Rect.block (s := S8x2048x128) S1x512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x128.size a ≤ S8x2048x128.size a
  hwx1_2 : ∀ i : grid1.Coords, EltTy.bits .bf16 = 32 ∨ (Rect.block (s := S8x2048x128) S1x512x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S8x2048x128.size a
  hwx1_3 : ∀ i : grid1.Coords, EltTy.bits .f32 = 32 ∨ (Rect.block (s := S8x2048x128) S1x1024x128.size (cc1_transform_3 i) (hinb1_3 i)).WholeWords (EltTy.packing .f32)

variable [Facts₀]

def dot_S1024x1024_S1024x384_S1024x384_1_0_0_1_n_n : DotDims S1024x1024 S1024x384 S1024x384 where
  lhsContracting := [1]
  rhsContracting := [0]
  lhsNonContracting := [0]
  rhsNonContracting := [1]
  lhsBatch := []
  rhsBatch := []
  wf := dot_S1024x1024_S1024x384_S1024x384_1_0_0_1_n_n_wf
def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S128x1024 : Shape := ⟨2, ![128, 1024]⟩
abbrev S8x2048x128 : Shape := ⟨3, ![8, 2048, 128]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x2048x128, .f32⟩
  | .hbm, ⟨5, _⟩ => ⟨S8x2048x128, .f32⟩
  | .hbm, ⟨6, _⟩ => ⟨S8x2048x128, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S128x1024_S8x2048x128_2_1_01_0_n_n_wf : DotDims.WF S8x2048x1024 S128x1024 S8x2048x128 [2] [1] [0, 1] [0] [] []
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x1024_S128x1024_S8x2048x128_2_1_01_0_n_n : DotDims S8x2048x1024 S128x1024 S8x2048x128 where
  lhsContracting := [2]
  rhsContracting := [1]
  lhsNonContracting := [0, 1]
  rhsNonContracting := [0]
  lhsBatch := []
  rhsBatch := []
  wf := dot_S8x2048x1024_S128x1024_S8x2048x128_2_1_01_0_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.BitsProjBody.lean ====
/-
  Region 0, the projection: at grid point i the body multiplies the i-th block of 1024 rows of the flattened
  input (1024 columns) by the whole 1024 × 384 weight matrix and stores the 1024 × 384 product; the body also
  reads its output buffer once and ignores what it read. Here: what the output buffer holds after the body as a
  function of the two input blocks, the body's triple, and the pipeline's proof data for this region at any
  contents V of the buffers when the region is entered.
-/
import proofs.«172057_j17806934410015_2_alg».proof.Proof.Gen.Kernel.Launch
import proofs.«172057_j17806934410015_2_alg».proof.Proof.Gen.Kernel.Skeleton
import proofs.«172057_j17806934410015_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole of each buffer, as the rectangle the body reads or writes it through. -/
abbrev rX : Rect S1024x1024 := Rect.unit (s := S1024x1024) ![0, 0] S1024x1024.size inb_S1024x1024_S1024x1024_0_0
abbrev rW : Rect S1024x384 := Rect.unit (s := S1024x384) ![0, 0] S1024x384.size inb_S1024x384_S1024x384_0_0

/-- The output buffer after the body: the product of the two input blocks, stored whole. -/
def proj (x0 : Vec F S1024x1024 .f32) (x1 : Vec F S1024x384 .f32) : Vec F S1024x384 .bf16 :=
  View.canon [⟨rW, k0_pay1 (View.ld x0 rX) (View.ld x1 rW)⟩]

theorem proj_cover (p0 : Vec F S1024x384 .bf16) (y : S1024x384.Idx) :
    ∃ pc ∈ ([⟨rW, p0⟩] : List (View.Piece (Elt F) S1024x384 .bf16)), y ∈ pc.1.set :=
  View.cover_of_tiled [⟨rW, p0⟩] S1024x384.size (by rfl) y

set_option maxHeartbeats 1000000 in
/-- The body on whole staging memrefs: the inputs' contents stay, the output's becomes the product. -/
theorem sound_proj (c : Dev nD) (E : Set ℕ) (i : grid0.Coords)
    (arg1 : Memref sig .tc .vmem S1024x1024 .f32) (harg1 : arg1.IsWhole) (arg2 : Memref sig .tc .vmem S1024x384 .f32) (harg2 : arg2.IsWhole)
    (arg3 : Memref sig .tc .vmem S1024x384 .bf16) (harg3 : arg3.IsWhole)
    (x0 : Vec F S1024x1024 .f32) (x1 : Vec F S1024x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (proj x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (proj_cover _)

/-! ## The proof data of region 0 -/

/-- After the body at point t each input's buffer holds its block and the output's the product of the two blocks;
    between points the scoped buffers that are no staging buffer of this region and the generator register ride
    along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => proj (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = proj (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_proj c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsFlashBody.lean ====
/-
  Region 1, causal attention by blocks: at grid point (batch, query block of 1024 rows, key block of 512 rows) the body
  keeps, per query row, a running maximum m, a normalizer l and an accumulator a in three scratch buffers. At a query
  block's first key block it resets them (minus infinity, 0, 0); where the key block starts at or before the query
  block's last row it takes one step (scores q·k masked to key position ≤ query position, m' = max m (row max),
  l' = exp(m − m')·l + Σ exp(s − m'), a' = exp(m − m')·a + Σ exp(s − m')·v); at the last key block it stores a / l.
  Here: the three branch conditions from the grid coordinates, one step as pure functions of the blocks and the carried
  values, and the body's triple in each of the five combinations of branches the grid meets; then the carried values
  point by point, the invariant that names the scratch buffers' contents between points, and the region's proof data.
-/
import proofs.«172057_j17806934410015_2_alg».proof.Proof.Gen.Kernel.Launch
import proofs.«172057_j17806934410015_2_alg».proof.Proof.Gen.Kernel.Skeleton
import proofs.«172057_j17806934410015_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-buffer stores and loads -/

theorem hz2 : (![0, 0] : Fin 2 → ℕ) = fun _ => 0 := by funext a; fin_cases a <;> rfl
theorem hz3 : (![0, 0, 0] : Fin 3 → ℕ) = fun _ => 0 := by funext a; fin_cases a <;> rfl

section Whole
variable {sig' : RefSig} {κ : Kind} {sp : Space} {S : Shape} {e : EltTy} {Val : EltTy → Type} [∀ e, Nonempty (Val e)]

/-- After a last store through the whole buffer, the buffer reads as that store's payload. -/
theorem read_store_whole (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self .., View.mem_set_unit_zero h inb y⟩)).trans
    (View.canon_cons_unit_zero h inb w L)

/-- A whole-buffer load after a last whole-buffer store reads that store's payload. -/
theorem readCov_cons_whole (v : View sig' κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h inb, View.ld_unit_zero h inb]
end Whole

/-! ## The body's three branch conditions, from the grid coordinates -/

/-- First key block of a query block: the running maximum, normalizer and accumulator are reset. -/
abbrev cInit (i : grid1.Coords) : Prop := (Scalar.cmpi .ne (Scalar.extui (Scalar.cmpi .eq (BitVec.ofNat 32 (i 2).val) 0#32)) 0#32) = 1#1
/-- The key block starts at or before the query block's last row: it is accumulated. -/
abbrev cComp (i : grid1.Coords) : Prop := (Scalar.cmpi .ne (Scalar.extui (Scalar.cmpi .slt (Scalar.muli (BitVec.ofNat 32 (i 2).val) 512#32) (Scalar.muli (Scalar.addi (BitVec.ofNat 32 (i 1).val) 1#32) 1024#32))) 0#32) = 1#1
/-- Last key block: the accumulator is divided by the normalizer and stored. -/
abbrev cFin (i : grid1.Coords) : Prop := k1_cond3 i = 1#1

/-! ## One accumulation step, as pure functions of the blocks and the carried values -/

/-- The running row maximum after the step. -/
def mStep (qi ki : BitVec 32) (q : Vec F S1x1024x128 .bf16) (k : Vec F S1x512x128 .bf16) (m : Vec F S1024x1 .f32) : Vec F S1024x1 .f32 :=
  k1_pay5 (k1_pay9 qi ki q k m)
/-- The normalizer after the step. -/
def lStep (qi ki : BitVec 32) (q : Vec F S1x1024x128 .bf16) (k : Vec F S1x512x128 .bf16) (m l : Vec F S1024x1 .f32) : Vec F S1024x1 .f32 :=
  k1_pay12 qi ki q k m m l
/-- The accumulator after the step. -/
def aStep (qi ki : BitVec 32) (q : Vec F S1x1024x128 .bf16) (k v : Vec F S1x512x128 .bf16) (m : Vec F S1024x1 .f32) (a : Vec F S1024x128 .f32) : Vec F S1024x128 .f32 :=
  k1_pay4 (k1_pay7 v) (k1_pay10 qi ki q k m m) (k1_pay11 qi ki q k m) a

set_option hygiene false in
/-- What a buffer reads after the body's stores, against the step functions: open the run's names, take the last
    whole-buffer store's payload, and read every whole-buffer load as the contents loaded. -/
macro "flash_mem" : tactic => `(tactic| (
  sl_unfold_words
  first
    | refine (read_store_whole _ _ hz2 _ _ _).trans ?_
    | refine (read_store_whole _ _ hz3 _ _ _).trans ?_
  first
    | rfl
    | simp only [readCov_cons_whole (S := S1024x1) _ hz2, readCov_cons_whole (S := S1024x128) _ hz2, View.readAt_eq_ld,
        harg3.read_unread, harg4.read_unread, harg5.read_unread, harg6.read_unread, harg7.read_unread,
        harg8.read_unread, harg9.read_unread, View.ld_unit_zero (S := S1x1024x128) hz3, View.ld_unit_zero (S := S1x512x128) hz3,
        View.ld_unit_zero (S := S1024x1) hz2, View.ld_unit_zero (S := S1024x128) hz2, aStep, lStep, mStep]))

/-! ## The body's triple in each of the five control cases the grid meets -/

set_option maxHeartbeats 4000000 in
/-- First key block of a query block (always accumulated, never the last): whatever the carried buffers held, they are reset and take one step; the output buffer is left as found. -/
theorem sound_flash_A (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (h1 : cInit i) (h2 : cComp i) (h3 : ¬cFin i)
    (xq : Vec F S1x1024x128 .bf16) (xk xv : Vec F S1x512x128 .bf16) (xo : Vec F S1x1024x128 .f32) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xo ∗ (∃ sm, owns (c : Thread nD τ) arg7 fullShare sm) ∗ (∃ sl, owns (c : Thread nD τ) arg8 fullShare sl) ∗ (∃ sa, owns (c : Thread nD τ) arg9 fullShare sa)
        ∗ (iprop(owns (c : Thread nD τ) arg3 fullShare xq ∗ owns (c : Thread nD τ) arg4 fullShare xk ∗ owns (c : Thread nD τ) arg5 fullShare xv
            ∗ owns (c : Thread nD τ) arg6 fullShare xo
            ∗ owns (c : Thread nD τ) arg7 fullShare (mStep (BitVec.ofNat 32 (i 1).val) (BitVec.ofNat 32 (i 2).val) xq xk k1_pay1)
            ∗ owns (c : Thread nD τ) arg8 fullShare (lStep (BitVec.ofNat 32 (i 1).val) (BitVec.ofNat 32 (i 2).val) xq xk k1_pay1 k1_pay2)
            ∗ owns (c : Thread nD τ) arg9 fullShare (aStep (BitVec.ofNat 32 (i 1).val) (BitVec.ofNat 32 (i 2).val) xq xk xv k1_pay1 k1_pay3)) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%sm, %f7, %hf7, H7⟩, ⟨%sl, %f8, %hf8, H8⟩, ⟨%sa, %f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    flash_mem
  isplitl [H8]
  · iexists _; isplitr
    swap; · iexact H8
    ipureintro
    flash_mem
  iexists _; isplitr
  swap; · iexact H9
  ipureintro
  flash_mem

set_option maxHeartbeats 4000000 in
/-- A later key block that is accumulated and is not the last: the carried values take one step; the output buffer is left as found. -/
theorem sound_flash_B (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (h1 : ¬cInit i) (h2 : cComp i) (h3 : ¬cFin i)
    (xq : Vec F S1x1024x128 .bf16) (xk xv : Vec F S1x512x128 .bf16) (xo : Vec F S1x1024x128 .f32) (sm sl : Vec F S1024x1 .f32) (sa : Vec F S1024x128 .f32) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xo ∗ owns (c : Thread nD τ) arg7 fullShare sm ∗ owns (c : Thread nD τ) arg8 fullShare sl ∗ owns (c : Thread nD τ) arg9 fullShare sa
        ∗ (iprop(owns (c : Thread nD τ) arg3 fullShare xq ∗ owns (c : Thread nD τ) arg4 fullShare xk ∗ owns (c : Thread nD τ) arg5 fullShare xv
            ∗ owns (c : Thread nD τ) arg6 fullShare xo
            ∗ owns (c : Thread nD τ) arg7 fullShare (mStep (BitVec.ofNat 32 (i 1).val) (BitVec.ofNat 32 (i 2).val) xq xk sm)
            ∗ owns (c : Thread nD τ) arg8 fullShare (lStep (BitVec.ofNat 32 (i 1).val) (BitVec.ofNat 32 (i 2).val) xq xk sm sl)
            ∗ owns (c : Thread nD τ) arg9 fullShare (aStep (BitVec.ofNat 32 (i 1).val) (BitVec.ofNat 32 (i 2).val) xq xk xv sm sa)) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    flash_mem
  isplitl [H8]
  · iexists _; isplitr
    swap; · iexact H8
    ipureintro
    flash_mem
  iexists _; isplitr
  swap; · iexact H9
  ipureintro
  flash_mem

set_option maxHeartbeats 4000000 in
/-- A key block wholly after the query block's rows, not the last: nothing is read or written. -/
theorem sound_flash_C (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (h1 : ¬cInit i) (h2 : ¬cComp i) (h3 : ¬cFin i)
    (xq : Vec F S1x1024x128 .bf16) (xk xv : Vec F S1x512x128 .bf16) (xo : Vec F S1x1024x128 .f32) (sm sl : Vec F S1024x1 .f32) (sa : Vec F S1024x128 .f32) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xo ∗ owns (c : Thread nD τ) arg7 fullShare sm ∗ owns (c : Thread nD τ) arg8 fullShare sl ∗ owns (c : Thread nD τ) arg9 fullShare sa
        ∗ (iprop(owns (c : Thread nD τ) arg3 fullShare xq ∗ owns (c : Thread nD τ) arg4 fullShare xk ∗ owns (c : Thread nD τ) arg5 fullShare xv
            ∗ owns (c : Thread nD τ) arg6 fullShare xo
            ∗ owns (c : Thread nD τ) arg7 fullShare sm
            ∗ owns (c : Thread nD τ) arg8 fullShare sl
            ∗ owns (c : Thread nD τ) arg9 fullShare sa) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

set_option maxHeartbeats 4000000 in
/-- The last key block, wholly after the query block's rows: the carried values stay, and the output block is the accumulator divided by the normalizer. -/
theorem sound_flash_D (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (h1 : ¬cInit i) (h2 : ¬cComp i) (h3 : cFin i)
    (xq : Vec F S1x1024x128 .bf16) (xk xv : Vec F S1x512x128 .bf16) (sm sl : Vec F S1024x1 .f32) (sa : Vec F S1024x128 .f32) (K : PUnit → sProp 𝕄) :
    iprop(owns (c : Thread nD τ) arg3 fullShare xq ∗ owns (c : Thread nD τ) arg4 fullShare xk ∗ owns (c : Thread nD τ) arg5 fullShare xv
        ∗ (∃ xo, owns (c : Thread nD τ) arg6 fullShare xo) ∗ owns (c : Thread nD τ) arg7 fullShare sm ∗ owns (c : Thread nD τ) arg8 fullShare sl ∗ owns (c : Thread nD τ) arg9 fullShare sa
        ∗ (iprop(owns (c : Thread nD τ) arg3 fullShare xq ∗ owns (c : Thread nD τ) arg4 fullShare xk ∗ owns (c : Thread nD τ) arg5 fullShare xv
            ∗ owns (c : Thread nD τ) arg6 fullShare (k1_pay6 sa sl)
            ∗ owns (c : Thread nD τ) arg7 fullShare sm
            ∗ owns (c : Thread nD τ) arg8 fullShare sl
            ∗ owns (c : Thread nD τ) arg9 fullShare sa) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f3, %hf3, H3⟩, ⟨%f4, %hf4, H4⟩, ⟨%f5, %hf5, H5⟩, ⟨%xo, %f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    flash_mem
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

set_option maxHeartbeats 4000000 in
/-- The last key block, accumulated: the carried values take one step, and the output block is the new accumulator divided by the new normalizer. -/
theorem sound_flash_E (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (h1 : ¬cInit i) (h2 : cComp i) (h3 : cFin i)
    (xq : Vec F S1x1024x128 .bf16) (xk xv : Vec F S1x512x128 .bf16) (sm sl : Vec F S1024x1 .f32) (sa : Vec F S1024x128 .f32) (K : PUnit → sProp 𝕄) :
    iprop(owns (c : Thread nD τ) arg3 fullShare xq ∗ owns (c : Thread nD τ) arg4 fullShare xk ∗ owns (c : Thread nD τ) arg5 fullShare xv
        ∗ (∃ xo, owns (c : Thread nD τ) arg6 fullShare xo) ∗ owns (c : Thread nD τ) arg7 fullShare sm ∗ owns (c : Thread nD τ) arg8 fullShare sl ∗ owns (c : Thread nD τ) arg9 fullShare sa
        ∗ (iprop(owns (c : Thread nD τ) arg3 fullShare xq ∗ owns (c : Thread nD τ) arg4 fullShare xk ∗ owns (c : Thread nD τ) arg5 fullShare xv
            ∗ owns (c : Thread nD τ) arg6 fullShare (k1_pay6 (aStep (BitVec.ofNat 32 (i 1).val) (BitVec.ofNat 32 (i 2).val) xq xk xv sm sa) (lStep (BitVec.ofNat 32 (i 1).val) (BitVec.ofNat 32 (i 2).val) xq xk sm sl))
            ∗ owns (c : Thread nD τ) arg7 fullShare (mStep (BitVec.ofNat 32 (i 1).val) (BitVec.ofNat 32 (i 2).val) xq xk sm)
            ∗ owns (c : Thread nD τ) arg8 fullShare (lStep (BitVec.ofNat 32 (i 1).val) (BitVec.ofNat 32 (i 2).val) xq xk sm sl)
            ∗ owns (c : Thread nD τ) arg9 fullShare (aStep (BitVec.ofNat 32 (i 1).val) (BitVec.ofNat 32 (i 2).val) xq xk xv sm sa)) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f3, %hf3, H3⟩, ⟨%f4, %hf4, H4⟩, ⟨%f5, %hf5, H5⟩, ⟨%xo, %f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    flash_mem
  isplitl [H7]
  · iexists _; isplitr
    swap; · iexact H7
    ipureintro
    flash_mem
  isplitl [H8]
  · iexists _; isplitr
    swap; · iexact H8
    ipureintro
    flash_mem
  iexists _; isplitr
  swap; · iexact H9
  ipureintro
  flash_mem

/-! ## The carried values point by point, and the proof data of region 1 -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The running maximum, the normalizer and the accumulator, as the kernel carries them in its three scratch buffers. -/
structure Carried (F : FTy → Type) [FloatOps F] where
  m : Vec F S1024x1 .f32
  l : Vec F S1024x1 .f32
  a : Vec F S1024x128 .f32

/-- One grid point's effect on the carried values: reset and one step at a query block's first key block, one step at
    a later key block that is accumulated, nothing otherwise. -/
def stepAt (i : grid1.Coords) (xq : Vec F S1x1024x128 .bf16) (xk xv : Vec F S1x512x128 .bf16) (s : Carried F) : Carried F :=
  if cInit i then
    ⟨mStep (BitVec.ofNat 32 (i 1).val) (BitVec.ofNat 32 (i 2).val) xq xk k1_pay1, lStep (BitVec.ofNat 32 (i 1).val) (BitVec.ofNat 32 (i 2).val) xq xk k1_pay1 k1_pay2, aStep (BitVec.ofNat 32 (i 1).val) (BitVec.ofNat 32 (i 2).val) xq xk xv k1_pay1 k1_pay3⟩
  else if cComp i then
    ⟨mStep (BitVec.ofNat 32 (i 1).val) (BitVec.ofNat 32 (i 2).val) xq xk s.m, lStep (BitVec.ofNat 32 (i 1).val) (BitVec.ofNat 32 (i 2).val) xq xk s.m s.l, aStep (BitVec.ofNat 32 (i 1).val) (BitVec.ofNat 32 (i 2).val) xq xk xv s.m s.a⟩
  else s

/-- The carried values after point n. -/
def carriedAt (c : Dev nD) : (n : ℕ) → n < cfg1.N → Carried F
  | 0, hn => stepAt (grid1.coords ⟨0, hn⟩) (iblk1 V c 0 ⟨0, hn⟩) (iblk1 V c 1 ⟨0, hn⟩) (iblk1 V c 2 ⟨0, hn⟩) ⟨k1_pay1, k1_pay2, k1_pay3⟩
  | n + 1, hn => stepAt (grid1.coords ⟨n + 1, hn⟩) (iblk1 V c 0 ⟨n + 1, hn⟩) (iblk1 V c 1 ⟨n + 1, hn⟩) (iblk1 V c 2 ⟨n + 1, hn⟩)
      (carriedAt c n (Nat.lt_of_succ_lt hn))

theorem carriedAt_pos (c : Dev nD) (t : Fin cfg1.N) (ht : t.val ≠ 0) :
    carriedAt V c t.val t.isLt = stepAt (grid1.coords t) (iblk1 V c 0 t) (iblk1 V c 1 t) (iblk1 V c 2 t)
      (carriedAt V c (t.val - 1) (Nat.lt_of_le_of_lt (Nat.sub_le _ _) t.isLt)) := by
  obtain ⟨n, hn⟩ := t
  cases n with
  | zero => exact absurd rfl ht
  | succ n => rfl

theorem carriedAt_zero (c : Dev nD) (t : Fin cfg1.N) (ht : t.val = 0) :
    carriedAt V c t.val t.isLt = stepAt (grid1.coords t) (iblk1 V c 0 t) (iblk1 V c 1 t) (iblk1 V c 2 t) ⟨k1_pay1, k1_pay2, k1_pay3⟩ := by
  obtain ⟨n, hn⟩ := t
  cases n with
  | zero => rfl
  | succ n => exact absurd ht (Nat.succ_ne_zero n)

/-! ### The conditions over the grid -/

theorem hInit : ∀ t : Fin cfg1.N, cInit (grid1.coords t) ↔ t.val % 4 = 0 :=
  (by decide +kernel : ∀ t : Fin grid1.N, cInit (grid1.coords t) ↔ t.val % 4 = 0)
theorem hFin : ∀ t : Fin cfg1.N, cFin (grid1.coords t) ↔ t.val % 4 = 3 :=
  (by decide +kernel : ∀ t : Fin grid1.N, cFin (grid1.coords t) ↔ t.val % 4 = 3)
theorem init_comp : ∀ t : Fin cfg1.N, cInit (grid1.coords t) → cComp (grid1.coords t) :=
  (by decide +kernel : ∀ t : Fin grid1.N, cInit (grid1.coords t) → cComp (grid1.coords t))
/-- The output window is idle exactly where the body does not finish a query block. -/
theorem idle_out : ∀ t : Fin cfg1.N, cfg1.idle 3 (cfg1.grid.coords t) = !decide (t.val % 4 = 3) :=
  (by decide +kernel : ∀ t : Fin grid1.N, idle1 3 (grid1.coords t) = !decide (t.val % 4 = 3))

/-! ### The invariant between points -/

abbrev scM0 : Memref sig .tc .vmem S1024x1 .f32 := Memref.whole cc1_scratch0
abbrev scM1 : Memref sig .tc .vmem S1024x1 .f32 := Memref.whole cc1_scratch1
abbrev scM2 : Memref sig .tc .vmem S1024x128 .f32 := Memref.whole cc1_scratch2

/-- The scoped buffers that are no staging buffer of region 1: the projection's five staging buffers at some contents
    each, and what is said of the three scratch buffers. -/
abbrev scoped1 (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ P)

/-- The class's invariant with the scratch buffers as memrefs owned at some contents. -/
theorem PhiA1_eq (c : Dev nD) :
    (Pipeline.ΦA spec1 c : sProp 𝕄)
      = iprop(scoped1 c iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest1_eq]; simp only [scM0, scM1, scM2, owns_whole]; try rfl

/-- Before the first point the scratch buffers hold anything; after point n they hold the carried values. -/
def PhiS (c : Dev nD) : (n : ℕ) → n ≤ cfg1.N → sProp 𝕄
  | 0, _ => Pipeline.ΦA spec1 c
  | n + 1, hn => iprop(scoped1 c iprop(owns (c : Thread nD τ) scM0 fullShare (carriedAt V c n hn).m
      ∗ owns (c : Thread nD τ) scM1 fullShare (carriedAt V c n hn).l
      ∗ owns (c : Thread nD τ) scM2 fullShare (carriedAt V c n hn).a) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scoped1 c iprop(owns (c : Thread nD τ) scM0 fullShare (carriedAt V c n hn).m
      ∗ owns (c : Thread nD τ) scM1 fullShare (carriedAt V c n hn).l
      ∗ owns (c : Thread nD τ) scM2 fullShare (carriedAt V c n hn).a) ∗ (∃ r, prngReg c r)) := rfl
theorem PhiS_pos (c : Dev nD) (n : ℕ) (h : n ≤ cfg1.N) (hz : n ≠ 0) :
    PhiS V c n h = iprop(scoped1 c iprop(owns (c : Thread nD τ) scM0 fullShare (carriedAt V c (n - 1) (by omega)).m
      ∗ owns (c : Thread nD τ) scM1 fullShare (carriedAt V c (n - 1) (by omega)).l
      ∗ owns (c : Thread nD τ) scM2 fullShare (carriedAt V c (n - 1) (by omega)).a) ∗ (∃ r, prngReg c r)) := by
  cases n with
  | zero => exact absurd rfl hz
  | succ n => rfl

/-- The proof data of region 1: the arrays as the region finds them; each input's buffer keeps its block; the output's
    buffer, where the body writes it, holds the carried accumulator divided by the carried normalizer; between points the
    scratch buffers hold the carried values. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay6 (carriedAt V c t.val t.isLt).a (carriedAt V c t.val t.isLt).l
  Φ t := PhiS V c t.val (Nat.le_of_lt_succ t.isLt)
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay6 (carriedAt V c t.val t.isLt).a (carriedAt V c t.val t.isLt).l := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem PhiS_castSucc (c : Dev nD) (t : Fin cfg1.N) : (dat1 V c).Φ t.castSucc = PhiS V c t.val (Nat.le_of_lt t.isLt) := rfl

end Cert.Kernel.Hand

end
-- ==== Proof.BitsFlashObligation.lean ====
/-
  Region 1's body obligation: at every grid point the body, handed the query, key and value blocks and the scratch
  buffers at the carried values the point before left, runs to the carried values after this point; the output
  buffer is written only at a query block's last key block and is handed back as found elsewhere. By cases on the
  three branch conditions, decided over the grid.
-/
import proofs.«172057_j17806934410015_2_alg».proof.Proof.Gen.Kernel.Launch
import proofs.«172057_j17806934410015_2_alg».proof.Proof.Gen.Kernel.Skeleton
import proofs.«172057_j17806934410015_2_alg».proof.Proof.Gen.Kernel.Points
import proofs.«172057_j17806934410015_2_alg».proof.Proof.BitsFlashBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation of region 1 -/

/-- Whatever the invariant says of the scratch buffers, they are held at some contents. -/
theorem PhiS_forget (c : Dev nD) (n : ℕ) (h : n ≤ cfg1.N) :
    PhiS V c n h ⊢ iprop(scoped1 c iprop((∃ d, owns (c : Thread nD τ) scM0 fullShare d) ∗ (∃ d, owns (c : Thread nD τ) scM1 fullShare d)
          ∗ (∃ d, owns (c : Thread nD τ) scM2 fullShare d)) ∗ (∃ r, prngReg c r)) := by
  cases n with
  | zero => rw [PhiS_zero V c 0 h rfl, PhiA1_eq]
  | succ n =>
    rw [PhiS_succ]
    iintro ⟨⟨Ha, Hb, Hc, Hd, He, HS0, HS1, HS2⟩, Hg⟩
    isplitr [Hg]
    · isplitl [Ha]; · iexact Ha
      isplitl [Hb]; · iexact Hb
      isplitl [Hc]; · iexact Hc
      isplitl [Hd]; · iexact Hd
      isplitl [He]; · iexact He
      isplitl [HS0]; · iexists _; iexact HS0
      isplitl [HS1]; · iexists _; iexact HS1
      iexists _; iexact HS2
    iexact Hg

theorem leaves3_fin (c : Dev nD) (t : Fin cfg1.N) (h : t.val % 4 = 3) :
    (dat1 V c).leavesExact 3 t = owns (c : Thread nD τ) (st1_3 t) fullShare ((dat1 V c).after 3 t) := by
  unfold Dat.leavesExact; rw [idle_out t]; simp only [h, decide_true, Bool.not_true]
theorem leaves3_idle (c : Dev nD) (t : Fin cfg1.N) (h : ¬t.val % 4 = 3) :
    (dat1 V c).leavesExact 3 t = iprop(∃ d, owns (c : Thread nD τ) (st1_3 t) fullShare ((dat1 V c).before 3 t d)) :=
  Dat.leavesExact_idle _ 3 t ((idle_out t).trans (by simp [h])) (Bool.eq_false_iff.mpr fun hf => h ((flush1_3 t).mp hf))

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2]
  rw [PhiS_castSucc]
  by_cases h1 : cInit (grid1.coords t)
  · -- a query block's first key block
    have h2 := init_comp t h1
    have h3' : ¬t.val % 4 = 3 := fun h => by have := (hInit t).mp h1; omega
    have h3 : ¬cFin (grid1.coords t) := fun h => h3' ((hFin t).mp h)
    rw [leaves3_idle V c t h3']
    have hstep : carriedAt V c t.val t.isLt = ⟨mStep (BitVec.ofNat 32 ((grid1.coords t) 1).val) (BitVec.ofNat 32 ((grid1.coords t) 2).val) (iblk1 V c 0 t) (iblk1 V c 1 t) k1_pay1,
        lStep (BitVec.ofNat 32 ((grid1.coords t) 1).val) (BitVec.ofNat 32 ((grid1.coords t) 2).val) (iblk1 V c 0 t) (iblk1 V c 1 t) k1_pay1 k1_pay2,
        aStep (BitVec.ofNat 32 ((grid1.coords t) 1).val) (BitVec.ofNat 32 ((grid1.coords t) 2).val) (iblk1 V c 0 t) (iblk1 V c 1 t) (iblk1 V c 2 t) k1_pay1 k1_pay3⟩ := by
      by_cases hz : t.val = 0
      · rw [carriedAt_zero V c t hz]; unfold stepAt; rw [if_pos h1]
      · rw [carriedAt_pos V c t hz]; unfold stepAt; rw [if_pos h1]
    rw [congrArg Carried.m hstep, congrArg Carried.l hstep, congrArg Carried.a hstep]
    refine (sep_mono (PhiS_forget V c _ _) .rfl).trans ?_
    iintro ⟨⟨⟨Ha, Hb, Hc, Hd, He, HS0, HS1, HS2⟩, Hg⟩, Ho, ⟨%d0, H0⟩, ⟨%d1, H1⟩, ⟨%d2, H2⟩, ⟨%d3, H3⟩⟩
    iapply (sound_flash_A c Set.univ (grid1.coords t) _ _ _ _ _ _ _ _ _ _ _ _ _ _ h1 h2 h3 (iblk1 V c 0 t) (iblk1 V c 1 t) (iblk1 V c 2 t) _ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [Ha Hb Hc Hd He HS0 HS1 HS2 Hg]
    · isplitr [Hg]
      · isplitl [Ha]; · iexact Ha
        isplitl [Hb]; · iexact Hb
        isplitl [Hc]; · iexact Hc
        isplitl [Hd]; · iexact Hd
        isplitl [He]; · iexact He
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexists _; iexact H3
  · have hz : t.val ≠ 0 := fun hz => h1 ((hInit t).mpr (by rw [hz]))
    rw [PhiS_pos V c _ _ hz]
    by_cases h2 : cComp (grid1.coords t)
    · have hstep : carriedAt V c t.val t.isLt = ⟨mStep (BitVec.ofNat 32 ((grid1.coords t) 1).val) (BitVec.ofNat 32 ((grid1.coords t) 2).val) (iblk1 V c 0 t) (iblk1 V c 1 t) (carriedAt V c (t.val - 1) (Nat.lt_of_le_of_lt (Nat.sub_le _ _) t.isLt)).m,
          lStep (BitVec.ofNat 32 ((grid1.coords t) 1).val) (BitVec.ofNat 32 ((grid1.coords t) 2).val) (iblk1 V c 0 t) (iblk1 V c 1 t) (carriedAt V c (t.val - 1) (Nat.lt_of_le_of_lt (Nat.sub_le _ _) t.isLt)).m (carriedAt V c (t.val - 1) (Nat.lt_of_le_of_lt (Nat.sub_le _ _) t.isLt)).l,
          aStep (BitVec.ofNat 32 ((grid1.coords t) 1).val) (BitVec.ofNat 32 ((grid1.coords t) 2).val) (iblk1 V c 0 t) (iblk1 V c 1 t) (iblk1 V c 2 t) (carriedAt V c (t.val - 1) (Nat.lt_of_le_of_lt (Nat.sub_le _ _) t.isLt)).m (carriedAt V c (t.val - 1) (Nat.lt_of_le_of_lt (Nat.sub_le _ _) t.isLt)).a⟩ := by
        rw [carriedAt_pos V c t hz]; unfold stepAt; rw [if_neg h1, if_pos h2]
      by_cases h3 : cFin (grid1.coords t)
      · -- the last key block, accumulated
        rw [leaves3_fin V c t ((hFin t).mp h3), after1_3]
        rw [congrArg Carried.m hstep, congrArg Carried.l hstep, congrArg Carried.a hstep]
        iintro ⟨⟨⟨Ha, Hb, Hc, Hd, He, HS0, HS1, HS2⟩, Hg⟩, Ho, ⟨%d0, H0⟩, ⟨%d1, H1⟩, ⟨%d2, H2⟩, ⟨%d3, H3⟩⟩
        iapply (sound_flash_E c Set.univ (grid1.coords t) _ _ _ _ _ _ _ _ _ _ _ _ _ _ h1 h2 h3 (iblk1 V c 0 t) (iblk1 V c 1 t) (iblk1 V c 2 t) _ _ _ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, H3, HS0, HS1, HS2⟩
        isplitl [Ha Hb Hc Hd He HS0 HS1 HS2 Hg]
        · isplitr [Hg]
          · isplitl [Ha]; · iexact Ha
            isplitl [Hb]; · iexact Hb
            isplitl [Hc]; · iexact Hc
            isplitl [Hd]; · iexact Hd
            isplitl [He]; · iexact He
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iexact H3
      · -- a later key block, accumulated, not the last
        have h3' : ¬t.val % 4 = 3 := fun h => h3 ((hFin t).mpr h)
        rw [leaves3_idle V c t h3']
        rw [congrArg Carried.m hstep, congrArg Carried.l hstep, congrArg Carried.a hstep]
        iintro ⟨⟨⟨Ha, Hb, Hc, Hd, He, HS0, HS1, HS2⟩, Hg⟩, Ho, ⟨%d0, H0⟩, ⟨%d1, H1⟩, ⟨%d2, H2⟩, ⟨%d3, H3⟩⟩
        iapply (sound_flash_B c Set.univ (grid1.coords t) _ _ _ _ _ _ _ _ _ _ _ _ _ _ h1 h2 h3 (iblk1 V c 0 t) (iblk1 V c 1 t) (iblk1 V c 2 t) _ _ _ _ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [Ha Hb Hc Hd He HS0 HS1 HS2 Hg]
        · isplitr [Hg]
          · isplitl [Ha]; · iexact Ha
            isplitl [Hb]; · iexact Hb
            isplitl [Hc]; · iexact Hc
            isplitl [Hd]; · iexact Hd
            isplitl [He]; · iexact He
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iexists _; iexact H3
    · have hstep : carriedAt V c t.val t.isLt = carriedAt V c (t.val - 1) (Nat.lt_of_le_of_lt (Nat.sub_le _ _) t.isLt) := by
        rw [carriedAt_pos V c t hz]; unfold stepAt; rw [if_neg h1, if_neg h2]
      rw [hstep]
      by_cases h3 : cFin (grid1.coords t)
      · -- the last key block, wholly after the query block's rows
        rw [leaves3_fin V c t ((hFin t).mp h3), after1_3, hstep]
        iintro ⟨⟨⟨Ha, Hb, Hc, Hd, He, HS0, HS1, HS2⟩, Hg⟩, Ho, ⟨%d0, H0⟩, ⟨%d1, H1⟩, ⟨%d2, H2⟩, ⟨%d3, H3⟩⟩
        iapply (sound_flash_D c Set.univ (grid1.coords t) _ _ _ _ _ _ _ _ _ _ _ _ _ _ h1 h2 h3 (iblk1 V c 0 t) (iblk1 V c 1 t) (iblk1 V c 2 t) _ _ _ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, H3, HS0, HS1, HS2⟩
        isplitl [Ha Hb Hc Hd He HS0 HS1 HS2 Hg]
        · isplitr [Hg]
          · isplitl [Ha]; · iexact Ha
            isplitl [Hb]; · iexact Hb
            isplitl [Hc]; · iexact Hc
            isplitl [Hd]; · iexact Hd
            isplitl [He]; · iexact He
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iexact H3
      · -- a key block wholly after the query block's rows, not the last
        have h3' : ¬t.val % 4 = 3 := fun h => h3 ((hFin t).mpr h)
        rw [leaves3_idle V c t h3']
        iintro ⟨⟨⟨Ha, Hb, Hc, Hd, He, HS0, HS1, HS2⟩, Hg⟩, Ho, ⟨%d0, H0⟩, ⟨%d1, H1⟩, ⟨%d2, H2⟩, ⟨%d3, H3⟩⟩
        iapply (sound_flash_C c Set.univ (grid1.coords t) _ _ _ _ _ _ _ _ _ _ _ _ _ _ h1 h2 h3 (iblk1 V c 0 t) (iblk1 V c 1 t) (iblk1 V c 2 t) _ _ _ _ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [Ha Hb Hc Hd He HS0 HS1 HS2 Hg]
        · isplitr [Hg]
          · isplitl [Ha]; · iexact Ha
            isplitl [Hb]; · iexact Hb
            isplitl [Hc]; · iexact Hc
            isplitl [Hd]; · iexact Hd
            isplitl [He]; · iexact He
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the scratch buffers' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_forget V c _ _

end Cert.Kernel.Hand

end
-- ==== Proof.BitsKernelRun.lean ====
/-
  The whole program as four segments — host operations, the projection region, host operations, the attention region —
  with the contents of every buffer named at each boundary: after a host stretch what its operations compute, after a
  region its arrays at what the write-backs leave and every other buffer as entered. Every weakly fair execution
  terminates with every unscoped buffer at the last boundary's contents; in particular the arguments end as launched.
-/
import proofs.«172057_j17806934410015_2_alg».proof.Proof.Gen.Kernel.Launch
import proofs.«172057_j17806934410015_2_alg».proof.Proof.Gen.Kernel.Skeleton
import proofs.«172057_j17806934410015_2_alg».proof.Proof.Gen.Kernel.Points
import proofs.«172057_j17806934410015_2_alg».proof.Proof.BitsProjBody
import proofs.«172057_j17806934410015_2_alg».proof.Proof.BitsFlashObligation
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's four segments from the launch to the return

## The buffer contents at each segment boundary -/

/-- Core c's buffers at launch. -/
abbrev W0 : Dev nD → Valuation τ sig (Elt F) := fun c b => m (c, b)
/-- After the host operations before the projection. -/
abbrev W1 : Dev nD → Valuation τ sig (Elt F) := fun c => StableHlo.after hostOps0 (W0 m c)
abbrev Vt1 : (c : Dev nD) → (b : Ref sig .tc) → Buf (Elt F) ((c : Thread nD τ).loc b) := fun c b => W1 m c b
/-- At the projection's exit: its arrays at what the pipeline leaves, every other buffer as entered. -/
def W2 (c : Dev nD) : Valuation τ sig (Elt F) :=
  Pipeline.withArrays spec0 c (W1 m c) fun w => (dat0 (Vt1 m) c).arrAt w cfg0.N
theorem W2_arr (c : Dev nD) (w : Fin cfg0.W) :
    W2 m c (Proc.devRef .tc (Pipeline.arrRef spec0 w)) = (dat0 (Vt1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vt2 : (c : Dev nD) → (b : Ref sig .tc) → Buf (Elt F) ((c : Thread nD τ).loc b) := fun c b => W2 m c b
theorem hF0 (c : Dev nD) (w : Fin cfg0.W) : (dat0 (Vt1 m) c).arrAt w cfg0.N = Vt2 m c (Pipeline.arrRef spec0 w) :=
  (W2_arr m c w).symm
theorem hrest0 (c : Dev nD) : ∀ b, b ∉ Finset.univ.image (Pipeline.arrRef spec0) → Vt2 m c b = Vt1 m c b :=
  fun b hb => W2_of_ne m c b fun w e => hb (Finset.mem_image.mpr ⟨w, Finset.mem_univ _, e⟩)

/-- After the host operations between the regions. -/
abbrev W3 : Dev nD → Valuation τ sig (Elt F) := fun c => StableHlo.after hostOps1 (W2 m c)
abbrev Vt3 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (dat1 (Vt3 m) c).arrAt w cfg1.N
theorem W4_arr (c : Dev nD) (w : Fin cfg1.W) :
    W4 m c (Proc.devRef .tc (Pipeline.arrRef spec1 w)) = (dat1 (Vt3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev Vt4 : (c : Dev nD) → (b : Ref sig .tc) → Buf (Elt F) ((c : Thread nD τ).loc b) := fun c b => W4 m c b
theorem hF1 (c : Dev nD) (w : Fin cfg1.W) : (dat1 (Vt3 m) c).arrAt w cfg1.N = Vt4 m c (Pipeline.arrRef spec1 w) :=
  (W4_arr m c w).symm
theorem hrest1 (c : Dev nD) : ∀ b, b ∉ Finset.univ.image (Pipeline.arrRef spec1) → Vt4 m c b = Vt3 m c b :=
  fun b hb => W4_of_ne m c b fun w e => hb (Finset.mem_image.mpr ⟨w, Finset.mem_univ _, e⟩)

/-! ### The arguments end as launched: no host operation writes one and no region stages one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-! ## The proof data family and the thread state -/

abbrev admH : (p : Fin 2) → (pcfgs (F := F) p).Adm := fun p => (cfgs p).toPCfg_adm
def pdatsH : (p : Fin 2) → (c : Dev nD) → Dat τ (Elt F) Unit ℕ (UR sig nD τ) ℕ (Pipeline.pin (pcfgs (F := F)) admH p) c
  | ⟨0, _⟩ => fun c => dat0 (Vt1 m) c
  | ⟨1, _⟩ => fun c => dat1 (Vt3 m) c
abbrev 𝒱H : Variants := Variants.none
abbrev LH : GSem nD τ sig → Finset Unit := fun _ => ∅
abbrev lvH : GSem nD τ sig → Unit → ℕ := fun _ _ => 0
/-- What rides beside the buffers through every segment: the generator register at some state, nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem hostOps0_freshH : (hostOps0 : List (HloOp τ sig (Elt F))).Forall fun op => op.fresh = ∅ := by
  simp only [List.Forall]; repeat' constructor
theorem hostOps1_freshH : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (Vt1 m c) (Vt2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vt3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vt3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (Vt3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vt3 m) c)
    unfold Pipeline.ΦA
    iintro ⟨Hp, -, Hr⟩
    isplitl [Hr]; · iexact Hr
    iexact Hp
  hout c := by
    rw [Pipeline.ownSems0_none]
    refine (hout1 (Vt3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (Vt3 m c) (Vt4 m c) ((pdatsH m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m) () defs₀ 𝒱H LH lvH) :=
  [ .host (hsegH hostOps0 hostOps0_sub hostOps0_freshH (W0 m)),
    .region (reg0 m),
    .host (hsegH hostOps1 hostOps1_sub hostOps1_freshH (W2 m)),
    .region (reg1 m) ]
theorem main_runH (c : Dev nD) : main (F := F) c = Pipeline.Seg.run (segsH m) := (main_chain c).trans (by chain_rfl)

set_option backward.isDefEq.respectTransparency.types false in
/-- Every weakly fair execution of @main terminates, nothing faulting, and every final state holds each unscoped
    buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.Kernel.Hand

end
-- ==== Proof.ProjBody.lean ====
/-
  Region 0, the projection: at grid point i the body multiplies the i-th block of 1024 rows of the flattened
  input (1024 columns) by the whole 1024 × 384 weight matrix and stores the 1024 × 384 product; the body also
  reads its output buffer once and ignores what it read. Here: what the output buffer holds after the body as a
  function of the two input blocks, the body's triple, and the pipeline's proof data for this region at any
  contents V of the buffers when the region is entered.
-/
import proofs.«172057_j17806934410015_2_alg».proof.Proof.Gen.KernelIdeal.Launch
import proofs.«172057_j17806934410015_2_alg».proof.Proof.Gen.KernelIdeal.Skeleton
import proofs.«172057_j17806934410015_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole of each buffer, as the rectangle the body reads or writes it through. -/
abbrev rX : Rect S1024x1024 := Rect.unit (s := S1024x1024) ![0, 0] S1024x1024.size inb_S1024x1024_S1024x1024_0_0
abbrev rW : Rect S1024x384 := Rect.unit (s := S1024x384) ![0, 0] S1024x384.size inb_S1024x384_S1024x384_0_0

/-- The output buffer after the body: the product of the two input blocks, stored whole. -/
def proj (x0 : Vec F S1024x1024 .f32) (x1 : Vec F S1024x384 .f32) : Vec F S1024x384 .bf16 :=
  View.canon [⟨rW, k0_pay1 (View.ld x0 rX) (View.ld x1 rW)⟩]

theorem proj_cover (p0 : Vec F S1024x384 .bf16) (y : S1024x384.Idx) :
    ∃ pc ∈ ([⟨rW, p0⟩] : List (View.Piece (Elt F) S1024x384 .bf16)), y ∈ pc.1.set :=
  View.cover_of_tiled [⟨rW, p0⟩] S1024x384.size (by rfl) y

set_option maxHeartbeats 1000000 in
/-- The body on whole staging memrefs: the inputs' contents stay, the output's becomes the product. -/
theorem sound_proj (c : Dev nD) (E : Set ℕ) (i : grid0.Coords)
    (arg1 : Memref sig .tc .vmem S1024x1024 .f32) (harg1 : arg1.IsWhole) (arg2 : Memref sig .tc .vmem S1024x384 .f32) (harg2 : arg2.IsWhole)
    (arg3 : Memref sig .tc .vmem S1024x384 .bf16) (harg3 : arg3.IsWhole)
    (x0 : Vec F S1024x1024 .f32) (x1 : Vec F S1024x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (proj x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (proj_cover _)

/-! ## The proof data of region 0 -/

/-- After the body at point t each input's buffer holds its block and the output's the product of the two blocks;
    between points the scoped buffers that are no staging buffer of this region and the generator register ride
    along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => proj (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = proj (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_proj c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FlashBody.lean ====
/-
  Region 1, causal attention by blocks: at grid point (batch, query block of 1024 rows, key block of 512 rows) the body
  keeps, per query row, a running maximum m, a normalizer l and an accumulator a in three scratch buffers. At a query
  block's first key block it resets them (minus infinity, 0, 0); where the key block starts at or before the query
  block's last row it takes one step (scores q·k masked to key position ≤ query position, m' = max m (row max),
  l' = exp(m − m')·l + Σ exp(s − m'), a' = exp(m − m')·a + Σ exp(s − m')·v); at the last key block it stores a / l.
  Here: the three branch conditions from the grid coordinates, one step as pure functions of the blocks and the carried
  values, and the body's triple in each of the five combinations of branches the grid meets; then the carried values
  point by point, the invariant that names the scratch buffers' contents between points, and the region's proof data.
-/
import proofs.«172057_j17806934410015_2_alg».proof.Proof.Gen.KernelIdeal.Launch
import proofs.«172057_j17806934410015_2_alg».proof.Proof.Gen.KernelIdeal.Skeleton
import proofs.«172057_j17806934410015_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## Whole-buffer stores and loads -/

theorem hz2 : (![0, 0] : Fin 2 → ℕ) = fun _ => 0 := by funext a; fin_cases a <;> rfl
theorem hz3 : (![0, 0, 0] : Fin 3 → ℕ) = fun _ => 0 := by funext a; fin_cases a <;> rfl

section Whole
variable {sig' : RefSig} {κ : Kind} {sp : Space} {S : Shape} {e : EltTy} {Val : EltTy → Type} [∀ e, Nonempty (Val e)]

/-- After a last store through the whole buffer, the buffer reads as that store's payload. -/
theorem read_store_whole (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self .., View.mem_set_unit_zero h inb y⟩)).trans
    (View.canon_cons_unit_zero h inb w L)

/-- A whole-buffer load after a last whole-buffer store reads that store's payload. -/
theorem readCov_cons_whole (v : View sig' κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h inb, View.ld_unit_zero h inb]
end Whole

/-! ## The body's three branch conditions, from the grid coordinates -/

/-- First key block of a query block: the running maximum, normalizer and accumulator are reset. -/
abbrev cInit (i : grid1.Coords) : Prop := (Scalar.cmpi .ne (Scalar.extui (Scalar.cmpi .eq (BitVec.ofNat 32 (i 2).val) 0#32)) 0#32) = 1#1
/-- The key block starts at or before the query block's last row: it is accumulated. -/
abbrev cComp (i : grid1.Coords) : Prop := (Scalar.cmpi .ne (Scalar.extui (Scalar.cmpi .slt (Scalar.muli (BitVec.ofNat 32 (i 2).val) 512#32) (Scalar.muli (Scalar.addi (BitVec.ofNat 32 (i 1).val) 1#32) 1024#32))) 0#32) = 1#1
/-- Last key block: the accumulator is divided by the normalizer and stored. -/
abbrev cFin (i : grid1.Coords) : Prop := k1_cond3 i = 1#1

/-! ## One accumulation step, as pure functions of the blocks and the carried values -/

/-- The running row maximum after the step. -/
def mStep (qi ki : BitVec 32) (q : Vec F S1x1024x128 .bf16) (k : Vec F S1x512x128 .bf16) (m : Vec F S1024x1 .f32) : Vec F S1024x1 .f32 :=
  k1_pay5 (k1_pay9 qi ki q k m)
/-- The normalizer after the step. -/
def lStep (qi ki : BitVec 32) (q : Vec F S1x1024x128 .bf16) (k : Vec F S1x512x128 .bf16) (m l : Vec F S1024x1 .f32) : Vec F S1024x1 .f32 :=
  k1_pay12 qi ki q k m m l
/-- The accumulator after the step. -/
def aStep (qi ki : BitVec 32) (q : Vec F S1x1024x128 .bf16) (k v : Vec F S1x512x128 .bf16) (m : Vec F S1024x1 .f32) (a : Vec F S1024x128 .f32) : Vec F S1024x128 .f32 :=
  k1_pay4 (k1_pay7 v) (k1_pay10 qi ki q k m m) (k1_pay11 qi ki q k m) a

set_option hygiene false in
/-- What a buffer reads after the body's stores, against the step functions: open the run's names, take the last
    whole-buffer store's payload, and read every whole-buffer load as the contents loaded. -/
macro "flash_mem" : tactic => `(tactic| (
  sl_unfold_words
  first
    | refine (read_store_whole _ _ hz2 _ _ _).trans ?_
    | refine (read_store_whole _ _ hz3 _ _ _).trans ?_
  first
    | rfl
    | simp only [readCov_cons_whole (S := S1024x1) _ hz2, readCov_cons_whole (S := S1024x128) _ hz2, View.readAt_eq_ld,
        harg3.read_unread, harg4.read_unread, harg5.read_unread, harg6.read_unread, harg7.read_unread,
        harg8.read_unread, harg9.read_unread, View.ld_unit_zero (S := S1x1024x128) hz3, View.ld_unit_zero (S := S1x512x128) hz3,
        View.ld_unit_zero (S := S1024x1) hz2, View.ld_unit_zero (S := S1024x128) hz2, aStep, lStep, mStep]))

/-! ## The body's triple in each of the five control cases the grid meets -/

set_option maxHeartbeats 4000000 in
/-- First key block of a query block (always accumulated, never the last): whatever the carried buffers held, they are reset and take one step; the output buffer is left as found. -/
theorem sound_flash_A (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (h1 : cInit i) (h2 : cComp i) (h3 : ¬cFin i)
    (xq : Vec F S1x1024x128 .bf16) (xk xv : Vec F S1x512x128 .bf16) (xo : Vec F S1x1024x128 .f32) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xo ∗ (∃ sm, owns (c : Thread nD τ) arg7 fullShare sm) ∗ (∃ sl, owns (c : Thread nD τ) arg8 fullShare sl) ∗ (∃ sa, owns (c : Thread nD τ) arg9 fullShare sa)
        ∗ (iprop(owns (c : Thread nD τ) arg3 fullShare xq ∗ owns (c : Thread nD τ) arg4 fullShare xk ∗ owns (c : Thread nD τ) arg5 fullShare xv
            ∗ owns (c : Thread nD τ) arg6 fullShare xo
            ∗ owns (c : Thread nD τ) arg7 fullShare (mStep (BitVec.ofNat 32 (i 1).val) (BitVec.ofNat 32 (i 2).val) xq xk k1_pay1)
            ∗ owns (c : Thread nD τ) arg8 fullShare (lStep (BitVec.ofNat 32 (i 1).val) (BitVec.ofNat 32 (i 2).val) xq xk k1_pay1 k1_pay2)
            ∗ owns (c : Thread nD τ) arg9 fullShare (aStep (BitVec.ofNat 32 (i 1).val) (BitVec.ofNat 32 (i 2).val) xq xk xv k1_pay1 k1_pay3)) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%sm, %f7, %hf7, H7⟩, ⟨%sl, %f8, %hf8, H8⟩, ⟨%sa, %f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    flash_mem
  isplitl [H8]
  · iexists _; isplitr
    swap; · iexact H8
    ipureintro
    flash_mem
  iexists _; isplitr
  swap; · iexact H9
  ipureintro
  flash_mem

set_option maxHeartbeats 4000000 in
/-- A later key block that is accumulated and is not the last: the carried values take one step; the output buffer is left as found. -/
theorem sound_flash_B (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (h1 : ¬cInit i) (h2 : cComp i) (h3 : ¬cFin i)
    (xq : Vec F S1x1024x128 .bf16) (xk xv : Vec F S1x512x128 .bf16) (xo : Vec F S1x1024x128 .f32) (sm sl : Vec F S1024x1 .f32) (sa : Vec F S1024x128 .f32) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xo ∗ owns (c : Thread nD τ) arg7 fullShare sm ∗ owns (c : Thread nD τ) arg8 fullShare sl ∗ owns (c : Thread nD τ) arg9 fullShare sa
        ∗ (iprop(owns (c : Thread nD τ) arg3 fullShare xq ∗ owns (c : Thread nD τ) arg4 fullShare xk ∗ owns (c : Thread nD τ) arg5 fullShare xv
            ∗ owns (c : Thread nD τ) arg6 fullShare xo
            ∗ owns (c : Thread nD τ) arg7 fullShare (mStep (BitVec.ofNat 32 (i 1).val) (BitVec.ofNat 32 (i 2).val) xq xk sm)
            ∗ owns (c : Thread nD τ) arg8 fullShare (lStep (BitVec.ofNat 32 (i 1).val) (BitVec.ofNat 32 (i 2).val) xq xk sm sl)
            ∗ owns (c : Thread nD τ) arg9 fullShare (aStep (BitVec.ofNat 32 (i 1).val) (BitVec.ofNat 32 (i 2).val) xq xk xv sm sa)) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    flash_mem
  isplitl [H8]
  · iexists _; isplitr
    swap; · iexact H8
    ipureintro
    flash_mem
  iexists _; isplitr
  swap; · iexact H9
  ipureintro
  flash_mem

set_option maxHeartbeats 4000000 in
/-- A key block wholly after the query block's rows, not the last: nothing is read or written. -/
theorem sound_flash_C (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (h1 : ¬cInit i) (h2 : ¬cComp i) (h3 : ¬cFin i)
    (xq : Vec F S1x1024x128 .bf16) (xk xv : Vec F S1x512x128 .bf16) (xo : Vec F S1x1024x128 .f32) (sm sl : Vec F S1024x1 .f32) (sa : Vec F S1024x128 .f32) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xo ∗ owns (c : Thread nD τ) arg7 fullShare sm ∗ owns (c : Thread nD τ) arg8 fullShare sl ∗ owns (c : Thread nD τ) arg9 fullShare sa
        ∗ (iprop(owns (c : Thread nD τ) arg3 fullShare xq ∗ owns (c : Thread nD τ) arg4 fullShare xk ∗ owns (c : Thread nD τ) arg5 fullShare xv
            ∗ owns (c : Thread nD τ) arg6 fullShare xo
            ∗ owns (c : Thread nD τ) arg7 fullShare sm
            ∗ owns (c : Thread nD τ) arg8 fullShare sl
            ∗ owns (c : Thread nD τ) arg9 fullShare sa) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

set_option maxHeartbeats 4000000 in
/-- The last key block, wholly after the query block's rows: the carried values stay, and the output block is the accumulator divided by the normalizer. -/
theorem sound_flash_D (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (h1 : ¬cInit i) (h2 : ¬cComp i) (h3 : cFin i)
    (xq : Vec F S1x1024x128 .bf16) (xk xv : Vec F S1x512x128 .bf16) (sm sl : Vec F S1024x1 .f32) (sa : Vec F S1024x128 .f32) (K : PUnit → sProp 𝕄) :
    iprop(owns (c : Thread nD τ) arg3 fullShare xq ∗ owns (c : Thread nD τ) arg4 fullShare xk ∗ owns (c : Thread nD τ) arg5 fullShare xv
        ∗ (∃ xo, owns (c : Thread nD τ) arg6 fullShare xo) ∗ owns (c : Thread nD τ) arg7 fullShare sm ∗ owns (c : Thread nD τ) arg8 fullShare sl ∗ owns (c : Thread nD τ) arg9 fullShare sa
        ∗ (iprop(owns (c : Thread nD τ) arg3 fullShare xq ∗ owns (c : Thread nD τ) arg4 fullShare xk ∗ owns (c : Thread nD τ) arg5 fullShare xv
            ∗ owns (c : Thread nD τ) arg6 fullShare (k1_pay6 sa sl)
            ∗ owns (c : Thread nD τ) arg7 fullShare sm
            ∗ owns (c : Thread nD τ) arg8 fullShare sl
            ∗ owns (c : Thread nD τ) arg9 fullShare sa) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f3, %hf3, H3⟩, ⟨%f4, %hf4, H4⟩, ⟨%f5, %hf5, H5⟩, ⟨%xo, %f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    flash_mem
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

set_option maxHeartbeats 4000000 in
/-- The last key block, accumulated: the carried values take one step, and the output block is the new accumulator divided by the new normalizer. -/
theorem sound_flash_E (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (h1 : ¬cInit i) (h2 : cComp i) (h3 : cFin i)
    (xq : Vec F S1x1024x128 .bf16) (xk xv : Vec F S1x512x128 .bf16) (sm sl : Vec F S1024x1 .f32) (sa : Vec F S1024x128 .f32) (K : PUnit → sProp 𝕄) :
    iprop(owns (c : Thread nD τ) arg3 fullShare xq ∗ owns (c : Thread nD τ) arg4 fullShare xk ∗ owns (c : Thread nD τ) arg5 fullShare xv
        ∗ (∃ xo, owns (c : Thread nD τ) arg6 fullShare xo) ∗ owns (c : Thread nD τ) arg7 fullShare sm ∗ owns (c : Thread nD τ) arg8 fullShare sl ∗ owns (c : Thread nD τ) arg9 fullShare sa
        ∗ (iprop(owns (c : Thread nD τ) arg3 fullShare xq ∗ owns (c : Thread nD τ) arg4 fullShare xk ∗ owns (c : Thread nD τ) arg5 fullShare xv
            ∗ owns (c : Thread nD τ) arg6 fullShare (k1_pay6 (aStep (BitVec.ofNat 32 (i 1).val) (BitVec.ofNat 32 (i 2).val) xq xk xv sm sa) (lStep (BitVec.ofNat 32 (i 1).val) (BitVec.ofNat 32 (i 2).val) xq xk sm sl))
            ∗ owns (c : Thread nD τ) arg7 fullShare (mStep (BitVec.ofNat 32 (i 1).val) (BitVec.ofNat 32 (i 2).val) xq xk sm)
            ∗ owns (c : Thread nD τ) arg8 fullShare (lStep (BitVec.ofNat 32 (i 1).val) (BitVec.ofNat 32 (i 2).val) xq xk sm sl)
            ∗ owns (c : Thread nD τ) arg9 fullShare (aStep (BitVec.ofNat 32 (i 1).val) (BitVec.ofNat 32 (i 2).val) xq xk xv sm sa)) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]; unfold k1_part1_skel
  unfold owns
  iintro ⟨⟨%f3, %hf3, H3⟩, ⟨%f4, %hf4, H4⟩, ⟨%f5, %hf5, H5⟩, ⟨%xo, %f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    flash_mem
  isplitl [H7]
  · iexists _; isplitr
    swap; · iexact H7
    ipureintro
    flash_mem
  isplitl [H8]
  · iexists _; isplitr
    swap; · iexact H8
    ipureintro
    flash_mem
  iexists _; isplitr
  swap; · iexact H9
  ipureintro
  flash_mem

/-! ## The carried values point by point, and the proof data of region 1 -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The running maximum, the normalizer and the accumulator, as the kernel carries them in its three scratch buffers. -/
structure Carried (F : FTy → Type) [FloatOps F] where
  m : Vec F S1024x1 .f32
  l : Vec F S1024x1 .f32
  a : Vec F S1024x128 .f32

/-- One grid point's effect on the carried values: reset and one step at a query block's first key block, one step at
    a later key block that is accumulated, nothing otherwise. -/
def stepAt (i : grid1.Coords) (xq : Vec F S1x1024x128 .bf16) (xk xv : Vec F S1x512x128 .bf16) (s : Carried F) : Carried F :=
  if cInit i then
    ⟨mStep (BitVec.ofNat 32 (i 1).val) (BitVec.ofNat 32 (i 2).val) xq xk k1_pay1, lStep (BitVec.ofNat 32 (i 1).val) (BitVec.ofNat 32 (i 2).val) xq xk k1_pay1 k1_pay2, aStep (BitVec.ofNat 32 (i 1).val) (BitVec.ofNat 32 (i 2).val) xq xk xv k1_pay1 k1_pay3⟩
  else if cComp i then
    ⟨mStep (BitVec.ofNat 32 (i 1).val) (BitVec.ofNat 32 (i 2).val) xq xk s.m, lStep (BitVec.ofNat 32 (i 1).val) (BitVec.ofNat 32 (i 2).val) xq xk s.m s.l, aStep (BitVec.ofNat 32 (i 1).val) (BitVec.ofNat 32 (i 2).val) xq xk xv s.m s.a⟩
  else s

/-- The carried values after point n. -/
def carriedAt (c : Dev nD) : (n : ℕ) → n < cfg1.N → Carried F
  | 0, hn => stepAt (grid1.coords ⟨0, hn⟩) (iblk1 V c 0 ⟨0, hn⟩) (iblk1 V c 1 ⟨0, hn⟩) (iblk1 V c 2 ⟨0, hn⟩) ⟨k1_pay1, k1_pay2, k1_pay3⟩
  | n + 1, hn => stepAt (grid1.coords ⟨n + 1, hn⟩) (iblk1 V c 0 ⟨n + 1, hn⟩) (iblk1 V c 1 ⟨n + 1, hn⟩) (iblk1 V c 2 ⟨n + 1, hn⟩)
      (carriedAt c n (Nat.lt_of_succ_lt hn))

theorem carriedAt_pos (c : Dev nD) (t : Fin cfg1.N) (ht : t.val ≠ 0) :
    carriedAt V c t.val t.isLt = stepAt (grid1.coords t) (iblk1 V c 0 t) (iblk1 V c 1 t) (iblk1 V c 2 t)
      (carriedAt V c (t.val - 1) (Nat.lt_of_le_of_lt (Nat.sub_le _ _) t.isLt)) := by
  obtain ⟨n, hn⟩ := t
  cases n with
  | zero => exact absurd rfl ht
  | succ n => rfl

theorem carriedAt_zero (c : Dev nD) (t : Fin cfg1.N) (ht : t.val = 0) :
    carriedAt V c t.val t.isLt = stepAt (grid1.coords t) (iblk1 V c 0 t) (iblk1 V c 1 t) (iblk1 V c 2 t) ⟨k1_pay1, k1_pay2, k1_pay3⟩ := by
  obtain ⟨n, hn⟩ := t
  cases n with
  | zero => rfl
  | succ n => exact absurd ht (Nat.succ_ne_zero n)

/-! ### The conditions over the grid -/

theorem hInit : ∀ t : Fin cfg1.N, cInit (grid1.coords t) ↔ t.val % 4 = 0 :=
  (by decide +kernel : ∀ t : Fin grid1.N, cInit (grid1.coords t) ↔ t.val % 4 = 0)
theorem hFin : ∀ t : Fin cfg1.N, cFin (grid1.coords t) ↔ t.val % 4 = 3 :=
  (by decide +kernel : ∀ t : Fin grid1.N, cFin (grid1.coords t) ↔ t.val % 4 = 3)
theorem init_comp : ∀ t : Fin cfg1.N, cInit (grid1.coords t) → cComp (grid1.coords t) :=
  (by decide +kernel : ∀ t : Fin grid1.N, cInit (grid1.coords t) → cComp (grid1.coords t))
/-- The output window is idle exactly where the body does not finish a query block. -/
theorem idle_out : ∀ t : Fin cfg1.N, cfg1.idle 3 (cfg1.grid.coords t) = !decide (t.val % 4 = 3) :=
  (by decide +kernel : ∀ t : Fin grid1.N, idle1 3 (grid1.coords t) = !decide (t.val % 4 = 3))

/-! ### The invariant between points -/

abbrev scM0 : Memref sig .tc .vmem S1024x1 .f32 := Memref.whole cc1_scratch0
abbrev scM1 : Memref sig .tc .vmem S1024x1 .f32 := Memref.whole cc1_scratch1
abbrev scM2 : Memref sig .tc .vmem S1024x128 .f32 := Memref.whole cc1_scratch2

/-- The scoped buffers that are no staging buffer of region 1: the projection's five staging buffers at some contents
    each, and what is said of the three scratch buffers. -/
abbrev scoped1 (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ P)

/-- The class's invariant with the scratch buffers as memrefs owned at some contents. -/
theorem PhiA1_eq (c : Dev nD) :
    (Pipeline.ΦA spec1 c : sProp 𝕄)
      = iprop(scoped1 c iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest1_eq]; simp only [scM0, scM1, scM2, owns_whole]; try rfl

/-- Before the first point the scratch buffers hold anything; after point n they hold the carried values. -/
def PhiS (c : Dev nD) : (n : ℕ) → n ≤ cfg1.N → sProp 𝕄
  | 0, _ => Pipeline.ΦA spec1 c
  | n + 1, hn => iprop(scoped1 c iprop(owns (c : Thread nD τ) scM0 fullShare (carriedAt V c n hn).m
      ∗ owns (c : Thread nD τ) scM1 fullShare (carriedAt V c n hn).l
      ∗ owns (c : Thread nD τ) scM2 fullShare (carriedAt V c n hn).a) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scoped1 c iprop(owns (c : Thread nD τ) scM0 fullShare (carriedAt V c n hn).m
      ∗ owns (c : Thread nD τ) scM1 fullShare (carriedAt V c n hn).l
      ∗ owns (c : Thread nD τ) scM2 fullShare (carriedAt V c n hn).a) ∗ (∃ r, prngReg c r)) := rfl
theorem PhiS_pos (c : Dev nD) (n : ℕ) (h : n ≤ cfg1.N) (hz : n ≠ 0) :
    PhiS V c n h = iprop(scoped1 c iprop(owns (c : Thread nD τ) scM0 fullShare (carriedAt V c (n - 1) (by omega)).m
      ∗ owns (c : Thread nD τ) scM1 fullShare (carriedAt V c (n - 1) (by omega)).l
      ∗ owns (c : Thread nD τ) scM2 fullShare (carriedAt V c (n - 1) (by omega)).a) ∗ (∃ r, prngReg c r)) := by
  cases n with
  | zero => exact absurd rfl hz
  | succ n => rfl

/-- The proof data of region 1: the arrays as the region finds them; each input's buffer keeps its block; the output's
    buffer, where the body writes it, holds the carried accumulator divided by the carried normalizer; between points the
    scratch buffers hold the carried values. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay6 (carriedAt V c t.val t.isLt).a (carriedAt V c t.val t.isLt).l
  Φ t := PhiS V c t.val (Nat.le_of_lt_succ t.isLt)
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay6 (carriedAt V c t.val t.isLt).a (carriedAt V c t.val t.isLt).l := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem PhiS_castSucc (c : Dev nD) (t : Fin cfg1.N) : (dat1 V c).Φ t.castSucc = PhiS V c t.val (Nat.le_of_lt t.isLt) := rfl

end Cert.KernelIdeal.Hand

end
-- ==== Proof.FlashObligation.lean ====
/-
  Region 1's body obligation: at every grid point the body, handed the query, key and value blocks and the scratch
  buffers at the carried values the point before left, runs to the carried values after this point; the output
  buffer is written only at a query block's last key block and is handed back as found elsewhere. By cases on the
  three branch conditions, decided over the grid.
-/
import proofs.«172057_j17806934410015_2_alg».proof.Proof.Gen.KernelIdeal.Launch
import proofs.«172057_j17806934410015_2_alg».proof.Proof.Gen.KernelIdeal.Skeleton
import proofs.«172057_j17806934410015_2_alg».proof.Proof.Gen.KernelIdeal.Points
import proofs.«172057_j17806934410015_2_alg».proof.Proof.FlashBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The body obligation of region 1 -/

/-- Whatever the invariant says of the scratch buffers, they are held at some contents. -/
theorem PhiS_forget (c : Dev nD) (n : ℕ) (h : n ≤ cfg1.N) :
    PhiS V c n h ⊢ iprop(scoped1 c iprop((∃ d, owns (c : Thread nD τ) scM0 fullShare d) ∗ (∃ d, owns (c : Thread nD τ) scM1 fullShare d)
          ∗ (∃ d, owns (c : Thread nD τ) scM2 fullShare d)) ∗ (∃ r, prngReg c r)) := by
  cases n with
  | zero => rw [PhiS_zero V c 0 h rfl, PhiA1_eq]
  | succ n =>
    rw [PhiS_succ]
    iintro ⟨⟨Ha, Hb, Hc, Hd, He, HS0, HS1, HS2⟩, Hg⟩
    isplitr [Hg]
    · isplitl [Ha]; · iexact Ha
      isplitl [Hb]; · iexact Hb
      isplitl [Hc]; · iexact Hc
      isplitl [Hd]; · iexact Hd
      isplitl [He]; · iexact He
      isplitl [HS0]; · iexists _; iexact HS0
      isplitl [HS1]; · iexists _; iexact HS1
      iexists _; iexact HS2
    iexact Hg

theorem leaves3_fin (c : Dev nD) (t : Fin cfg1.N) (h : t.val % 4 = 3) :
    (dat1 V c).leavesExact 3 t = owns (c : Thread nD τ) (st1_3 t) fullShare ((dat1 V c).after 3 t) := by
  unfold Dat.leavesExact; rw [idle_out t]; simp only [h, decide_true, Bool.not_true]
theorem leaves3_idle (c : Dev nD) (t : Fin cfg1.N) (h : ¬t.val % 4 = 3) :
    (dat1 V c).leavesExact 3 t = iprop(∃ d, owns (c : Thread nD τ) (st1_3 t) fullShare ((dat1 V c).before 3 t d)) :=
  Dat.leavesExact_idle _ 3 t ((idle_out t).trans (by simp [h])) (Bool.eq_false_iff.mpr fun hf => h ((flush1_3 t).mp hf))

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2]
  rw [PhiS_castSucc]
  by_cases h1 : cInit (grid1.coords t)
  · -- a query block's first key block
    have h2 := init_comp t h1
    have h3' : ¬t.val % 4 = 3 := fun h => by have := (hInit t).mp h1; omega
    have h3 : ¬cFin (grid1.coords t) := fun h => h3' ((hFin t).mp h)
    rw [leaves3_idle V c t h3']
    have hstep : carriedAt V c t.val t.isLt = ⟨mStep (BitVec.ofNat 32 ((grid1.coords t) 1).val) (BitVec.ofNat 32 ((grid1.coords t) 2).val) (iblk1 V c 0 t) (iblk1 V c 1 t) k1_pay1,
        lStep (BitVec.ofNat 32 ((grid1.coords t) 1).val) (BitVec.ofNat 32 ((grid1.coords t) 2).val) (iblk1 V c 0 t) (iblk1 V c 1 t) k1_pay1 k1_pay2,
        aStep (BitVec.ofNat 32 ((grid1.coords t) 1).val) (BitVec.ofNat 32 ((grid1.coords t) 2).val) (iblk1 V c 0 t) (iblk1 V c 1 t) (iblk1 V c 2 t) k1_pay1 k1_pay3⟩ := by
      by_cases hz : t.val = 0
      · rw [carriedAt_zero V c t hz]; unfold stepAt; rw [if_pos h1]
      · rw [carriedAt_pos V c t hz]; unfold stepAt; rw [if_pos h1]
    rw [congrArg Carried.m hstep, congrArg Carried.l hstep, congrArg Carried.a hstep]
    refine (sep_mono (PhiS_forget V c _ _) .rfl).trans ?_
    iintro ⟨⟨⟨Ha, Hb, Hc, Hd, He, HS0, HS1, HS2⟩, Hg⟩, Ho, ⟨%d0, H0⟩, ⟨%d1, H1⟩, ⟨%d2, H2⟩, ⟨%d3, H3⟩⟩
    iapply (sound_flash_A c Set.univ (grid1.coords t) _ _ _ _ _ _ _ _ _ _ _ _ _ _ h1 h2 h3 (iblk1 V c 0 t) (iblk1 V c 1 t) (iblk1 V c 2 t) _ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [Ha Hb Hc Hd He HS0 HS1 HS2 Hg]
    · isplitr [Hg]
      · isplitl [Ha]; · iexact Ha
        isplitl [Hb]; · iexact Hb
        isplitl [Hc]; · iexact Hc
        isplitl [Hd]; · iexact Hd
        isplitl [He]; · iexact He
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexists _; iexact H3
  · have hz : t.val ≠ 0 := fun hz => h1 ((hInit t).mpr (by rw [hz]))
    rw [PhiS_pos V c _ _ hz]
    by_cases h2 : cComp (grid1.coords t)
    · have hstep : carriedAt V c t.val t.isLt = ⟨mStep (BitVec.ofNat 32 ((grid1.coords t) 1).val) (BitVec.ofNat 32 ((grid1.coords t) 2).val) (iblk1 V c 0 t) (iblk1 V c 1 t) (carriedAt V c (t.val - 1) (Nat.lt_of_le_of_lt (Nat.sub_le _ _) t.isLt)).m,
          lStep (BitVec.ofNat 32 ((grid1.coords t) 1).val) (BitVec.ofNat 32 ((grid1.coords t) 2).val) (iblk1 V c 0 t) (iblk1 V c 1 t) (carriedAt V c (t.val - 1) (Nat.lt_of_le_of_lt (Nat.sub_le _ _) t.isLt)).m (carriedAt V c (t.val - 1) (Nat.lt_of_le_of_lt (Nat.sub_le _ _) t.isLt)).l,
          aStep (BitVec.ofNat 32 ((grid1.coords t) 1).val) (BitVec.ofNat 32 ((grid1.coords t) 2).val) (iblk1 V c 0 t) (iblk1 V c 1 t) (iblk1 V c 2 t) (carriedAt V c (t.val - 1) (Nat.lt_of_le_of_lt (Nat.sub_le _ _) t.isLt)).m (carriedAt V c (t.val - 1) (Nat.lt_of_le_of_lt (Nat.sub_le _ _) t.isLt)).a⟩ := by
        rw [carriedAt_pos V c t hz]; unfold stepAt; rw [if_neg h1, if_pos h2]
      by_cases h3 : cFin (grid1.coords t)
      · -- the last key block, accumulated
        rw [leaves3_fin V c t ((hFin t).mp h3), after1_3]
        rw [congrArg Carried.m hstep, congrArg Carried.l hstep, congrArg Carried.a hstep]
        iintro ⟨⟨⟨Ha, Hb, Hc, Hd, He, HS0, HS1, HS2⟩, Hg⟩, Ho, ⟨%d0, H0⟩, ⟨%d1, H1⟩, ⟨%d2, H2⟩, ⟨%d3, H3⟩⟩
        iapply (sound_flash_E c Set.univ (grid1.coords t) _ _ _ _ _ _ _ _ _ _ _ _ _ _ h1 h2 h3 (iblk1 V c 0 t) (iblk1 V c 1 t) (iblk1 V c 2 t) _ _ _ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, H3, HS0, HS1, HS2⟩
        isplitl [Ha Hb Hc Hd He HS0 HS1 HS2 Hg]
        · isplitr [Hg]
          · isplitl [Ha]; · iexact Ha
            isplitl [Hb]; · iexact Hb
            isplitl [Hc]; · iexact Hc
            isplitl [Hd]; · iexact Hd
            isplitl [He]; · iexact He
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iexact H3
      · -- a later key block, accumulated, not the last
        have h3' : ¬t.val % 4 = 3 := fun h => h3 ((hFin t).mpr h)
        rw [leaves3_idle V c t h3']
        rw [congrArg Carried.m hstep, congrArg Carried.l hstep, congrArg Carried.a hstep]
        iintro ⟨⟨⟨Ha, Hb, Hc, Hd, He, HS0, HS1, HS2⟩, Hg⟩, Ho, ⟨%d0, H0⟩, ⟨%d1, H1⟩, ⟨%d2, H2⟩, ⟨%d3, H3⟩⟩
        iapply (sound_flash_B c Set.univ (grid1.coords t) _ _ _ _ _ _ _ _ _ _ _ _ _ _ h1 h2 h3 (iblk1 V c 0 t) (iblk1 V c 1 t) (iblk1 V c 2 t) _ _ _ _ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [Ha Hb Hc Hd He HS0 HS1 HS2 Hg]
        · isplitr [Hg]
          · isplitl [Ha]; · iexact Ha
            isplitl [Hb]; · iexact Hb
            isplitl [Hc]; · iexact Hc
            isplitl [Hd]; · iexact Hd
            isplitl [He]; · iexact He
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iexists _; iexact H3
    · have hstep : carriedAt V c t.val t.isLt = carriedAt V c (t.val - 1) (Nat.lt_of_le_of_lt (Nat.sub_le _ _) t.isLt) := by
        rw [carriedAt_pos V c t hz]; unfold stepAt; rw [if_neg h1, if_neg h2]
      rw [hstep]
      by_cases h3 : cFin (grid1.coords t)
      · -- the last key block, wholly after the query block's rows
        rw [leaves3_fin V c t ((hFin t).mp h3), after1_3, hstep]
        iintro ⟨⟨⟨Ha, Hb, Hc, Hd, He, HS0, HS1, HS2⟩, Hg⟩, Ho, ⟨%d0, H0⟩, ⟨%d1, H1⟩, ⟨%d2, H2⟩, ⟨%d3, H3⟩⟩
        iapply (sound_flash_D c Set.univ (grid1.coords t) _ _ _ _ _ _ _ _ _ _ _ _ _ _ h1 h2 h3 (iblk1 V c 0 t) (iblk1 V c 1 t) (iblk1 V c 2 t) _ _ _ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, H3, HS0, HS1, HS2⟩
        isplitl [Ha Hb Hc Hd He HS0 HS1 HS2 Hg]
        · isplitr [Hg]
          · isplitl [Ha]; · iexact Ha
            isplitl [Hb]; · iexact Hb
            isplitl [Hc]; · iexact Hc
            isplitl [Hd]; · iexact Hd
            isplitl [He]; · iexact He
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iexact H3
      · -- a key block wholly after the query block's rows, not the last
        have h3' : ¬t.val % 4 = 3 := fun h => h3 ((hFin t).mpr h)
        rw [leaves3_idle V c t h3']
        iintro ⟨⟨⟨Ha, Hb, Hc, Hd, He, HS0, HS1, HS2⟩, Hg⟩, Ho, ⟨%d0, H0⟩, ⟨%d1, H1⟩, ⟨%d2, H2⟩, ⟨%d3, H3⟩⟩
        iapply (sound_flash_C c Set.univ (grid1.coords t) _ _ _ _ _ _ _ _ _ _ _ _ _ _ h1 h2 h3 (iblk1 V c 0 t) (iblk1 V c 1 t) (iblk1 V c 2 t) _ _ _ _ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [Ha Hb Hc Hd He HS0 HS1 HS2 Hg]
        · isplitr [Hg]
          · isplitl [Ha]; · iexact Ha
            isplitl [Hb]; · iexact Hb
            isplitl [Hc]; · iexact Hc
            isplitl [Hd]; · iexact Hd
            isplitl [He]; · iexact He
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the scratch buffers' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_forget V c _ _

end Cert.KernelIdeal.Hand

end
-- ==== Proof.KernelRun.lean ====
/-
  The whole program as four segments — host operations, the projection region, host operations, the attention region —
  with the contents of every buffer named at each boundary: after a host stretch what its operations compute, after a
  region its arrays at what the write-backs leave and every other buffer as entered. Every weakly fair execution
  terminates with every unscoped buffer at the last boundary's contents; in particular the arguments end as launched.
-/
import proofs.«172057_j17806934410015_2_alg».proof.Proof.Gen.KernelIdeal.Launch
import proofs.«172057_j17806934410015_2_alg».proof.Proof.Gen.KernelIdeal.Skeleton
import proofs.«172057_j17806934410015_2_alg».proof.Proof.Gen.KernelIdeal.Points
import proofs.«172057_j17806934410015_2_alg».proof.Proof.ProjBody
import proofs.«172057_j17806934410015_2_alg».proof.Proof.FlashObligation
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run: @main's four segments from the launch to the return

## The buffer contents at each segment boundary -/

/-- Core c's buffers at launch. -/
abbrev W0 : Dev nD → Valuation τ sig (Elt F) := fun c b => m (c, b)
/-- After the host operations before the projection. -/
abbrev W1 : Dev nD → Valuation τ sig (Elt F) := fun c => StableHlo.after hostOps0 (W0 m c)
abbrev Vt1 : (c : Dev nD) → (b : Ref sig .tc) → Buf (Elt F) ((c : Thread nD τ).loc b) := fun c b => W1 m c b
/-- At the projection's exit: its arrays at what the pipeline leaves, every other buffer as entered. -/
def W2 (c : Dev nD) : Valuation τ sig (Elt F) :=
  Pipeline.withArrays spec0 c (W1 m c) fun w => (dat0 (Vt1 m) c).arrAt w cfg0.N
theorem W2_arr (c : Dev nD) (w : Fin cfg0.W) :
    W2 m c (Proc.devRef .tc (Pipeline.arrRef spec0 w)) = (dat0 (Vt1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vt2 : (c : Dev nD) → (b : Ref sig .tc) → Buf (Elt F) ((c : Thread nD τ).loc b) := fun c b => W2 m c b
theorem hF0 (c : Dev nD) (w : Fin cfg0.W) : (dat0 (Vt1 m) c).arrAt w cfg0.N = Vt2 m c (Pipeline.arrRef spec0 w) :=
  (W2_arr m c w).symm
theorem hrest0 (c : Dev nD) : ∀ b, b ∉ Finset.univ.image (Pipeline.arrRef spec0) → Vt2 m c b = Vt1 m c b :=
  fun b hb => W2_of_ne m c b fun w e => hb (Finset.mem_image.mpr ⟨w, Finset.mem_univ _, e⟩)

/-- After the host operations between the regions. -/
abbrev W3 : Dev nD → Valuation τ sig (Elt F) := fun c => StableHlo.after hostOps1 (W2 m c)
abbrev Vt3 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (dat1 (Vt3 m) c).arrAt w cfg1.N
theorem W4_arr (c : Dev nD) (w : Fin cfg1.W) :
    W4 m c (Proc.devRef .tc (Pipeline.arrRef spec1 w)) = (dat1 (Vt3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev Vt4 : (c : Dev nD) → (b : Ref sig .tc) → Buf (Elt F) ((c : Thread nD τ).loc b) := fun c b => W4 m c b
theorem hF1 (c : Dev nD) (w : Fin cfg1.W) : (dat1 (Vt3 m) c).arrAt w cfg1.N = Vt4 m c (Pipeline.arrRef spec1 w) :=
  (W4_arr m c w).symm
theorem hrest1 (c : Dev nD) : ∀ b, b ∉ Finset.univ.image (Pipeline.arrRef spec1) → Vt4 m c b = Vt3 m c b :=
  fun b hb => W4_of_ne m c b fun w e => hb (Finset.mem_image.mpr ⟨w, Finset.mem_univ _, e⟩)

/-! ### The arguments end as launched: no host operation writes one and no region stages one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-! ## The proof data family and the thread state -/

abbrev admH : (p : Fin 2) → (pcfgs (F := F) p).Adm := fun p => (cfgs p).toPCfg_adm
def pdatsH : (p : Fin 2) → (c : Dev nD) → Dat τ (Elt F) Unit ℕ (UR sig nD τ) ℕ (Pipeline.pin (pcfgs (F := F)) admH p) c
  | ⟨0, _⟩ => fun c => dat0 (Vt1 m) c
  | ⟨1, _⟩ => fun c => dat1 (Vt3 m) c
abbrev 𝒱H : Variants := Variants.none
abbrev LH : GSem nD τ sig → Finset Unit := fun _ => ∅
abbrev lvH : GSem nD τ sig → Unit → ℕ := fun _ _ => 0
/-- What rides beside the buffers through every segment: the generator register at some state, nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem hostOps0_freshH : (hostOps0 : List (HloOp τ sig (Elt F))).Forall fun op => op.fresh = ∅ := by
  simp only [List.Forall]; repeat' constructor
theorem hostOps1_freshH : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (Vt1 m c) (Vt2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vt3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vt3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (Vt3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vt3 m) c)
    unfold Pipeline.ΦA
    iintro ⟨Hp, -, Hr⟩
    isplitl [Hr]; · iexact Hr
    iexact Hp
  hout c := by
    rw [Pipeline.ownSems0_none]
    refine (hout1 (Vt3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (Vt3 m c) (Vt4 m c) ((pdatsH m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m) () defs₀ 𝒱H LH lvH) :=
  [ .host (hsegH hostOps0 hostOps0_sub hostOps0_freshH (W0 m)),
    .region (reg0 m),
    .host (hsegH hostOps1 hostOps1_sub hostOps1_freshH (W2 m)),
    .region (reg1 m) ]
theorem main_runH (c : Dev nD) : main (F := F) c = Pipeline.Seg.run (segsH m) := (main_chain c).trans (by chain_rfl)

set_option backward.isDefEq.respectTransparency.types false in
/-- Every weakly fair execution of @main terminates, nothing faulting, and every final state holds each unscoped
    buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.KernelIdeal.Hand

end
-- ==== Proof.AttnSpec.lean ====
/-
  Causal softmax attention for one head, as two computations over the extended reals that this certificate shows
  equal: the direct one (scores, row maximum, exponentials, normalizer, weighted sum of the values) and the online one
  (the keys taken 512 at a time, a running maximum, normalizer and accumulator rescaled at each block).
  Only definitions here; no program is imported.
-/
import Idealize.ShloMosaic.PureOps.Ideal
import Idealize.ShloMosaic.Lib.ValueIdx

noncomputable section

namespace Cert.Attn

open Idealize.ShloMosaic Idealize.ShloMosaic.ValueIdx
open scoped BigOperators

/-- The input's shape [batch 8, position 2048, feature 1024], a weight matrix's [head feature 128, feature 1024], and
    the result's [8, 2048, 128]. -/
abbrev SX : Shape := ⟨3, ![8, 2048, 1024]⟩
abbrev SW : Shape := ⟨2, ![128, 1024]⟩
abbrev SO : Shape := ⟨3, ![8, 2048, 128]⟩

/-- A linear projection of position t of batch b onto head feature h: the sum over the 1024 features of x · W. -/
def lin (x : SX.Idx → EReal) (W : SW.Idx → EReal) (b : Fin 8) (t : Fin 2048) (h : Fin 128) : EReal :=
  ∑ d : Fin 1024, x (ix3 b t d) * W (ix2 h d)

/-- The softmax scale: the float 0.0883883461 (128 to the power -1/2, rounded), the same word in both programs. -/
def cS : EReal := Ideal.ofBits .f32 0x3DB504F3#32

/-- The masked score of query position t against key position s, the scale applied to the finished product: the
    query-key product times the scale where s ≤ t, minus infinity elsewhere. -/
def scoreR (x : SX.Idx → EReal) (Wk Wq : SW.Idx → EReal) (b : Fin 8) (t s : Fin 2048) : EReal :=
  if s.val ≤ t.val then (∑ h : Fin 128, lin x Wq b t h * lin x Wk b s h) * cS else ⊥

/-- The same with the scale folded into the query weights before the projection. -/
def scoreK (x : SX.Idx → EReal) (Wk Wq : SW.Idx → EReal) (b : Fin 8) (t s : Fin 2048) : EReal :=
  if s.val ≤ t.val then ∑ h : Fin 128, (∑ d : Fin 1024, x (ix3 b t d) * (Wq (ix2 h d) * cS)) * lin x Wk b s h else ⊥

/-- The direct computation for one row: scores S over the 2048 keys, values v of one head feature. The maximum is taken
    against minus infinity twice and the normalizer starts from zero, as the direct program does. -/
def rowMax (S : Fin 2048 → EReal) : EReal := max ⊥ ((Finset.univ : Finset (Fin 2048)).fold max ⊥ S)
def refRow (S v : Fin 2048 → EReal) : EReal :=
  ∑ s : Fin 2048, Ideal.div (Ideal.exp (S s - rowMax S)) (0 + ∑ s' : Fin 2048, Ideal.exp (S s' - rowMax S)) * v s

/-- One online step over a block of 512 keys: the new running maximum, normalizer and accumulator from the block's
    scores S, its values v, and the old m, l, a. -/
def onM (S : Fin 512 → EReal) (m : EReal) : EReal := max m ((Finset.univ : Finset (Fin 512)).fold max ⊥ S)
def onL (S : Fin 512 → EReal) (m l : EReal) : EReal :=
  Ideal.exp (m - onM S m) * l + ∑ u : Fin 512, Ideal.exp (S u - onM S m)
def onA (S v : Fin 512 → EReal) (m a : EReal) : EReal :=
  Ideal.exp (m - onM S m) * a + ∑ u : Fin 512, Ideal.exp (S u - onM S m) * v u

/-- Key position 512·j + u, the u-th key of block j. -/
def keyAt (j : Fin 4) (u : Fin 512) : Fin 2048 := ⟨512 * j.val + u.val, by have := j.isLt; have := u.isLt; omega⟩

/-- The running values after the first n blocks, from (minus infinity, 0, 0). -/
def onState (S v : Fin 2048 → EReal) : ℕ → EReal × EReal × EReal
  | 0 => (⊥, 0, 0)
  | n + 1 =>
    if h : n < 4 then
      let p := onState S v n
      (onM (fun u => S (keyAt ⟨n, h⟩ u)) p.1, onL (fun u => S (keyAt ⟨n, h⟩ u)) p.1 p.2.1,
        onA (fun u => S (keyAt ⟨n, h⟩ u)) (fun u => v (keyAt ⟨n, h⟩ u)) p.1 p.2.2)
    else onState S v n

/-- The online result after n blocks: the accumulator over the normalizer. -/
def onRow (S v : Fin 2048 → EReal) (n : ℕ) : EReal := Ideal.div (onState S v n).2.2 (onState S v n).2.1

end Cert.Attn

end
-- ==== Proof.FlashPayloads.lean ====
/-
  The attention body's arithmetic read at an index, at the extended reals: the three matrix products as sums over the
  contracted axis, the masked block score, the row maximum as a fold of max from minus infinity, and each stored value
  of one step as the online step of the specification applied row by row (changes of float format are the identity).
-/
import proofs.«172057_j17806934410015_2_alg».proof.Proof.Gen.KernelIdeal.Skeleton
import proofs.«172057_j17806934410015_2_alg».proof.Proof.AttnSpec
import proofs.«172057_j17806934410015_2_alg».proof.Proof.FlashBody
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.KernelIdeal.Hand

open Idealize.ShloMosaic Idealize.ShloMosaic.ValueIdx
open Cert.KernelIdeal Cert.KernelIdeal.Gen
open scoped BigOperators

/-! ## The three matrix products at an index -/

theorem mmProj_lhs_n (j : S1024x384.Idx) (q : dot_S1024x1024_S1024x384_S1024x384_1_0_0_1_n_n.contr.Idx) : (dot_S1024x1024_S1024x384_S1024x384_1_0_0_1_n_n.lhsIdx j q 0).val = (j 0).val := by
  unfold DotDims.lhsIdx
  rw [dif_neg (show ¬(0 : Fin S1024x1024.rank) ∈ dot_S1024x1024_S1024x384_S1024x384_1_0_0_1_n_n.lhsBatch by decide), dif_pos (show (0 : Fin S1024x1024.rank) ∈ dot_S1024x1024_S1024x384_S1024x384_1_0_0_1_n_n.lhsNonContracting by decide)]
  rfl
theorem mmProj_rhs_n (j : S1024x384.Idx) (q : dot_S1024x1024_S1024x384_S1024x384_1_0_0_1_n_n.contr.Idx) : (dot_S1024x1024_S1024x384_S1024x384_1_0_0_1_n_n.rhsIdx j q 1).val = (j 1).val := by
  unfold DotDims.rhsIdx
  rw [dif_neg (show ¬(1 : Fin S1024x384.rank) ∈ dot_S1024x1024_S1024x384_S1024x384_1_0_0_1_n_n.rhsBatch by decide), dif_pos (show (1 : Fin S1024x384.rank) ∈ dot_S1024x1024_S1024x384_S1024x384_1_0_0_1_n_n.rhsNonContracting by decide)]
  rfl
/-- The product read at an output index: the sum over the contracted axis. -/
theorem mmProj_apply (lhs : FVec Ideal S1024x1024 .bf16) (rhs : FVec Ideal S1024x384 .bf16) (p : Fin 1024) (q : Fin 384) :
    matmul dot_S1024x1024_S1024x384_S1024x384_1_0_0_1_n_n none lhs rhs (constant S1024x384 .f32 0x00000000#32) (ix2 p q)
      = ∑ k : Fin 1024, lhs (ix2 p k) * rhs (ix2 k q) := by
  simp only [matmul]
  rw [Ideal.matmul_constant_zero_apply, ← Equiv.sum_comp (contrEquiv1 dot_S1024x1024_S1024x384_S1024x384_1_0_0_1_n_n 1024 rfl rfl).symm]
  refine Finset.sum_congr rfl fun k _ => ?_
  have hk := contrEquiv1_symm_val dot_S1024x1024_S1024x384_S1024x384_1_0_0_1_n_n 1024 rfl rfl k
  have el : dot_S1024x1024_S1024x384_S1024x384_1_0_0_1_n_n.lhsIdx (ix2 p q) ((contrEquiv1 dot_S1024x1024_S1024x384_S1024x384_1_0_0_1_n_n 1024 rfl rfl).symm k) = ix2 p k := funext fun a => Fin.ext (by
    match a with
    | ⟨0, _⟩ => exact mmProj_lhs_n _ _
    | ⟨1, _⟩ => exact (DotDims.lhsIdx_val_of_single dot_S1024x1024_S1024x384_S1024x384_1_0_0_1_n_n (cl := 1) rfl _ _).trans hk)
  have er : dot_S1024x1024_S1024x384_S1024x384_1_0_0_1_n_n.rhsIdx (ix2 p q) ((contrEquiv1 dot_S1024x1024_S1024x384_S1024x384_1_0_0_1_n_n 1024 rfl rfl).symm k) = ix2 k q := funext fun a => Fin.ext (by
    match a with
    | ⟨1, _⟩ => exact mmProj_rhs_n _ _
    | ⟨0, _⟩ => exact (DotDims.rhsIdx_val_of_single dot_S1024x1024_S1024x384_S1024x384_1_0_0_1_n_n (cr := 0) rfl _ _).trans hk)
  rw [el, er]

theorem mmScore_lhs_n (j : S1024x512.Idx) (q : dot_S1024x128_S512x128_S1024x512_1_1_0_0_n_n.contr.Idx) : (dot_S1024x128_S512x128_S1024x512_1_1_0_0_n_n.lhsIdx j q 0).val = (j 0).val := by
  unfold DotDims.lhsIdx
  rw [dif_neg (show ¬(0 : Fin S1024x128.rank) ∈ dot_S1024x128_S512x128_S1024x512_1_1_0_0_n_n.lhsBatch by decide), dif_pos (show (0 : Fin S1024x128.rank) ∈ dot_S1024x128_S512x128_S1024x512_1_1_0_0_n_n.lhsNonContracting by decide)]
  rfl
theorem mmScore_rhs_n (j : S1024x512.Idx) (q : dot_S1024x128_S512x128_S1024x512_1_1_0_0_n_n.contr.Idx) : (dot_S1024x128_S512x128_S1024x512_1_1_0_0_n_n.rhsIdx j q 0).val = (j 1).val := by
  unfold DotDims.rhsIdx
  rw [dif_neg (show ¬(0 : Fin S512x128.rank) ∈ dot_S1024x128_S512x128_S1024x512_1_1_0_0_n_n.rhsBatch by decide), dif_pos (show (0 : Fin S512x128.rank) ∈ dot_S1024x128_S512x128_S1024x512_1_1_0_0_n_n.rhsNonContracting by decide)]
  rfl
/-- The product read at an output index: the sum over the contracted axis. -/
theorem mmScore_apply (lhs : FVec Ideal S1024x128 .bf16) (rhs : FVec Ideal S512x128 .bf16) (p : Fin 1024) (q : Fin 512) :
    matmul dot_S1024x128_S512x128_S1024x512_1_1_0_0_n_n none lhs rhs (constant S1024x512 .f32 0x00000000#32) (ix2 p q)
      = ∑ k : Fin 128, lhs (ix2 p k) * rhs (ix2 q k) := by
  simp only [matmul]
  rw [Ideal.matmul_constant_zero_apply, ← Equiv.sum_comp (contrEquiv1 dot_S1024x128_S512x128_S1024x512_1_1_0_0_n_n 128 rfl rfl).symm]
  refine Finset.sum_congr rfl fun k _ => ?_
  have hk := contrEquiv1_symm_val dot_S1024x128_S512x128_S1024x512_1_1_0_0_n_n 128 rfl rfl k
  have el : dot_S1024x128_S512x128_S1024x512_1_1_0_0_n_n.lhsIdx (ix2 p q) ((contrEquiv1 dot_S1024x128_S512x128_S1024x512_1_1_0_0_n_n 128 rfl rfl).symm k) = ix2 p k := funext fun a => Fin.ext (by
    match a with
    | ⟨0, _⟩ => exact mmScore_lhs_n _ _
    | ⟨1, _⟩ => exact (DotDims.lhsIdx_val_of_single dot_S1024x128_S512x128_S1024x512_1_1_0_0_n_n (cl := 1) rfl _ _).trans hk)
  have er : dot_S1024x128_S512x128_S1024x512_1_1_0_0_n_n.rhsIdx (ix2 p q) ((contrEquiv1 dot_S1024x128_S512x128_S1024x512_1_1_0_0_n_n 128 rfl rfl).symm k) = ix2 q k := funext fun a => Fin.ext (by
    match a with
    | ⟨0, _⟩ => exact mmScore_rhs_n _ _
    | ⟨1, _⟩ => exact (DotDims.rhsIdx_val_of_single dot_S1024x128_S512x128_S1024x512_1_1_0_0_n_n (cr := 1) rfl _ _).trans hk)
  rw [el, er]

theorem mmVal_lhs_n (j : S1024x128.Idx) (q : dot_S1024x512_S512x128_S1024x128_1_0_0_1_n_n.contr.Idx) : (dot_S1024x512_S512x128_S1024x128_1_0_0_1_n_n.lhsIdx j q 0).val = (j 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
theorem mmVal_rhs_n (j : S1024x128.Idx) (q : dot_S1024x512_S512x128_S1024x128_1_0_0_1_n_n.contr.Idx) : (dot_S1024x512_S512x128_S1024x128_1_0_0_1_n_n.rhsIdx j q 1).val = (j 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl
/-- The product read at an output index: the sum over the contracted axis. -/
theorem mmVal_apply (lhs : FVec Ideal S1024x512 .bf16) (rhs : FVec Ideal S512x128 .bf16) (p : Fin 1024) (q : Fin 128) :
    matmul dot_S1024x512_S512x128_S1024x128_1_0_0_1_n_n none lhs rhs (constant S1024x128 .f32 0x00000000#32) (ix2 p q)
      = ∑ k : Fin 512, lhs (ix2 p k) * rhs (ix2 k q) := by
  simp only [matmul]
  rw [Ideal.matmul_constant_zero_apply, ← Equiv.sum_comp (contrEquiv1 dot_S1024x512_S512x128_S1024x128_1_0_0_1_n_n 512 rfl rfl).symm]
  refine Finset.sum_congr rfl fun k _ => ?_
  have hk := contrEquiv1_symm_val dot_S1024x512_S512x128_S1024x128_1_0_0_1_n_n 512 rfl rfl k
  have el : dot_S1024x512_S512x128_S1024x128_1_0_0_1_n_n.lhsIdx (ix2 p q) ((contrEquiv1 dot_S1024x512_S512x128_S1024x128_1_0_0_1_n_n 512 rfl rfl).symm k) = ix2 p k := funext fun a => Fin.ext (by
    match a with
    | ⟨0, _⟩ => exact mmVal_lhs_n _ _
    | ⟨1, _⟩ => exact (DotDims.lhsIdx_val_of_single dot_S1024x512_S512x128_S1024x128_1_0_0_1_n_n (cl := 1) rfl _ _).trans hk)
  have er : dot_S1024x512_S512x128_S1024x128_1_0_0_1_n_n.rhsIdx (ix2 p q) ((contrEquiv1 dot_S1024x512_S512x128_S1024x128_1_0_0_1_n_n 512 rfl rfl).symm k) = ix2 k q := funext fun a => Fin.ext (by
    match a with
    | ⟨1, _⟩ => exact mmVal_rhs_n _ _
    | ⟨0, _⟩ => exact (DotDims.rhsIdx_val_of_single dot_S1024x512_S512x128_S1024x128_1_0_0_1_n_n (cr := 0) rfl _ _).trans hk)
  rw [el, er]

/-! ## The masked block score -/

/-- The causal mask bit of row r of the query block against column u of the key block: key position ≤ query position,
    as the kernel compares them (32-bit words). -/
def maskBit (qi ki : BitVec 32) (r : Fin 1024) (u : Fin 512) : BitVec 1 :=
  IntOp.cmpi .sle (IntOp.addi (Scalar.muli ki 512#32) (BitVec.ofNat 32 u.val)) (IntOp.addi (Scalar.muli qi 1024#32) (BitVec.ofNat 32 r.val))

/-- The block's masked score: the query row times the key row where the mask bit is set, minus infinity elsewhere. -/
def blkScore (qi ki : BitVec 32) (xq : FVec Ideal S1x1024x128 .bf16) (xk : FVec Ideal S1x512x128 .bf16) (r : Fin 1024) (u : Fin 512) : EReal :=
  Scalar.select (maskBit qi ki r u) (∑ h : Fin 128, xq (ix3 (0 : Fin 1) r h) * xk (ix3 (0 : Fin 1) u h)) ⊥

/-- The kernel's fill value is named minus infinity. -/
theorem neg_big_bot : Named.named (F := Ideal) κ "neg_big" (φ := .f32) 0xFF333332#32 = (⊥ : EReal) :=
  IdealRules.named_const.ideal_named_scalar _ _ _ _ rfl

theorem pay8_apply (qi ki : BitVec 32) (xq : FVec Ideal S1x1024x128 .bf16) (xk : FVec Ideal S1x512x128 .bf16) (r : Fin 1024) (u : Fin 512) :
    k1_pay8 (F := Ideal) qi ki xq xk (ix2 r u) = blkScore qi ki xq xk r u := by
  unfold k1_pay8 blkScore maskBit
  simp only [select_apply, mmScore_apply, shapeCast_1ab_ab_apply, broadcast_apply, neg_big_bot]
  refine congrArg (fun c => Scalar.select c _ _) ?_
  show IntOp.cmpi .sle (IntOp.addi (Scalar.muli ki 512#32) (iota .tc S1024x512 32 [1] iota_S1024x512_d1_w32 (ix2 r u)))
    (IntOp.addi (Scalar.muli qi 1024#32) (iota .tc S1024x512 32 [0] iota_S1024x512_d0_w32 (ix2 r u))) = _
  rw [iota_single_apply, iota_single_apply]

/-! ## Minus infinity and zero as the kernel spells them -/

theorem ofBits_neg_inf : Ideal.ofBits .f32 0xFF800000#32 = (⊥ : EReal) := by simp [Ideal.ofBits, Ideal.ieee]

theorem pay1_apply (i : S1024x1.Idx) : k1_pay1 (F := Ideal) i = (⊥ : EReal) := by
  unfold k1_pay1; rw [shapeCast_self]; exact ofBits_neg_inf
theorem pay2_apply (i : S1024x1.Idx) : k1_pay2 (F := Ideal) i = (0 : EReal) := by
  unfold k1_pay2; rw [shapeCast_self]; exact Ideal.ofBits_zero_f32
theorem pay3_apply (i : S1024x128.Idx) : k1_pay3 (F := Ideal) i = (0 : EReal) := by
  unfold k1_pay3; rw [shapeCast_self]; exact Ideal.ofBits_zero_f32

/-! ## A column kept as a [1024, 1] matrix -/

/-- A vector of 1024 cast to a [1024, 1] column reads, at (r, 0), the vector at r. -/
theorem shapeCast_col_apply {α : Type} (x : S1024.Idx → α) (h : S1024.ShapeCasts S1024x1) (r : Fin 1024) (z : Fin 1) :
    shapeCast S1024x1 x h (ix2 r z) = x (ix1 r) :=
  shapeCast_apply x h _ _ (by
    have hz : z.val = 0 := by omega
    rw [Shape.rowMajor_val_one, Shape.rowMajor_val_two]
    show r.val = r.val * 1 + z.val
    rw [hz]; omega)

/-- A [1024, 1] column broadcast along the second axis reads, at (r, u), the column at (r, 0). -/
theorem bcast_col_512 {α : Type} (x : S1024x1.Idx → α) (h : S1024x1.Broadcasts S1024x512) (r : Fin 1024) (u : Fin 512) :
    broadcastTo S1024x512 x h (ix2 r u) = x (ix2 r (0 : Fin 1)) :=
  broadcastTo_apply x h _ _ (fun a => by
    match a with
    | ⟨0, _⟩ => show r.val = if (1024 : ℕ) = 1 then 0 else r.val; rw [if_neg (by decide)]
    | ⟨1, _⟩ => show (0 : ℕ) = if (1 : ℕ) = 1 then 0 else u.val; rw [if_pos rfl])
theorem bcast_col_128 {α : Type} (x : S1024x1.Idx → α) (h : S1024x1.Broadcasts S1024x128) (r : Fin 1024) (u : Fin 128) :
    broadcastTo S1024x128 x h (ix2 r u) = x (ix2 r (0 : Fin 1)) :=
  broadcastTo_apply x h _ _ (fun a => by
    match a with
    | ⟨0, _⟩ => show r.val = if (1024 : ℕ) = 1 then 0 else r.val; rw [if_neg (by decide)]
    | ⟨1, _⟩ => show (0 : ℕ) = if (1 : ℕ) = 1 then 0 else u.val; rw [if_pos rfl])

/-! ## The step's payloads at an index: the online step of the specification -/

theorem pay9_apply (qi ki : BitVec 32) (xq : FVec Ideal S1x1024x128 .bf16) (xk : FVec Ideal S1x512x128 .bf16) (m : FVec Ideal S1024x1 .f32) (r : Fin 1024) (z : Fin 1) :
    k1_pay9 (F := Ideal) qi ki xq xk m (ix2 r z) = Cert.Attn.onM (fun u => blkScore qi ki xq xk r u) (m (ix2 r z)) := by
  unfold k1_pay9 Cert.Attn.onM
  rw [maximumf_apply, shapeCast_col_apply]
  refine congrArg (max (m (ix2 r z))) ?_
  refine (Ideal.multiReduction_maximumf_single (k1_pay8 (F := Ideal) qi ki xq xk) 0xFF800000#32 reduces_S1024x512_S1024 (.inl rfl) rfl (ix1 r)).trans ?_
  have e : (k1_pay8 (F := Ideal) qi ki xq xk ∘ reduces_S1024x512_S1024.lift (ix1 r)) = fun u : Fin 512 => blkScore qi ki xq xk r u := funext fun u => by
    show k1_pay8 (F := Ideal) qi ki xq xk (reduces_S1024x512_S1024.lift (ix1 r) u) = _
    rw [show reduces_S1024x512_S1024.lift (ix1 r) u = ix2 r u from funext fun a => by match a with | ⟨0, _⟩ => rfl | ⟨1, _⟩ => rfl]
    exact pay8_apply qi ki xq xk r u
  rw [e]
  exact congrArg (fun b => Finset.fold max b (fun u : Fin 512 => blkScore qi ki xq xk r u) Finset.univ) ofBits_neg_inf

theorem pay10_apply (qi ki : BitVec 32) (xq : FVec Ideal S1x1024x128 .bf16) (xk : FVec Ideal S1x512x128 .bf16) (m : FVec Ideal S1024x1 .f32) (r : Fin 1024) (z : Fin 1) :
    k1_pay10 (F := Ideal) qi ki xq xk m m (ix2 r z)
      = Ideal.exp (m (ix2 r z) - Cert.Attn.onM (fun u => blkScore qi ki xq xk r u) (m (ix2 r z))) := by
  unfold k1_pay10
  show Ideal.exp (m (ix2 r z) - k1_pay9 (F := Ideal) qi ki xq xk m (ix2 r z)) = _
  rw [pay9_apply]

theorem pay11_apply (qi ki : BitVec 32) (xq : FVec Ideal S1x1024x128 .bf16) (xk : FVec Ideal S1x512x128 .bf16) (m : FVec Ideal S1024x1 .f32) (r : Fin 1024) (u : Fin 512) :
    k1_pay11 (F := Ideal) qi ki xq xk m (ix2 r u)
      = Ideal.exp (blkScore qi ki xq xk r u - Cert.Attn.onM (fun u => blkScore qi ki xq xk r u) (m (ix2 r (0 : Fin 1)))) := by
  unfold k1_pay11
  show Ideal.exp (k1_pay8 (F := Ideal) qi ki xq xk (ix2 r u) - broadcastTo S1024x512 (k1_pay9 (F := Ideal) qi ki xq xk m) broadcasts_S1024x1_S1024x512 (ix2 r u)) = _
  rw [pay8_apply, bcast_col_512, pay9_apply]

theorem pay12_apply (qi ki : BitVec 32) (xq : FVec Ideal S1x1024x128 .bf16) (xk : FVec Ideal S1x512x128 .bf16) (m l : FVec Ideal S1024x1 .f32) (r : Fin 1024) :
    k1_pay12 (F := Ideal) qi ki xq xk m m l (ix2 r (0 : Fin 1))
      = Cert.Attn.onL (fun u => blkScore qi ki xq xk r u) (m (ix2 r (0 : Fin 1))) (l (ix2 r (0 : Fin 1))) := by
  unfold k1_pay12 Cert.Attn.onL
  rw [shapeCast_self]
  show k1_pay10 (F := Ideal) qi ki xq xk m m (ix2 r (0 : Fin 1)) * l (ix2 r (0 : Fin 1))
      + shapeCast S1024x1 (multiReduction .add [1] S1024 (k1_pay11 (F := Ideal) qi ki xq xk m) 0x00000000#32 reduces_S1024x512_S1024 (.inl rfl) rfl) shapeCasts_S1024_S1024x1 (ix2 r (0 : Fin 1)) = _
  rw [pay10_apply, shapeCast_col_apply]
  congr 1
  refine (Ideal.multiReduction_add_single (k1_pay11 (F := Ideal) qi ki xq xk m) 0x00000000#32 reduces_S1024x512_S1024 (.inl rfl) rfl (ix1 r)).trans ?_
  refine Finset.sum_congr rfl fun u _ => ?_
  rw [show reduces_S1024x512_S1024.lift (ix1 r) u = ix2 r u from funext fun a => by match a with | ⟨0, _⟩ => rfl | ⟨1, _⟩ => rfl]
  exact pay11_apply qi ki xq xk m r u

theorem pay4_apply (qi ki : BitVec 32) (xq : FVec Ideal S1x1024x128 .bf16) (xk xv : FVec Ideal S1x512x128 .bf16) (m : FVec Ideal S1024x1 .f32) (a : FVec Ideal S1024x128 .f32)
    (r : Fin 1024) (h : Fin 128) :
    k1_pay4 (F := Ideal) (k1_pay7 xv) (k1_pay10 qi ki xq xk m m) (k1_pay11 qi ki xq xk m) a (ix2 r h)
      = Cert.Attn.onA (fun u => blkScore qi ki xq xk r u) (fun u => xv (ix3 (0 : Fin 1) u h)) (m (ix2 r (0 : Fin 1))) (a (ix2 r h)) := by
  unfold k1_pay4 Cert.Attn.onA
  rw [shapeCast_self]
  show broadcastTo S1024x128 (k1_pay10 (F := Ideal) qi ki xq xk m m) broadcasts_S1024x1_S1024x128 (ix2 r h) * a (ix2 r h)
      + matmul dot_S1024x512_S512x128_S1024x128_1_0_0_1_n_n none (truncf .bf16 (k1_pay11 (F := Ideal) qi ki xq xk m) bitsLt_bf16_f32) (k1_pay7 xv) (constant S1024x128 .f32 0x00000000#32) (ix2 r h) = _
  rw [bcast_col_128, pay10_apply, mmVal_apply]
  congr 1
  refine Finset.sum_congr rfl fun u _ => ?_
  rw [truncf_apply, pay11_apply]
  unfold k1_pay7
  rw [shapeCast_1ab_ab_apply]

theorem pay5_eq (v : FVec Ideal S1024x1 .f32) : k1_pay5 (F := Ideal) v = v := by unfold k1_pay5; rw [shapeCast_self]

theorem pay6_apply (a : FVec Ideal S1024x128 .f32) (l : FVec Ideal S1024x1 .f32) (z : Fin 1) (r : Fin 1024) (h : Fin 128) :
    k1_pay6 (F := Ideal) a l (ix3 z r h) = Ideal.div (a (ix2 r h)) (l (ix2 r (0 : Fin 1))) := by
  unfold k1_pay6
  rw [shapeCast_ab_1ab_apply, divf_apply, bcast_col_128]

/-! ## One step of the carried values, row by row -/

theorem mStep_apply (qi ki : BitVec 32) (xq : FVec Ideal S1x1024x128 .bf16) (xk : FVec Ideal S1x512x128 .bf16) (m : FVec Ideal S1024x1 .f32) (r : Fin 1024) :
    mStep (F := Ideal) qi ki xq xk m (ix2 r (0 : Fin 1)) = Cert.Attn.onM (fun u => blkScore qi ki xq xk r u) (m (ix2 r (0 : Fin 1))) := by
  unfold mStep; rw [pay5_eq, pay9_apply]
theorem lStep_apply (qi ki : BitVec 32) (xq : FVec Ideal S1x1024x128 .bf16) (xk : FVec Ideal S1x512x128 .bf16) (m l : FVec Ideal S1024x1 .f32) (r : Fin 1024) :
    lStep (F := Ideal) qi ki xq xk m l (ix2 r (0 : Fin 1))
      = Cert.Attn.onL (fun u => blkScore qi ki xq xk r u) (m (ix2 r (0 : Fin 1))) (l (ix2 r (0 : Fin 1))) := by
  unfold lStep; exact pay12_apply qi ki xq xk m l r
theorem aStep_apply (qi ki : BitVec 32) (xq : FVec Ideal S1x1024x128 .bf16) (xk xv : FVec Ideal S1x512x128 .bf16) (m : FVec Ideal S1024x1 .f32) (a : FVec Ideal S1024x128 .f32)
    (r : Fin 1024) (h : Fin 128) :
    aStep (F := Ideal) qi ki xq xk xv m a (ix2 r h)
      = Cert.Attn.onA (fun u => blkScore qi ki xq xk r u) (fun u => xv (ix3 (0 : Fin 1) u h)) (m (ix2 r (0 : Fin 1))) (a (ix2 r h)) := by
  unfold aStep; exact pay4_apply qi ki xq xk xv m a r h

end Cert.KernelIdeal.Hand

end
-- ==== Proof.RowSpec.lean ====
/-
  The rows of region 1: the three input arrays of the attention region as functions of a [8, 2048, 128] index, the masked
  scores of one query position against every key position, and one head feature of the values.
-/
import proofs.«172057_j17806934410015_2_alg».proof.Proof.KernelRun
import Idealize.ShloMosaic.Lib.ValueIdx

noncomputable section

namespace Cert.KernelIdeal.Hand

open Idealize.ShloMosaic Idealize.ShloMosaic.TcCoe Idealize.ShloMosaic.ValueIdx
open Idealize.SL.Sem
open Cert.KernelIdeal Cert.KernelIdeal.Gen
open scoped BigOperators

variable (V : (c : Dev nD) → (b : Ref sig .tc) → Buf (Elt Ideal) ((c : Thread nD τ).loc b))

/-- The region's three input arrays (queries, keys, values), as functions of a [8, 2048, 128] index. -/
def arrQ (c : Dev nD) : S8x2048x128.Idx → EReal := V c main_v9
def arrK (c : Dev nD) : S8x2048x128.Idx → EReal := V c main_v11
def arrV (c : Dev nD) : S8x2048x128.Idx → EReal := V c main_v13

/-- The masked scores of query position T of batch B against every key position, and one head feature of the values. -/
def rowS (c : Dev nD) (B : Fin 8) (T : Fin 2048) : Fin 2048 → EReal := fun s =>
  if s.val ≤ T.val then ∑ h' : Fin 128, arrQ V c (ix3 B T h') * arrK V c (ix3 B s h') else ⊥
def rowV (c : Dev nD) (B : Fin 8) (h : Fin 128) : Fin 2048 → EReal := fun s => arrV V c (ix3 B s h)

end Cert.KernelIdeal.Hand

end
-- ==== Proof.FlashValue.lean ====
/-
  The attention region's result array, index by index: row r of query block qi of batch B holds, after key block j,
  the specification's online state after min (j + 1) (2·qi + 2) blocks (key blocks wholly after the query block's rows
  are skipped, and the key and value windows are clamped to the last block needed, which is the block itself wherever
  it is accumulated); the finishing point of each query block writes the accumulator over the normalizer; the finishing
  points' blocks cover the array.
-/
import proofs.«172057_j17806934410015_2_alg».proof.Proof.KernelRun
import proofs.«172057_j17806934410015_2_alg».proof.Proof.FlashPayloads
import proofs.«172057_j17806934410015_2_alg».proof.Proof.AttnSpec
import proofs.«172057_j17806934410015_2_alg».proof.Proof.RowSpec
import Idealize.ShloMosaic.Lib.Affine
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

/-! ## The mask bit is the order of the positions -/

theorem maskBit_eq (qi : Fin 2) (ki : Fin 4) (r : Fin 1024) (u : Fin 512) :
    maskBit (BitVec.ofNat 32 qi.val) (BitVec.ofNat 32 ki.val) r u
      = if ki.val * 512 + u.val ≤ qi.val * 1024 + r.val then 1#1 else 0#1 := by
  have hq := qi.isLt; have hk := ki.isLt; have hr := r.isLt; have hu := u.isLt
  have A : Affine.IsInt (IntOp.addi (Scalar.muli (BitVec.ofNat 32 ki.val) 512#32) (BitVec.ofNat 32 u.val)) ((ki.val : ℤ) * 512 + (u.val : ℤ)) :=
    Affine.addi (Affine.muli (Affine.ofNat ki.val ⟨rfl, by omega⟩) (Affine.ofNat 512 ⟨rfl, by norm_num⟩) ⟨rfl, by omega, by omega⟩)
      (Affine.ofNat u.val ⟨rfl, by omega⟩) ⟨rfl, by omega, by omega⟩
  have B : Affine.IsInt (IntOp.addi (Scalar.muli (BitVec.ofNat 32 qi.val) 1024#32) (BitVec.ofNat 32 r.val)) ((qi.val : ℤ) * 1024 + (r.val : ℤ)) :=
    Affine.addi (Affine.muli (Affine.ofNat qi.val ⟨rfl, by omega⟩) (Affine.ofNat 1024 ⟨rfl, by norm_num⟩) ⟨rfl, by omega, by omega⟩)
      (Affine.ofNat r.val ⟨rfl, by omega⟩) ⟨rfl, by omega, by omega⟩
  unfold maskBit
  split
  · exact Affine.sle_holds A B (by omega)
  · exact eq_zero_of_ne_one (Affine.sle_fails A B (by omega))

/-! ## The grid of region 1: point t is (batch t / 8, query block (t / 4) % 2, key block t % 4) -/

theorem coords1 : ∀ t : Fin cfg1.N, ((grid1.coords t) 0).val = t.val / 8 ∧ ((grid1.coords t) 1).val = t.val / 4 % 2 ∧ ((grid1.coords t) 2).val = t.val % 4 :=
  (by decide +kernel : ∀ t : Fin grid1.N, ((grid1.coords t) 0).val = t.val / 8 ∧ ((grid1.coords t) 1).val = t.val / 4 % 2 ∧ ((grid1.coords t) 2).val = t.val % 4)

/-- The query and output windows sit at (batch, query block); the key and value windows at (batch, key block), the key
    block clamped to the last one the query block needs. -/
theorem idx1_0 : ∀ t : Fin cfg1.N, win1_0.index t (0 : Fin 3) = t.val / 8 ∧ win1_0.index t (1 : Fin 3) = t.val / 4 % 2 ∧ win1_0.index t (2 : Fin 3) = 0 :=
  (by decide +kernel : ∀ t : Fin grid1.N, _)
theorem idx1_1 : ∀ t : Fin cfg1.N, win1_1.index t (0 : Fin 3) = t.val / 8 ∧ win1_1.index t (1 : Fin 3) = min (t.val % 4) (2 * (t.val / 4 % 2) + 1) ∧ win1_1.index t (2 : Fin 3) = 0 :=
  (by decide +kernel : ∀ t : Fin grid1.N, _)
theorem idx1_2 : ∀ t : Fin cfg1.N, win1_2.index t (0 : Fin 3) = t.val / 8 ∧ win1_2.index t (1 : Fin 3) = min (t.val % 4) (2 * (t.val / 4 % 2) + 1) ∧ win1_2.index t (2 : Fin 3) = 0 :=
  (by decide +kernel : ∀ t : Fin grid1.N, _)
theorem idx1_3 : ∀ t : Fin cfg1.N, win1_3.index t (0 : Fin 3) = t.val / 8 ∧ win1_3.index t (1 : Fin 3) = t.val / 4 % 2 ∧ win1_3.index t (2 : Fin 3) = 0 :=
  (by decide +kernel : ∀ t : Fin grid1.N, _)
/-- A key block is accumulated exactly when it is not past the clamp. -/
theorem hComp : ∀ t : Fin cfg1.N, cComp (grid1.coords t) ↔ t.val % 4 ≤ 2 * (t.val / 4 % 2) + 1 :=
  (by decide +kernel : ∀ t : Fin grid1.N, cComp (grid1.coords t) ↔ t.val % 4 ≤ 2 * (t.val / 4 % 2) + 1)

/-! ## The blocks the body is handed, read off the region's arrays -/

variable (V : (c : Dev nD) → (b : Ref sig .tc) → Buf (Elt Ideal) ((c : Thread nD τ).loc b))

/-- The query, key and value blocks the body is handed at point t. -/
def blkQ (c : Dev nD) (t : Fin cfg1.N) : FVec Ideal S1x1024x128 .bf16 := iblk1 (F := Ideal) V c 0 t
def blkK (c : Dev nD) (t : Fin cfg1.N) : FVec Ideal S1x512x128 .bf16 := iblk1 (F := Ideal) V c 1 t
def blkV (c : Dev nD) (t : Fin cfg1.N) : FVec Ideal S1x512x128 .bf16 := iblk1 (F := Ideal) V c 2 t

theorem qblk_apply (c : Dev nD) (t : Fin cfg1.N) (z : Fin 1) (r : Fin 1024) (h : Fin 128)
    (B : Fin 8) (T : Fin 2048) (hB : B.val = t.val / 8) (hT : T.val = (t.val / 4 % 2) * 1024 + r.val) :
    blkQ V c t (ix3 z r h) = arrQ V c (ix3 B T h) := by
  obtain ⟨e0, e1, e2⟩ := idx1_0 t
  show arrQ V c (((cfg1.win 0).blk t).view.emb (ix3 z r h)) = _
  refine congrArg _ (funext fun a => Fin.ext ?_)
  have hz : z.val = 0 := by omega
  match a with
  | ⟨0, _⟩ => show win1_0.index t (0 : Fin 3) * 1 + 1 * z.val = B.val; omega
  | ⟨1, _⟩ => show win1_0.index t (1 : Fin 3) * 1024 + 1 * r.val = T.val; omega
  | ⟨2, _⟩ => show win1_0.index t (2 : Fin 3) * 128 + 1 * h.val = h.val; omega

theorem kblk_apply (c : Dev nD) (t : Fin cfg1.N) (z : Fin 1) (u : Fin 512) (h : Fin 128)
    (B : Fin 8) (S : Fin 2048) (hB : B.val = t.val / 8) (hS : S.val = min (t.val % 4) (2 * (t.val / 4 % 2) + 1) * 512 + u.val) :
    blkK V c t (ix3 z u h) = arrK V c (ix3 B S h) := by
  obtain ⟨e0, e1, e2⟩ := idx1_1 t
  show arrK V c (((cfg1.win 1).blk t).view.emb (ix3 z u h)) = _
  refine congrArg _ (funext fun a => Fin.ext ?_)
  have hz : z.val = 0 := by omega
  match a with
  | ⟨0, _⟩ => show win1_1.index t (0 : Fin 3) * 1 + 1 * z.val = B.val; omega
  | ⟨1, _⟩ => show win1_1.index t (1 : Fin 3) * 512 + 1 * u.val = S.val; omega
  | ⟨2, _⟩ => show win1_1.index t (2 : Fin 3) * 128 + 1 * h.val = h.val; omega

theorem vblk_apply (c : Dev nD) (t : Fin cfg1.N) (z : Fin 1) (u : Fin 512) (h : Fin 128)
    (B : Fin 8) (S : Fin 2048) (hB : B.val = t.val / 8) (hS : S.val = min (t.val % 4) (2 * (t.val / 4 % 2) + 1) * 512 + u.val) :
    blkV V c t (ix3 z u h) = arrV V c (ix3 B S h) := by
  obtain ⟨e0, e1, e2⟩ := idx1_2 t
  show arrV V c (((cfg1.win 2).blk t).view.emb (ix3 z u h)) = _
  refine congrArg _ (funext fun a => Fin.ext ?_)
  have hz : z.val = 0 := by omega
  match a with
  | ⟨0, _⟩ => show win1_2.index t (0 : Fin 3) * 1 + 1 * z.val = B.val; omega
  | ⟨1, _⟩ => show win1_2.index t (1 : Fin 3) * 512 + 1 * u.val = S.val; omega
  | ⟨2, _⟩ => show win1_2.index t (2 : Fin 3) * 128 + 1 * h.val = h.val; omega

theorem maskBit_eq' (nq nk : ℕ) (hq : nq < 2) (hk : nk < 4) (r : Fin 1024) (u : Fin 512) :
    maskBit (BitVec.ofNat 32 nq) (BitVec.ofNat 32 nk) r u = if nk * 512 + u.val ≤ nq * 1024 + r.val then 1#1 else 0#1 :=
  maskBit_eq ⟨nq, hq⟩ ⟨nk, hk⟩ r u

/-! ## One row of the carried values is the online state of the specification -/

section Row

variable (c : Dev nD)

/-- At a point whose key block is accumulated, the block's masked scores are the row's scores at that block's keys. -/
theorem blk_score (t : Fin cfg1.N) (hc : t.val % 4 ≤ 2 * (t.val / 4 % 2) + 1) (r : Fin 1024) (u : Fin 512)
    (B : Fin 8) (T : Fin 2048) (j : Fin 4) (hB : B.val = t.val / 8) (hT : T.val = (t.val / 4 % 2) * 1024 + r.val) (hj : j.val = t.val % 4) :
    blkScore (BitVec.ofNat 32 ((grid1.coords t) 1).val) (BitVec.ofNat 32 ((grid1.coords t) 2).val) (blkQ V c t) (blkK V c t) r u
      = rowS V c B T (Cert.Attn.keyAt j u) := by
  obtain ⟨c0, c1, c2⟩ := coords1 t
  have hr := r.isLt; have hu := u.isLt
  unfold blkScore rowS Cert.Attn.keyAt
  rw [maskBit_eq' _ _ (by omega) (by omega)]
  have hsum : (∑ h' : Fin 128, blkQ V c t (ix3 (0 : Fin 1) r h') * blkK V c t (ix3 (0 : Fin 1) u h'))
      = ∑ h' : Fin 128, arrQ V c (ix3 B T h') * arrK V c (ix3 B ⟨512 * j.val + u.val, by have := j.isLt; omega⟩ h') :=
    Finset.sum_congr rfl fun h' _ => by
      rw [qblk_apply V c t 0 r h' B T hB hT, kblk_apply V c t 0 u h' B ⟨512 * j.val + u.val, by have := j.isLt; omega⟩ hB (by show 512 * j.val + u.val = _; omega)]
  by_cases hle : ((grid1.coords t) 2).val * 512 + u.val ≤ ((grid1.coords t) 1).val * 1024 + r.val
  · rw [if_pos hle, select_one, if_pos (by show 512 * j.val + u.val ≤ T.val; omega)]
    exact hsum
  · rw [if_neg hle, select_zero, if_neg (by show ¬(512 * j.val + u.val ≤ T.val); omega)]

theorem blk_val (t : Fin cfg1.N) (hc : t.val % 4 ≤ 2 * (t.val / 4 % 2) + 1) (u : Fin 512) (h : Fin 128)
    (B : Fin 8) (j : Fin 4) (hB : B.val = t.val / 8) (hj : j.val = t.val % 4) :
    blkV V c t (ix3 (0 : Fin 1) u h) = rowV V c B h (Cert.Attn.keyAt j u) := by
  unfold rowV Cert.Attn.keyAt
  exact vblk_apply V c t 0 u h B _ hB (by show 512 * j.val + u.val = _; omega)

/-- Row r, feature h of the carried values after point n. -/
def rowState (n : ℕ) (hn : n < cfg1.N) (r : Fin 1024) (h : Fin 128) : EReal × EReal × EReal :=
  ((carriedAt (F := Ideal) V c n hn).m (ix2 r (0 : Fin 1)), (carriedAt (F := Ideal) V c n hn).l (ix2 r (0 : Fin 1)), (carriedAt (F := Ideal) V c n hn).a (ix2 r h))

theorem carriedAt_congr {n n' : ℕ} (e : n = n') (hn : n < cfg1.N) (hn' : n' < cfg1.N) :
    carriedAt (F := Ideal) V c n hn = carriedAt V c n' hn' := by subst e; rfl

theorem onState_succ (S v : Fin 2048 → EReal) (n : ℕ) (hn : n < 4) :
    Cert.Attn.onState S v (n + 1) = (Cert.Attn.onM (fun u => S (Cert.Attn.keyAt ⟨n, hn⟩ u)) (Cert.Attn.onState S v n).1,
      Cert.Attn.onL (fun u => S (Cert.Attn.keyAt ⟨n, hn⟩ u)) (Cert.Attn.onState S v n).1 (Cert.Attn.onState S v n).2.1,
      Cert.Attn.onA (fun u => S (Cert.Attn.keyAt ⟨n, hn⟩ u)) (fun u => v (Cert.Attn.keyAt ⟨n, hn⟩ u)) (Cert.Attn.onState S v n).1 (Cert.Attn.onState S v n).2.2) := by
  rw [Cert.Attn.onState, dif_pos hn]

/-- The invariant along a query block's four points: after key block j the row holds the online state after
    min (j + 1) (2·qi + 2) blocks — the blocks past the query block's rows are not accumulated. -/
theorem row_inv (B : Fin 8) (qi : Fin 2) (r : Fin 1024) (h : Fin 128) (T : Fin 2048) (hT : T.val = qi.val * 1024 + r.val) :
    ∀ (j : ℕ) (hj : j < 4) (hn : B.val * 8 + qi.val * 4 + j < cfg1.N),
      rowState V c (B.val * 8 + qi.val * 4 + j) hn r h = Cert.Attn.onState (rowS V c B T) (rowV V c B h) (min (j + 1) (2 * qi.val + 2)) := by
  have hB := B.isLt; have hq := qi.isLt
  intro j
  induction j with
  | zero =>
    intro hj hn
    -- the first key block: reset, then one step
    let t : Fin cfg1.N := ⟨B.val * 8 + qi.val * 4 + 0, hn⟩
    have h1 : cInit (grid1.coords t) := (hInit t).mpr (by show (B.val * 8 + qi.val * 4 + 0) % 4 = 0; omega)
    have hst : carriedAt (F := Ideal) V c t.val t.isLt = stepAt (grid1.coords t) (iblk1 V c 0 t) (iblk1 V c 1 t) (iblk1 V c 2 t)
        (if hz : t.val = 0 then ⟨k1_pay1 (F := Ideal), k1_pay2 (F := Ideal), k1_pay3 (F := Ideal)⟩ else carriedAt V c (t.val - 1) (Nat.lt_of_le_of_lt (Nat.sub_le _ _) t.isLt)) := by
      by_cases hz : t.val = 0
      · rw [dif_pos hz]; exact carriedAt_zero V c t hz
      · rw [dif_neg hz]; exact carriedAt_pos V c t hz
    have hmin : min (0 + 1) (2 * qi.val + 2) = 0 + 1 := by omega
    rw [hmin, onState_succ _ _ 0 (by omega)]
    show ((carriedAt (F := Ideal) V c t.val t.isLt).m (ix2 r (0 : Fin 1)), (carriedAt (F := Ideal) V c t.val t.isLt).l (ix2 r (0 : Fin 1)), (carriedAt (F := Ideal) V c t.val t.isLt).a (ix2 r h)) = _
    rw [hst]; unfold stepAt; rw [if_pos h1]
    show (mStep _ _ _ _ _ (ix2 r (0 : Fin 1)), lStep _ _ _ _ _ _ (ix2 r (0 : Fin 1)), aStep _ _ _ _ _ _ _ (ix2 r h)) = _
    rw [mStep_apply, lStep_apply, aStep_apply, pay1_apply, pay2_apply, pay3_apply]
    have hS : (fun u => blkScore (BitVec.ofNat 32 ((grid1.coords t) 1).val) (BitVec.ofNat 32 ((grid1.coords t) 2).val) (iblk1 (F := Ideal) V c 0 t) (iblk1 (F := Ideal) V c 1 t) r u)
        = fun u => rowS V c B T (Cert.Attn.keyAt ⟨0, by omega⟩ u) := funext fun u =>
      blk_score V c t (by show (B.val * 8 + qi.val * 4 + 0) % 4 ≤ _; omega) r u B T ⟨0, by omega⟩ (by show B.val = (B.val * 8 + qi.val * 4 + 0) / 8; omega)
        (by show T.val = ((B.val * 8 + qi.val * 4 + 0) / 4 % 2) * 1024 + r.val; rw [hT]; congr 2; omega) (by show 0 = (B.val * 8 + qi.val * 4 + 0) % 4; omega)
    have hV : (fun u => blkV V c t (ix3 (0 : Fin 1) u h)) = fun u => rowV V c B h (Cert.Attn.keyAt ⟨0, by omega⟩ u) := funext fun u =>
      blk_val V c t (by show (B.val * 8 + qi.val * 4 + 0) % 4 ≤ _; omega) u h B ⟨0, by omega⟩ (by show B.val = (B.val * 8 + qi.val * 4 + 0) / 8; omega) (by show 0 = (B.val * 8 + qi.val * 4 + 0) % 4; omega)
    rw [hS, show (fun u => iblk1 (F := Ideal) V c 2 t (ix3 (0 : Fin 1) u h)) = _ from hV]
    rfl
  | succ j ih =>
    intro hj hn
    have hn' : B.val * 8 + qi.val * 4 + j < cfg1.N := by omega
    have ihj := ih (by omega) hn'
    let t : Fin cfg1.N := ⟨B.val * 8 + qi.val * 4 + (j + 1), hn⟩
    have ht : t.val = B.val * 8 + qi.val * 4 + (j + 1) := rfl
    have hz : t.val ≠ 0 := by omega
    have h1 : ¬cInit (grid1.coords t) := fun hh => by have := (hInit t).mp hh; omega
    have hst : carriedAt (F := Ideal) V c t.val t.isLt = stepAt (grid1.coords t) (iblk1 V c 0 t) (iblk1 V c 1 t) (iblk1 V c 2 t)
        (carriedAt V c (B.val * 8 + qi.val * 4 + j) hn') := by
      rw [carriedAt_pos V c t hz, carriedAt_congr V c (show t.val - 1 = B.val * 8 + qi.val * 4 + j by omega) _ hn']
    show ((carriedAt (F := Ideal) V c t.val t.isLt).m (ix2 r (0 : Fin 1)), (carriedAt (F := Ideal) V c t.val t.isLt).l (ix2 r (0 : Fin 1)), (carriedAt (F := Ideal) V c t.val t.isLt).a (ix2 r h)) = _
    rw [hst]; unfold stepAt; rw [if_neg h1]
    by_cases h2 : t.val % 4 ≤ 2 * (t.val / 4 % 2) + 1
    · rw [if_pos ((hComp t).mpr h2)]
      have hmin : min (j + 1 + 1) (2 * qi.val + 2) = (j + 1) + 1 := by omega
      have hmin' : min (j + 1) (2 * qi.val + 2) = j + 1 := by omega
      rw [hmin'] at ihj
      rw [hmin, onState_succ _ _ (j + 1) hj, ← ihj]
      show (mStep _ _ _ _ _ (ix2 r (0 : Fin 1)), lStep _ _ _ _ _ _ (ix2 r (0 : Fin 1)), aStep _ _ _ _ _ _ _ (ix2 r h)) = _
      rw [mStep_apply, lStep_apply, aStep_apply]
      have hS : (fun u => blkScore (BitVec.ofNat 32 ((grid1.coords t) 1).val) (BitVec.ofNat 32 ((grid1.coords t) 2).val) (iblk1 (F := Ideal) V c 0 t) (iblk1 (F := Ideal) V c 1 t) r u)
          = fun u => rowS V c B T (Cert.Attn.keyAt ⟨j + 1, hj⟩ u) := funext fun u =>
        blk_score V c t h2 r u B T ⟨j + 1, hj⟩ (by omega) (by rw [hT]; congr 2; omega) (by show j + 1 = t.val % 4; omega)
      have hV : (fun u => blkV V c t (ix3 (0 : Fin 1) u h)) = fun u => rowV V c B h (Cert.Attn.keyAt ⟨j + 1, hj⟩ u) := funext fun u =>
        blk_val V c t h2 u h B ⟨j + 1, hj⟩ (by omega) (by show j + 1 = t.val % 4; omega)
      rw [hS, show (fun u => iblk1 (F := Ideal) V c 2 t (ix3 (0 : Fin 1) u h)) = _ from hV]
      rfl
    · rw [if_neg (fun hh => h2 ((hComp t).mp hh))]
      have hmin : min (j + 1 + 1) (2 * qi.val + 2) = min (j + 1) (2 * qi.val + 2) := by omega
      rw [hmin]
      exact ihj

end Row

/-! ## From the blocks written back to the result array -/

section Out

variable (c : Dev nD)

/-- The attention result at batch B, position T, feature h: the online computation over the key blocks that start at or
    before the query block's last row (two for the first 1024 positions, four for the rest). -/
def attnAt (B : Fin 8) (T : Fin 2048) (h : Fin 128) : EReal :=
  Cert.Attn.onRow (rowS V c B T) (rowV V c B h) (if T.val < 1024 then 2 else 4)

def attnOut : S8x2048x128.Idx → EReal := fun i =>
  attnAt V c ⟨(i 0).val, (i 0).isLt⟩ ⟨(i 1).val, (i 1).isLt⟩ ⟨(i 2).val, (i 2).isLt⟩

/-- What a finishing point (last key block of a query block) writes back is its block of the result. -/
theorem flushed3_eq (t : Fin cfg1.N) (hf : (cfg1.win 3).flush t = true) :
    (dat1 (F := Ideal) V c).flushed 3 t = ((cfg1.win 3).blk t).view.read (Elt Ideal) (attnOut V c) := by
  have h3 : t.val % 4 = 3 := (flush1_3 t).mp hf
  have hN : t.val < 64 := lt_of_lt_of_eq t.isLt N_1
  obtain ⟨e0, e1, e2⟩ := idx1_3 t
  show (cfg1.win 3).cut (grid1.coords t) ((dat1 (F := Ideal) V c).after 3 t) = _
  rw [after1_3]
  funext y
  obtain ⟨z, r, h, rfl⟩ : ∃ (z : Fin 1) (r : Fin 1024) (h : Fin 128), y = ix3 z r h :=
    ⟨⟨(y 0).val, (y 0).isLt⟩, ⟨(y 1).val, (y 1).isLt⟩, ⟨(y 2).val, (y 2).isLt⟩,
      funext fun a => by match a with | ⟨0, _⟩ => rfl | ⟨1, _⟩ => rfl | ⟨2, _⟩ => rfl⟩
  have hz : z.val = 0 := by omega
  have hr := r.isLt
  let B : Fin 8 := ⟨t.val / 8, by omega⟩
  let qi : Fin 2 := ⟨t.val / 4 % 2, by omega⟩
  let T : Fin 2048 := ⟨qi.val * 1024 + r.val, by have := qi.isLt; omega⟩
  have hemb : ((cfg1.win 3).blk t).view.emb (ix3 z r h) = ix3 B T h := funext fun a => Fin.ext (by
    match a with
    | ⟨0, _⟩ => show win1_3.index t (0 : Fin 3) * 1 + 1 * z.val = t.val / 8; omega
    | ⟨1, _⟩ => show win1_3.index t (1 : Fin 3) * 1024 + 1 * r.val = (t.val / 4 % 2) * 1024 + r.val; omega
    | ⟨2, _⟩ => show win1_3.index t (2 : Fin 3) * 128 + 1 * h.val = h.val; omega)
  show k1_pay6 (F := Ideal) (carriedAt V c t.val t.isLt).a (carriedAt V c t.val t.isLt).l (ix3 z r h)
    = attnOut V c (((cfg1.win 3).blk t).view.emb (ix3 z r h))
  rw [hemb, pay6_apply]
  have hn : B.val * 8 + qi.val * 4 + 3 < cfg1.N := by
    exact lt_of_lt_of_eq (show t.val / 8 * 8 + (t.val / 4 % 2) * 4 + 3 < 64 by omega) N_1.symm
  have hrow := row_inv V c B qi r h T rfl 3 (by omega) hn
  rw [carriedAt_congr V c (show t.val = B.val * 8 + qi.val * 4 + 3 by show t.val = t.val / 8 * 8 + (t.val / 4 % 2) * 4 + 3; omega) t.isLt hn]
  have hmin : min (3 + 1) (2 * qi.val + 2) = if T.val < 1024 then 2 else 4 := by
    show min (3 + 1) (2 * (t.val / 4 % 2) + 2) = if (t.val / 4 % 2) * 1024 + r.val < 1024 then 2 else 4
    split <;> omega
  show Ideal.div (rowState V c _ hn r h).2.2 (rowState V c _ hn r h).2.1 = attnAt V c B T h
  rw [hrow, hmin]; rfl

theorem mem_blk3 (t : Fin cfg1.N) (i : S8x2048x128.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v14).slice (win1_3.rect t)).set ↔ _
  rw [View.set_slice_whole, Rect.mem_set_unit]
  exact Iff.rfl

/-- Every index of the result is in the block of the finishing point of its batch and query block. -/
theorem cover3 (i : S8x2048x128.Idx) : ∃ t : Fin cfg1.N, (cfg1.win 3).flush t = true ∧ i ∈ ((cfg1.win 3).blk t).view.set := by
  have h0 : (i 0).val < 8 := (i 0).isLt
  have h1 : (i 1).val < 2048 := (i 1).isLt
  have h2 : (i 2).val < 128 := (i 2).isLt
  let t : Fin cfg1.N := ⟨(i 0).val * 8 + ((i 1).val / 1024) * 4 + 3, lt_of_lt_of_eq (show (i 0).val * 8 + ((i 1).val / 1024) * 4 + 3 < 64 by omega) N_1.symm⟩
  have ht : t.val = (i 0).val * 8 + ((i 1).val / 1024) * 4 + 3 := rfl
  obtain ⟨e0, e1, e2⟩ := idx1_3 t
  refine ⟨t, (flush1_3 t).mpr (by omega), ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 128 ≤ (i 2).val ∧ (i 2).val < win1_3.index t (2 : Fin 3) * 128 + 128; omega

/-- The result array after the run. -/
theorem out_final : (dat1 (F := Ideal) V c).arrAt 3 cfg1.N = attnOut V c :=
  (dat1 (F := Ideal) V c).arrAt_eq_of_cover 3 (attnOut V c) (fun t hf => flushed3_eq V c t hf) (cover3)

theorem out_value (b : Fin 8) (t : Fin 2048) (h : Fin 128) :
    ((dat1 (F := Ideal) V c).arrAt 3 cfg1.N : S8x2048x128.Idx → EReal) (ix3 b t h)
      = Cert.Attn.onRow (rowS V c b t) (rowV V c b h) (if t.val < 1024 then 2 else 4) := by
  rw [out_final]; rfl

end Out

end Cert.KernelIdeal.Hand

end
-- ==== Proof.ProjValue.lean ====
/-
  The projection's three results read at an index: the scaled query projection, the key projection and the value
  projection, each a sum over the 1024 features.
-/
import proofs.«172057_j17806934410015_2_alg».proof.Proof.KernelRun
import proofs.«172057_j17806934410015_2_alg».proof.Proof.FlashPayloads
import proofs.«172057_j17806934410015_2_alg».proof.Proof.AttnSpec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (m : (ℓ : Loc nD τ sig) → Buf (Elt Ideal) ℓ) (c : Dev nD)

/-- The four arguments as launched: the input and the key, query and value weights. -/
abbrev kX : S8x2048x1024.Idx → EReal := m ((c : Thread nD τ).loc main_arg0)
abbrev kWk : S128x1024.Idx → EReal := m ((c : Thread nD τ).loc main_arg1)
abbrev kWq : S128x1024.Idx → EReal := m ((c : Thread nD τ).loc main_arg2)
abbrev kWv : S128x1024.Idx → EReal := m ((c : Thread nD τ).loc main_arg3)
/-- The arrays the host operations before the projection leave: the scaled transposed query weights, the transposed
    key and value weights, the three side by side, and the input flattened to 16384 rows. -/
abbrev qT : S1024x128.Idx → EReal := Vt1 (F := Ideal) m c main_v2
abbrev kT : S1024x128.Idx → EReal := Vt1 (F := Ideal) m c main_v3
abbrev vT : S1024x128.Idx → EReal := Vt1 (F := Ideal) m c main_v4
abbrev wAll : S1024x384.Idx → EReal := Vt1 (F := Ideal) m c main_v5
abbrev xFlat : S16384x1024.Idx → EReal := Vt1 (F := Ideal) m c main_v6
/-- The projection's output array at the region's exit, and the three arrays the attention region reads. -/
abbrev projOut : S16384x384.Idx → EReal := W2 (F := Ideal) m c (Proc.devRef .tc main_v7)
abbrev qProj : S8x2048x128.Idx → EReal := Vt3 (F := Ideal) m c main_v9
abbrev kProj : S8x2048x128.Idx → EReal := Vt3 (F := Ideal) m c main_v11
abbrev vProj : S8x2048x128.Idx → EReal := Vt3 (F := Ideal) m c main_v13

/-! ## The host operations before the projection -/

theorem v6_eq : xFlat m c = shapeCast S16384x1024 (kX m c) shapeCasts_S8x2048x1024_S16384x1024 := by
  dsimp only [xFlat, kX, Vt1, W1, W0, hostOps0]; after_results; all_goals rfl

theorem v2_eq : qT m c = mulf (transpose S1024x128 [1, 0] (kWq m c) transposes_S128x1024_S1024x128_1_0)
    (broadcastInDim S1024x128 ![] bcast_S_S1024x128 (constant (F := Ideal) S_ .f32 0x3DB504F3#32)) := by
  dsimp only [qT, kWq, Vt1, W1, W0, hostOps0]; after_results; all_goals rfl

theorem v3_eq : kT m c = transpose S1024x128 [1, 0] (kWk m c) transposes_S128x1024_S1024x128_1_0 := by
  dsimp only [kT, kWk, Vt1, W1, W0, hostOps0]; after_results; all_goals rfl

theorem v4_eq : vT m c = transpose S1024x128 [1, 0] (kWv m c) transposes_S128x1024_S1024x128_1_0 := by
  dsimp only [vT, kWv, Vt1, W1, W0, hostOps0]; after_results; all_goals rfl

theorem v5_eq : wAll m c = concatenate S1024x384 1 [⟨S1024x128, qT m c⟩, ⟨S1024x128, kT m c⟩, ⟨S1024x128, vT m c⟩]
    concatenates_S1024x128_S1024x128_S1024x128_S1024x384_d1 := by
  dsimp only [wAll, qT, kT, vT, Vt1, W1, W0, hostOps0]
  simp only [StableHlo.after_cons, StableHlo.after_nil]
  repeat (rw [StableHlo.reshape_result_ne]; rotate_left; decide)
  rw [StableHlo.nary_result]
  repeat (rw [StableHlo.nary_result_ne]; rotate_left; decide)
  rfl

/-! ## The host operations after the projection -/

theorem v9_eq : qProj m c = shapeCast S8x2048x128 (extractStridedSlice S16384x128 ![0, 0] (projOut m c) slices_S16384x384_S16384x128_0_0) shapeCasts_S16384x128_S8x2048x128 := by
  dsimp only [qProj, projOut, Vt3, W3, hostOps1]; after_results; all_goals rfl

theorem v11_eq : kProj m c = shapeCast S8x2048x128 (extractStridedSlice S16384x128 ![0, 128] (projOut m c) slices_S16384x384_S16384x128_0_128) shapeCasts_S16384x128_S8x2048x128 := by
  dsimp only [kProj, projOut, Vt3, W3, hostOps1]; after_results; all_goals rfl

theorem v13_eq : vProj m c = shapeCast S8x2048x128 (extractStridedSlice S16384x128 ![0, 256] (projOut m c) slices_S16384x384_S16384x128_0_256) shapeCasts_S16384x128_S8x2048x128 := by
  dsimp only [vProj, projOut, Vt3, W3, hostOps1]; after_results; all_goals rfl

/-! ## Region 0: what the projection leaves in its output array -/

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's payload at an index: the product's sum over the 1024 contracted features. -/
theorem pay_apply (x0 : Vec Ideal S1024x1024 .f32) (x1 : Vec Ideal S1024x384 .f32) (p : Fin 1024) (q : Fin 384) :
    k0_pay1 (F := Ideal) x0 x1 (ix2 p q) = ∑ k : Fin 1024, x0 (ix2 p k) * x1 (ix2 k q) := by
  unfold k0_pay1
  simp only [shapeCast_self]
  exact mmProj_apply _ _ p q

variable (V : (c : Dev nD) → (b : Ref sig .tc) → Buf (Elt Ideal) ((c : Thread nD τ).loc b))

/-- The product of a 16384 × 1024 array with a 1024 × 384 one, index by index. -/
def prodG (A : S16384x1024.Idx → EReal) (B : S1024x384.Idx → EReal) : S16384x384.Idx → EReal :=
  fun i => ∑ d : Fin 1024, A (ix2 (⟨(i 0).val, (i 0).isLt⟩ : Fin 16384) d) * B (ix2 d (⟨(i 1).val, (i 1).isLt⟩ : Fin 384))

theorem flushed2_eq (t : Fin cfg0.N) :
    (dat0 V c).flushed 2 t = ((cfg0.win 2).blk t).view.read (Elt Ideal) (prodG (V c main_v6) (V c main_v5)) := by
  show (cfg0.win 2).cut (grid0.coords t) ((dat0 V c).after 2 t) = _
  rw [after0_2]
  unfold proj
  rw [View.canon_unit_zero hz2]
  simp only [View.ld_unit_zero (S := S1024x1024) hz2, View.ld_unit_zero (S := S1024x384) hz2]
  obtain ⟨e0, e1, e2, e3, e4, e5⟩ := idx_facts0 t
  funext j
  obtain ⟨p, q, rfl⟩ : ∃ (p : Fin 1024) (q : Fin 384), j = ix2 p q := ⟨j 0, j 1, eq_ix2 j⟩
  have hx : (win0 2).xinj (grid0.coords t) (ix2 p q) = ix2 p q := by
    funext a; match a with | ⟨0, _⟩ => rfl | ⟨1, _⟩ => rfl
  show k0_pay1 (iblk0 V c 0 t) (iblk0 V c 1 t) ((win0 2).xinj (grid0.coords t) (ix2 p q))
    = prodG (V c main_v6) (V c main_v5) (((cfg0.win 2).blk t).view.emb (ix2 p q))
  rw [hx, pay_apply]
  unfold prodG
  refine Finset.sum_congr rfl fun k _ => ?_
  have h0 : ((cfg0.win 0).blk t).view.emb (ix2 p k)
      = ix2 (⟨((((cfg0.win 2).blk t).view.emb (ix2 p q)) 0).val, ((((cfg0.win 2).blk t).view.emb (ix2 p q)) 0).isLt⟩ : Fin 16384) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 1024 + 1 * k.val = k.val; omega
  have h1 : ((cfg0.win 1).blk t).view.emb (ix2 k q)
      = ix2 k (⟨((((cfg0.win 2).blk t).view.emb (ix2 p q)) 1).val, ((((cfg0.win 2).blk t).view.emb (ix2 p q)) 1).isLt⟩ : Fin 384) := by
    funext a; apply Fin.ext
    match a with
    | ⟨0, _⟩ => show win0_1.index t (0 : Fin 2) * 1024 + 1 * k.val = k.val; omega
    | ⟨1, _⟩ => show win0_1.index t (1 : Fin 2) * 384 + 1 * q.val = win0_2.index t (1 : Fin 2) * 384 + 1 * q.val; omega
  congr 1
  · exact congrArg (V c main_v6) h0
  · exact congrArg (V c main_v5) h1

/-- An index of the output array is in point t's block iff each coordinate is in the block's range on its axis. -/
theorem mem_blk2 (t : Fin cfg0.N) (i : S16384x384.Idx) :
    i ∈ ((cfg0.win 2).blk t).view.set ↔ ∀ a : Fin 2, win0_2.index t a * S1024x384.size a ≤ (i a).val ∧ (i a).val < win0_2.index t a * S1024x384.size a + S1024x384.size a := by
  show i ∈ ((View.whole main_v7).slice (win0_2.rect t)).set ↔ _
  rw [View.set_slice_whole, Rect.mem_set_unit]
  exact Iff.rfl

/-- Row R of the output array is in the block of point R / 1024, and every point writes its block back. -/
theorem covered2 (i : S16384x384.Idx) :
    ∃ t : Fin cfg0.N, (cfg0.win 2).flush t = true ∧ i ∈ ((cfg0.win 2).blk t).view.set := by
  have hi0 : (i 0).val < 16384 := (i 0).isLt
  have hi1 : (i 1).val < 384 := (i 1).isLt
  have ht : (i 0).val / 1024 < grid0.N := by rw [N_0]; omega
  obtain ⟨-, -, -, -, e4, e5⟩ := idx_facts0 ⟨(i 0).val / 1024, ht⟩
  have e4' : win0_2.index ⟨(i 0).val / 1024, ht⟩ (0 : Fin 2) = (i 0).val / 1024 := e4
  refine ⟨⟨(i 0).val / 1024, ht⟩, flush0_2 _, ?_⟩
  rw [mem_blk2]
  intro a
  match a with
  | ⟨0, _⟩ =>
    show win0_2.index ⟨(i 0).val / 1024, ht⟩ (0 : Fin 2) * 1024 ≤ (i 0).val ∧ (i 0).val < win0_2.index ⟨(i 0).val / 1024, ht⟩ (0 : Fin 2) * 1024 + 1024
    omega
  | ⟨1, _⟩ =>
    show win0_2.index ⟨(i 0).val / 1024, ht⟩ (1 : Fin 2) * 384 ≤ (i 1).val ∧ (i 1).val < win0_2.index ⟨(i 0).val / 1024, ht⟩ (1 : Fin 2) * 384 + 384
    omega

/-- The output array after the region: the product, index by index. -/
theorem final2 : (dat0 V c).arrAt 2 cfg0.N = prodG (V c main_v6) (V c main_v5) :=
  (dat0 V c).arrAt_eq_of_cover 2 _ (fun t _ => flushed2_eq c V t) covered2

/-! ## The arrays at an index -/

/-- Row b·2048 + t of the flattened arrays. -/
def rowOf (b : Fin 8) (t : Fin 2048) : Fin 16384 := ⟨b.val * 2048 + t.val, by have := b.isLt; have := t.isLt; omega⟩

/-- The flattened input at (row, feature) is the input at (batch, position, feature). -/
theorem v6_apply (b : Fin 8) (t : Fin 2048) (d : Fin 1024) : xFlat m c (ix2 (rowOf b t) d) = kX m c (ix3 b t d) := by
  rw [v6_eq]
  refine shapeCast_apply (s := S8x2048x1024) (t := S16384x1024) _ _ _ (ix3 b t d) ?_
  rw [Shape.rowMajor_val_three, Shape.rowMajor_val_two]
  rfl

/-- The scaled, transposed query weights. -/
theorem v2_apply (d : Fin 1024) (h : Fin 128) : qT m c (ix2 d h) = kWq m c (ix2 h d) * Cert.Attn.cS := by
  rw [v2_eq]
  show transpose S1024x128 [1, 0] (kWq m c) transposes_S128x1024_S1024x128_1_0 (ix2 d h)
    * broadcastInDim S1024x128 ![] bcast_S_S1024x128 (constant (F := Ideal) S_ .f32 0x3DB504F3#32) (ix2 d h) = _
  rw [transpose_ix2_apply, broadcastInDim_apply ![] bcast_S_S1024x128 _ (ix2 d h) ix0 (fun a => a.elim0)]
  rfl

theorem v3_apply (d : Fin 1024) (h : Fin 128) : kT m c (ix2 d h) = kWk m c (ix2 h d) := by
  rw [v3_eq, transpose_ix2_apply]

theorem v4_apply (d : Fin 1024) (h : Fin 128) : vT m c (ix2 d h) = kWv m c (ix2 h d) := by
  rw [v4_eq, transpose_ix2_apply]

/-- The three column groups of the concatenated weights. -/
theorem v5_apply0 (d : Fin 1024) (h : Fin 128) (k : Fin 384) (hk : k.val = h.val) : wAll m c (ix2 d k) = qT m c (ix2 d h) := by
  rw [v5_eq]
  refine concatenate_apply_piece (t := S1024x384) 1 _ _ (ix2 d k) 0 (by show (0 : ℕ) < 3; omega) S1024x128 _ rfl rfl 0 rfl (ix2 d h) (fun b hb => ?_) ?_
  · match b with
    | ⟨0, _⟩ => rfl
    | ⟨1, _⟩ => exact absurd rfl hb
  · show 0 + h.val = k.val
    omega

theorem v5_apply1 (d : Fin 1024) (h : Fin 128) (k : Fin 384) (hk : k.val = 128 + h.val) : wAll m c (ix2 d k) = kT m c (ix2 d h) := by
  rw [v5_eq]
  refine concatenate_apply_piece (t := S1024x384) 1 _ _ (ix2 d k) 1 (by show (1 : ℕ) < 3; omega) S1024x128 _ rfl rfl 128 rfl (ix2 d h) (fun b hb => ?_) ?_
  · match b with
    | ⟨0, _⟩ => rfl
    | ⟨1, _⟩ => exact absurd rfl hb
  · show 128 + h.val = k.val
    omega

theorem v5_apply2 (d : Fin 1024) (h : Fin 128) (k : Fin 384) (hk : k.val = 256 + h.val) : wAll m c (ix2 d k) = vT m c (ix2 d h) := by
  rw [v5_eq]
  refine concatenate_apply_piece (t := S1024x384) 1 _ _ (ix2 d k) 2 (by show (2 : ℕ) < 3; omega) S1024x128 _ rfl rfl 256 rfl (ix2 d h) (fun b hb => ?_) ?_
  · match b with
    | ⟨0, _⟩ => rfl
    | ⟨1, _⟩ => exact absurd rfl hb
  · show 256 + h.val = k.val
    omega

/-- The projection's output array at (row, column): the product's sum over the features. -/
theorem v7_apply (R : Fin 16384) (k : Fin 384) :
    projOut m c (ix2 R k) = ∑ d : Fin 1024, xFlat m c (ix2 R d) * wAll m c (ix2 d k) := by
  have e2 : projOut m c = prodG (xFlat m c) (wAll m c) := (W2_arr m c 2).trans (final2 c (Vt1 (F := Ideal) m))
  rw [e2]
  rfl

/-- A column group of the output array, reshaped to (batch, position, head feature), at an index. -/
theorem slice_apply (o : ℕ) (hs : S16384x384.Slices ![0, o] S16384x128) (X : S16384x384.Idx → EReal)
    (b : Fin 8) (t : Fin 2048) (h : Fin 128) (k : Fin 384) (hk : k.val = o + h.val) :
    shapeCast S8x2048x128 (extractStridedSlice S16384x128 ![0, o] X hs) shapeCasts_S16384x128_S8x2048x128 (ix3 b t h)
      = X (ix2 (rowOf b t) k) := by
  refine (shapeCast_apply (s := S16384x128) (t := S8x2048x128) _ _ (ix3 b t h) (ix2 (rowOf b t) h) ?_).trans
    (slice2_axis1_apply o X hs (rowOf b t) h k hk)
  rw [Shape.rowMajor_val_three, Shape.rowMajor_val_two]
  rfl

/-- The query projection the attention region reads: the input against the scaled query weights. -/
theorem q_val (b : Fin 8) (t : Fin 2048) (h : Fin 128) :
    qProj m c (ix3 b t h) = ∑ d : Fin 1024, kX m c (ix3 b t d) * (kWq m c (ix2 h d) * Cert.Attn.cS) := by
  rw [v9_eq, slice_apply 0 _ _ b t h ⟨h.val, by have := h.isLt; omega⟩ (by simp), v7_apply]
  refine Finset.sum_congr rfl fun d _ => ?_
  rw [v6_apply, v5_apply0 m c d h _ rfl, v2_apply]

/-- The key projection. -/
theorem k_val (b : Fin 8) (t : Fin 2048) (h : Fin 128) :
    kProj m c (ix3 b t h) = Cert.Attn.lin (kX m c) (kWk m c) b t h := by
  rw [v11_eq, slice_apply 128 _ _ b t h ⟨128 + h.val, by have := h.isLt; omega⟩ rfl, v7_apply]
  unfold Cert.Attn.lin
  refine Finset.sum_congr rfl fun d _ => ?_
  rw [v6_apply, v5_apply1 m c d h _ rfl, v3_apply]

/-- The value projection. -/
theorem v_val (b : Fin 8) (t : Fin 2048) (h : Fin 128) :
    vProj m c (ix3 b t h) = Cert.Attn.lin (kX m c) (kWv m c) b t h := by
  rw [v13_eq, slice_apply 256 _ _ b t h ⟨256 + h.val, by have := h.isLt; omega⟩ rfl, v7_apply]
  unfold Cert.Attn.lin
  refine Finset.sum_congr rfl fun d _ => ?_
  rw [v6_apply, v5_apply2 m c d h _ rfl, v4_apply]

end Cert.KernelIdeal.Hand

end
-- ==== Proof.OnlineSoftmax.lean ====
/-
  The algebra of online softmax over the extended reals: running the keys 512 at a time with a running maximum, a
  rescaled normalizer and a rescaled accumulator gives the same row as the direct softmax-weighted sum of the values.
  The key fact is that the ratio (accumulator / normalizer) does not depend on which real number the exponentials are
  shifted by, so the running maximum never has to be identified with the row maximum: both only have to be real.
-/
import proofs.«172057_j17806934410015_2_alg».proof.Proof.AttnSpec

noncomputable section

namespace Cert.Attn

open Idealize.ShloMosaic
open scoped BigOperators

/-! ### Real weights -/

/-- The real weight of a score x (a real or minus infinity) shifted by the real μ: exp (x − μ), zero at minus
    infinity. -/
def wt (x : EReal) (μ : ℝ) : ℝ := if x = ⊥ then 0 else Real.exp (x.toReal - μ)

theorem wt_nonneg (x : EReal) (μ : ℝ) : 0 ≤ wt x μ := by
  unfold wt; split_ifs
  · exact le_rfl
  · exact (Real.exp_pos _).le

theorem wt_pos (x : EReal) (hx : x ≠ ⊥) (μ : ℝ) : 0 < wt x μ := by
  unfold wt; rw [if_neg hx]; exact Real.exp_pos _

/-- Changing the shift multiplies every weight by the same positive constant. -/
theorem wt_rescale (x : EReal) (μ μ' : ℝ) : Real.exp (μ - μ') * wt x μ = wt x μ' := by
  unfold wt; split_ifs
  · exact mul_zero _
  · rw [← Real.exp_add]; congr 1; ring

/-- The extended-real exponential of a shifted score is the coerced real weight. -/
theorem exp_sub_coe (x : EReal) (hx : x ≠ ⊤) (μ : ℝ) : Ideal.exp (x - (μ : EReal)) = ((wt x μ : ℝ) : EReal) := by
  induction x using EReal.rec with
  | bot => rw [EReal.bot_sub, Ideal.exp_bot, wt, if_pos rfl, EReal.coe_zero]
  | coe r =>
    rw [← EReal.coe_sub, Ideal.exp_coe, wt, if_neg (EReal.coe_ne_bot r), EReal.toReal_coe]
  | top => exact absurd rfl hx

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### Block maxima are real -/

theorem fold_ne_top {n : ℕ} (f : Fin n → EReal) (hf : ∀ u, f u ≠ ⊤) :
    (Finset.univ : Finset (Fin n)).fold max ⊥ f ≠ ⊤ := by
  apply ne_of_lt
  rw [Finset.fold_max_lt]
  exact ⟨bot_lt_top, fun u _ => lt_top_iff_ne_top.mpr (hf u)⟩

theorem fold_ne_bot {n : ℕ} (f : Fin n → EReal) (u0 : Fin n) (h0 : f u0 ≠ ⊥) :
    (Finset.univ : Finset (Fin n)).fold max ⊥ f ≠ ⊥ := by
  apply ne_of_gt
  rw [Finset.lt_fold_max]
  exact Or.inr ⟨u0, Finset.mem_univ _, bot_lt_iff_ne_bot.mpr h0⟩

theorem fold_eq_bot {n : ℕ} (f : Fin n → EReal) (hf : ∀ u, f u = ⊥) :
    (Finset.univ : Finset (Fin n)).fold max ⊥ f = ⊥ := by
  apply le_bot_iff.mp
  rw [Finset.fold_max_le]
  exact ⟨le_rfl, fun u _ => (hf u).le⟩

theorem exists_real (x : EReal) (h1 : x ≠ ⊤) (h2 : x ≠ ⊥) : ∃ r : ℝ, x = (r : EReal) :=
  ⟨x.toReal, (EReal.coe_toReal h1 h2).symm⟩

/-! ### One online step in real terms -/

/-- A step entered with a real running maximum: the new maximum is a real μ', and the new normalizer and accumulator
    are the old ones rescaled by exp (μ − μ') plus the block's weights at shift μ'. -/
theorem step_real (Sb vb : Fin 512 → EReal) (hS : ∀ u, Sb u ≠ ⊤) (vr : Fin 512 → ℝ)
    (hv : ∀ u, vb u = (vr u : EReal)) (μ L A : ℝ) :
    ∃ μ' : ℝ, onM Sb (μ : EReal) = (μ' : EReal) ∧
      onL Sb (μ : EReal) (L : EReal) = ((Real.exp (μ - μ') * L + ∑ u, wt (Sb u) μ' : ℝ) : EReal) ∧
      onA Sb vb (μ : EReal) (A : EReal)
        = ((Real.exp (μ - μ') * A + ∑ u, wt (Sb u) μ' * vr u : ℝ) : EReal) := by
  have h1 : onM Sb (μ : EReal) ≠ ⊤ := by
    unfold onM
    apply ne_of_lt
    exact max_lt (EReal.coe_lt_top μ) (lt_top_iff_ne_top.mpr (fold_ne_top Sb hS))
  have h2 : onM Sb (μ : EReal) ≠ ⊥ := by
    unfold onM
    apply ne_of_gt
    exact lt_of_lt_of_le (EReal.bot_lt_coe μ) (le_max_left _ _)
  obtain ⟨μ', hμ'⟩ := exists_real _ h1 h2
  refine ⟨μ', hμ', ?_, ?_⟩
  · unfold onL
    rw [hμ', ← EReal.coe_sub, Ideal.exp_coe]
    simp only [exp_sub_coe _ (hS _)]
    rw [← coe_sum, ← EReal.coe_mul, ← EReal.coe_add]
  · unfold onA
    rw [hμ', ← EReal.coe_sub, Ideal.exp_coe]
    simp only [exp_sub_coe _ (hS _), hv, ← EReal.coe_mul]
    rw [← coe_sum, ← EReal.coe_add]

/-- The first step, entered with minus infinity and zeros, over a block that holds a real score. -/
theorem step_bot (Sb vb : Fin 512 → EReal) (hS : ∀ u, Sb u ≠ ⊤) (u0 : Fin 512) (h0 : Sb u0 ≠ ⊥)
    (vr : Fin 512 → ℝ) (hv : ∀ u, vb u = (vr u : EReal)) :
    ∃ μ' : ℝ, onM Sb ⊥ = (μ' : EReal) ∧
      onL Sb ⊥ 0 = ((0 + ∑ u, wt (Sb u) μ' : ℝ) : EReal) ∧
      onA Sb vb ⊥ 0 = ((0 + ∑ u, wt (Sb u) μ' * vr u : ℝ) : EReal) := by
  have h1 : onM Sb ⊥ ≠ ⊤ := by
    unfold onM
    apply ne_of_lt
    exact max_lt bot_lt_top (lt_top_iff_ne_top.mpr (fold_ne_top Sb hS))
  have h2 : onM Sb ⊥ ≠ ⊥ := by
    unfold onM
    apply ne_of_gt
    exact lt_of_lt_of_le (bot_lt_iff_ne_bot.mpr (fold_ne_bot Sb u0 h0)) (le_max_right _ _)
  obtain ⟨μ', hμ'⟩ := exists_real _ h1 h2
  refine ⟨μ', hμ', ?_, ?_⟩
  · unfold onL
    rw [hμ', mul_zero, zero_add, zero_add]
    simp only [exp_sub_coe _ (hS _)]
    rw [← coe_sum]
  · unfold onA
    rw [hμ', mul_zero, zero_add, zero_add]
    simp only [exp_sub_coe _ (hS _), hv, ← EReal.coe_mul]
    rw [← coe_sum]

/-- A block whose scores are all minus infinity, entered with a real maximum, changes nothing. -/
theorem step_masked (Sb vb : Fin 512 → EReal) (hb : ∀ u, Sb u = ⊥) (μ : ℝ) (l a : EReal) :
    onM Sb (μ : EReal) = (μ : EReal) ∧ onL Sb (μ : EReal) l = l ∧ onA Sb vb (μ : EReal) a = a := by
  have hM : onM Sb (μ : EReal) = (μ : EReal) := by
    unfold onM
    rw [fold_eq_bot Sb hb]
    exact max_eq_left bot_le
  refine ⟨hM, ?_, ?_⟩
  · unfold onL
    rw [hM, ← EReal.coe_sub, sub_self, Ideal.exp_coe, Real.exp_zero, EReal.coe_one, one_mul]
    simp only [hb, EReal.bot_sub, Ideal.exp_bot, Finset.sum_const_zero, add_zero]
  · unfold onA
    rw [hM, ← EReal.coe_sub, sub_self, Ideal.exp_coe, Real.exp_zero, EReal.coe_one, one_mul]
    simp only [hb, EReal.bot_sub, Ideal.exp_bot, zero_mul, Finset.sum_const_zero, add_zero]

/-! ### Sums over the first n blocks -/

/-- The sum of f over the keys of the first n blocks (all 2048 keys from n = 4 on). -/
def acc (f : Fin 2048 → ℝ) : ℕ → ℝ
  | 0 => 0
  | n + 1 => acc f n + if h : n < 4 then ∑ u : Fin 512, f (keyAt ⟨n, h⟩ u) else 0

theorem acc_mul (c : ℝ) (f : Fin 2048 → ℝ) (n : ℕ) : c * acc f n = acc (fun s => c * f s) n := by
  induction n with
  | zero => simp [acc]
  | succ n ih =>
    simp only [acc]
    rw [mul_add, ih]
    congr 1
    split_ifs
    · rw [Finset.mul_sum]
    · exact mul_zero _

/-- The 2048 keys are the four blocks of 512. -/
theorem sum_blocks (f : Fin 2048 → ℝ) : ∑ s, f s = ∑ j : Fin 4, ∑ u : Fin 512, f (keyAt j u) := by
  rw [← Fintype.sum_prod_type']
  refine (Fintype.sum_equiv (finProdFinEquiv (m := 4) (n := 512)) _ _ (fun p => ?_)).symm
  congr 1
  apply Fin.ext
  simp only [keyAt, finProdFinEquiv_apply_val]
  omega

theorem acc_four (f : Fin 2048 → ℝ) : acc f 4 = ∑ s, f s := by
  rw [sum_blocks, Fin.sum_univ_four]
  simp [acc]

/-! ### The invariant of the online recurrence -/

/-- After at least one block the running maximum is some real μ, and the normalizer and accumulator are the sums, over
    the keys seen so far, of the weights at shift μ and of the weights times the values. -/
theorem onState_inv (S v : Fin 2048 → EReal) (hS : ∀ s, S s ≠ ⊤) (hS0 : S ⟨0, by decide⟩ ≠ ⊥)
    (vr : Fin 2048 → ℝ) (hv : ∀ s, v s = (vr s : EReal)) (n : ℕ) :
    ∃ μ : ℝ, onState S v (n + 1) =
      ((μ : EReal), ((acc (fun s => wt (S s) μ) (n + 1) : ℝ) : EReal),
        ((acc (fun s => wt (S s) μ * vr s) (n + 1) : ℝ) : EReal)) := by
  induction n with
  | zero =>
    have h04 : (0 : ℕ) < 4 := by decide
    obtain ⟨μ', h1, h2, h3⟩ := step_bot (fun u => S (keyAt ⟨0, h04⟩ u)) (fun u => v (keyAt ⟨0, h04⟩ u))
      (fun u => hS _) ⟨0, by decide⟩ (by simpa [keyAt] using hS0) (fun u => vr (keyAt ⟨0, h04⟩ u)) (fun u => hv _)
    refine ⟨μ', ?_⟩
    rw [onState, dif_pos h04]
    simp only [onState, acc, dif_pos h04]
    rw [h1, h2, h3]
  | succ n ih =>
    obtain ⟨μ, hμ⟩ := ih
    rw [onState]
    by_cases h : n + 1 < 4
    · rw [dif_pos h]
      simp only [hμ]
      obtain ⟨μ', h1, h2, h3⟩ := step_real (fun u => S (keyAt ⟨n + 1, h⟩ u)) (fun u => v (keyAt ⟨n + 1, h⟩ u))
        (fun u => hS _) (fun u => vr (keyAt ⟨n + 1, h⟩ u)) (fun u => hv _) μ
        (acc (fun s => wt (S s) μ) (n + 1)) (acc (fun s => wt (S s) μ * vr s) (n + 1))
      refine ⟨μ', ?_⟩
      rw [h1, h2, h3, acc_mul, acc_mul]
      simp only [← mul_assoc, wt_rescale]
      simp only [acc, dif_pos h]
    · rw [dif_neg h]
      refine ⟨μ, ?_⟩
      rw [hμ]
      simp only [acc, dif_neg h, add_zero]

/-! ### The direct row in real terms, and the two computations meet -/

theorem ne_top_of_bot_or_real (x : EReal) (h : x = ⊥ ∨ ∃ r : ℝ, x = (r : EReal)) : x ≠ ⊤ := by
  rcases h with h | ⟨r, h⟩
  · rw [h]; exact bot_ne_top
  · rw [h]; exact EReal.coe_ne_top r

/-- The normalizer is positive at every shift: key 0 has a positive weight and no weight is negative. -/
theorem sum_wt_pos (S : Fin 2048 → EReal) (hS0 : S ⟨0, by decide⟩ ≠ ⊥) (μ : ℝ) : 0 < ∑ s, wt (S s) μ :=
  lt_of_lt_of_le (wt_pos _ hS0 μ)
    (Finset.single_le_sum (f := fun s => wt (S s) μ) (fun s _ => wt_nonneg _ _) (Finset.mem_univ _))

/-- The direct row: its maximum is some real M, and the row is the coerced real softmax-weighted sum at shift M. -/
theorem refRow_real (S v : Fin 2048 → EReal) (hS : ∀ s, S s ≠ ⊤) (hS0 : S ⟨0, by decide⟩ ≠ ⊥)
    (vr : Fin 2048 → ℝ) (hv : ∀ s, v s = (vr s : EReal)) :
    ∃ M : ℝ, refRow S v = ((∑ s, wt (S s) M / (∑ s', wt (S s') M) * vr s : ℝ) : EReal) := by
  have h1 : rowMax S ≠ ⊤ := by
    unfold rowMax
    rw [max_eq_right bot_le]
    exact fold_ne_top S hS
  have h2 : rowMax S ≠ ⊥ := by
    unfold rowMax
    rw [max_eq_right bot_le]
    exact fold_ne_bot S _ hS0
  obtain ⟨M, hM⟩ := exists_real _ h1 h2
  refine ⟨M, ?_⟩
  have hL : (∑ s', wt (S s') M) ≠ 0 := (sum_wt_pos S hS0 M).ne'
  unfold refRow
  rw [hM]
  simp only [exp_sub_coe _ (hS _), zero_add, ← coe_sum]
  simp only [Ideal.div_coe hL, hv, ← EReal.coe_mul]
  rw [← coe_sum]
  congr 1
  apply Finset.sum_congr rfl
  intro s _
  rw [mul_one_div]

/-- The ratio accumulator / normalizer is the same at every shift, and is the softmax-weighted sum. -/
theorem ratio_shift (S : Fin 2048 → EReal) (vr : Fin 2048 → ℝ) (μ M : ℝ) (hL : (∑ s, wt (S s) M) ≠ 0) :
    (∑ s, wt (S s) μ * vr s) * (1 / ∑ s, wt (S s) μ) = ∑ s, wt (S s) M / (∑ s', wt (S s') M) * vr s := by
  have hc : Real.exp (M - μ) ≠ 0 := (Real.exp_pos _).ne'
  have hA : ∑ s, wt (S s) μ * vr s = Real.exp (M - μ) * ∑ s, wt (S s) M * vr s := by
    rw [Finset.mul_sum]
    apply Finset.sum_congr rfl
    intro s _
    rw [← mul_assoc, wt_rescale]
  have hLs : ∑ s, wt (S s) μ = Real.exp (M - μ) * ∑ s, wt (S s) M := by
    rw [Finset.mul_sum]
    apply Finset.sum_congr rfl
    intro s _
    rw [wt_rescale]
  rw [hA, hLs, mul_one_div, mul_div_mul_left _ _ hc, Finset.sum_div]
  apply Finset.sum_congr rfl
  intro s _
  rw [mul_div_right_comm]

theorem onRow_four (S v : Fin 2048 → EReal)
    (hS : ∀ s, S s = ⊥ ∨ ∃ r : ℝ, S s = (r : EReal))
    (hS0 : ∃ r : ℝ, S ⟨0, by decide⟩ = (r : EReal))
    (hv : ∀ s, ∃ r : ℝ, v s = (r : EReal)) :
    onRow S v 4 = refRow S v := by
  have hS' : ∀ s, S s ≠ ⊤ := fun s => ne_top_of_bot_or_real _ (hS s)
  have hS0' : S ⟨0, by decide⟩ ≠ ⊥ := by
    obtain ⟨r, hr⟩ := hS0
    rw [hr]; exact EReal.coe_ne_bot r
  choose vr hvr using hv
  obtain ⟨M, hM⟩ := refRow_real S v hS' hS0' vr hvr
  obtain ⟨μ, hμ⟩ := onState_inv S v hS' hS0' vr hvr 3
  have hμ4 : onState S v 4 = ((μ : EReal), ((acc (fun s => wt (S s) μ) 4 : ℝ) : EReal),
      ((acc (fun s => wt (S s) μ * vr s) 4 : ℝ) : EReal)) := hμ
  have hLμ : (∑ s, wt (S s) μ) ≠ 0 := (sum_wt_pos S hS0' μ).ne'
  rw [hM, onRow, hμ4]
  simp only [acc_four]
  rw [Ideal.div_coe hLμ, ← EReal.coe_mul, ratio_shift S vr μ M (sum_wt_pos S hS0' M).ne']

/-- A further block of minus-infinity scores leaves a state with a real maximum unchanged. -/
theorem onState_succ_masked (S v : Fin 2048 → EReal) (n : ℕ) (h : n < 4) (hb : ∀ u, S (keyAt ⟨n, h⟩ u) = ⊥)
    (μ : ℝ) (l a : EReal) (hp : onState S v n = ((μ : EReal), l, a)) :
    onState S v (n + 1) = ((μ : EReal), l, a) := by
  rw [onState, dif_pos h]
  simp only [hp]
  obtain ⟨e1, e2, e3⟩ :=
    step_masked (fun u => S (keyAt ⟨n, h⟩ u)) (fun u => v (keyAt ⟨n, h⟩ u)) hb μ l a
  rw [e1, e2, e3]

theorem onRow_two (S v : Fin 2048 → EReal)
    (hS : ∀ s, S s = ⊥ ∨ ∃ r : ℝ, S s = (r : EReal))
    (hS0 : ∃ r : ℝ, S ⟨0, by decide⟩ = (r : EReal))
    (hv : ∀ s, ∃ r : ℝ, v s = (r : EReal))
    (hmask : ∀ s : Fin 2048, 1024 ≤ s.val → S s = ⊥) :
    onRow S v 2 = refRow S v := by
  have hS' : ∀ s, S s ≠ ⊤ := fun s => ne_top_of_bot_or_real _ (hS s)
  have hS0' : S ⟨0, by decide⟩ ≠ ⊥ := by
    obtain ⟨r, hr⟩ := hS0
    rw [hr]; exact EReal.coe_ne_bot r
  obtain ⟨vr, hvr⟩ : ∃ vr : Fin 2048 → ℝ, ∀ s, v s = (vr s : EReal) := ⟨_, fun s => (hv s).choose_spec⟩
  obtain ⟨μ, hμ⟩ := onState_inv S v hS' hS0' vr hvr 1
  have h2 : onState S v 2 = _ := hμ
  have h3 : onState S v 3 = _ :=
    onState_succ_masked S v 2 (by decide) (fun u => hmask _ (by simp only [keyAt]; omega)) μ _ _ h2
  have h4 : onState S v 4 = _ :=
    onState_succ_masked S v 3 (by decide) (fun u => hmask _ (by simp only [keyAt]; omega)) μ _ _ h3
  rw [← onRow_four S v hS hS0 hv, onRow, onRow, h2, h4]

end Cert.Attn

end
-- ==== Proof.ScoreAlgebra.lean ====
/-
  The scores are real or minus infinity, and folding the softmax scale into the query weights before the projection
  gives the same scores as scaling the finished query-key product: over the reals this is distributivity.
-/
import proofs.«172057_j17806934410015_2_alg».proof.Proof.AttnSpec
import proofs.«172057_j17806934410015_2_alg».proof.Proof.OnlineSoftmax

noncomputable section

namespace Cert.Attn

open Idealize.ShloMosaic Idealize.ShloMosaic.ValueIdx
open scoped BigOperators

/-- The scale is a finite float word (exponent field 123, neither all ones nor zero), hence a real. -/
theorem cS_real : ∃ r : ℝ, cS = (r : EReal) := by
  simp only [cS, Ideal.ofBits, Ideal.ieee]
  rw [if_neg (by decide), if_neg (by decide)]
  exact ⟨_, rfl⟩

/-- A projection of real inputs through real weights is real. -/
theorem lin_real (x : SX.Idx → EReal) (W : SW.Idx → EReal) (hx : ∀ i, ∃ r : ℝ, x i = (r : EReal))
    (hW : ∀ i, ∃ r : ℝ, W i = (r : EReal)) (b : Fin 8) (t : Fin 2048) (h : Fin 128) :
    ∃ r : ℝ, lin x W b t h = (r : EReal) := by
  choose xr hxr using hx
  choose wr hwr using hW
  unfold lin
  simp only [hxr, hwr, ← EReal.coe_mul, ← coe_sum]
  exact ⟨_, rfl⟩

theorem scoreK_eq_scoreR (x : SX.Idx → EReal) (Wk Wq : SW.Idx → EReal) (hx : ∀ i, ∃ r : ℝ, x i = (r : EReal))
    (hk : ∀ i, ∃ r : ℝ, Wk i = (r : EReal)) (hq : ∀ i, ∃ r : ℝ, Wq i = (r : EReal)) (b : Fin 8) (t s : Fin 2048) :
    scoreK x Wk Wq b t s = scoreR x Wk Wq b t s := by
  unfold scoreK scoreR
  by_cases hst : s.val ≤ t.val
  · rw [if_pos hst, if_pos hst]
    choose xr hxr using hx
    choose kr hkr using hk
    choose qr hqr using hq
    obtain ⟨c, hc⟩ := cS_real
    unfold lin
    simp only [hxr, hkr, hqr, hc, ← EReal.coe_mul, ← coe_sum]
    congr 1
    rw [Finset.sum_mul]
    apply Finset.sum_congr rfl
    intro h _
    have e : ∑ d : Fin 1024, xr (ix3 b t d) * (qr (ix2 h d) * c) = (∑ d : Fin 1024, xr (ix3 b t d) * qr (ix2 h d)) * c := by
      rw [Finset.sum_mul]
      apply Finset.sum_congr rfl
      intro d _
      ring
    rw [e]
    ring
  · rw [if_neg hst, if_neg hst]

/-- An unmasked score is real. -/
theorem scoreR_real_of_le (x : SX.Idx → EReal) (Wk Wq : SW.Idx → EReal) (hx : ∀ i, ∃ r : ℝ, x i = (r : EReal))
    (hk : ∀ i, ∃ r : ℝ, Wk i = (r : EReal)) (hq : ∀ i, ∃ r : ℝ, Wq i = (r : EReal)) (b : Fin 8) (t s : Fin 2048)
    (hst : s.val ≤ t.val) : ∃ r : ℝ, scoreR x Wk Wq b t s = (r : EReal) := by
  unfold scoreR
  rw [if_pos hst]
  choose qv hqv using fun h => lin_real x Wq hx hq b t h
  choose kv hkv using fun h => lin_real x Wk hx hk b s h
  obtain ⟨c, hc⟩ := cS_real
  simp only [hqv, hkv, hc, ← EReal.coe_mul, ← coe_sum]
  exact ⟨_, rfl⟩

theorem scoreR_real_or_bot (x : SX.Idx → EReal) (Wk Wq : SW.Idx → EReal) (hx : ∀ i, ∃ r : ℝ, x i = (r : EReal))
    (hk : ∀ i, ∃ r : ℝ, Wk i = (r : EReal)) (hq : ∀ i, ∃ r : ℝ, Wq i = (r : EReal)) (b : Fin 8) (t s : Fin 2048) :
    scoreR x Wk Wq b t s = ⊥ ∨ ∃ r : ℝ, scoreR x Wk Wq b t s = (r : EReal) := by
  by_cases hst : s.val ≤ t.val
  · exact Or.inr (scoreR_real_of_le x Wk Wq hx hk hq b t s hst)
  · left
    unfold scoreR
    rw [if_neg hst]

theorem scoreR_zero_real (x : SX.Idx → EReal) (Wk Wq : SW.Idx → EReal) (hx : ∀ i, ∃ r : ℝ, x i = (r : EReal))
    (hk : ∀ i, ∃ r : ℝ, Wk i = (r : EReal)) (hq : ∀ i, ∃ r : ℝ, Wq i = (r : EReal)) (b : Fin 8) (t : Fin 2048) :
    ∃ r : ℝ, scoreR x Wk Wq b t ⟨0, by decide⟩ = (r : EReal) :=
  scoreR_real_of_le x Wk Wq hx hk hq b t ⟨0, by decide⟩ (Nat.zero_le _)

end Cert.Attn

end
-- ==== Proof.FiniteInputs.lean ====
/-
  The precondition says of each of the four inputs that every entry's absolute value is below plus infinity. Over the
  extended reals that leaves exactly the reals: plus infinity and minus infinity both have absolute value plus infinity.
-/
import proofs.«172057_j17806934410015_2_alg».proof.Pre_finite_inputs
import Idealize.ShloMosaic.PureOps.Ideal
import Idealize.ShloMosaic.Lib.ReduceAll
import Idealize.ShloMosaic.Lib.ValueIdx

noncomputable section

namespace Cert.Pre_finite_inputs.Hand

open Idealize.ShloMosaic

/-- The result's shape has rank 0, so it has one index. -/
instance : Subsingleton S_.Idx := ⟨fun a b => funext fun d => d.elim0⟩

/-- The word 0x7F800000 denotes plus infinity. -/
theorem inf_word : Ideal.ofBits .f32 0x7F800000#32 = (⊤ : EReal) := by simp [Ideal.ofBits, Ideal.ieee]

/-- An extended real whose absolute value max x (−x) is below plus infinity is a real. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- One input: the reduction by "and" of the entrywise test being 1 makes every entry a real. -/
theorem real_of_all {s : Shape} {axes : List (Fin s.rank)} (x : FVec Ideal s .f32) (c : FVec Ideal s .f32)
    (hc : ∀ i, c i = Ideal.ofBits .f32 0x7F800000#32) (init : IVec S_ 1) (hr : s.ReducesTo axes S_) (hu : 0 < S_.numel)
    (e : Host.reduce IntOp.andi (cmpf .olt (Host.absf x) c) init hr hu ValueIdx.ix0 = 1#1) (i : s.Idx) :
    ∃ r : ℝ, x i = (r : EReal) := by
  have h1 := Host.reduce_andi_all _ init hr hu ValueIdx.ix0 e i
  apply real_of_abs_lt_inf
  rw [← hc i]
  exact h1

theorem finite_of_pre [Cert.Pre_finite_inputs.Facts] (x0 : FVec Ideal S8x2048x1024 .f32)
    (x1 x2 x3 : FVec Ideal S128x1024 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧
      (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_all x0 _ (fun _ => rfl) _ _ _ h0' i, fun i => real_of_all x1 _ (fun _ => rfl) _ _ _ h1 i,
    fun i => real_of_all x2 _ (fun _ => rfl) _ _ _ h2 i, fun i => real_of_all x3 _ (fun _ => rfl) _ _ _ h3 i⟩

end Cert.Pre_finite_inputs.Hand

end
-- ==== Proof.RefValue.lean ====
/-
  The reference's result, read index by index: causal softmax attention.
-/
import proofs.«172057_j17806934410015_2_alg».proof.Proof.Gen.ReferenceIdeal.Read
import proofs.«172057_j17806934410015_2_alg».proof.Proof.AttnSpec
import Idealize.ShloMosaic.Lib.ValueIdx
import Idealize.ShloMosaic.Lib.Pipeline.Value
import Idealize.ShloMosaic.PureOps.Ideal.Laws

noncomputable section

namespace Cert.ReferenceIdeal.Hand

open Idealize.ShloMosaic Idealize.ShloMosaic.ValueIdx Cert.ReferenceIdeal Cert.ReferenceIdeal.Gen Cert.ReferenceIdeal.Read
open scoped BigOperators

/-! ## Words and constants -/

/-- The word for minus infinity reads as the bottom of the extended reals. -/
theorem ofBits_negInf : Ideal.ofBits .f32 0xFF800000#32 = (⊥ : EReal) := by simp [Ideal.ofBits, Ideal.ieee]

/-- A 32-bit word made from a natural below 2048 reads, signed, as that natural. -/
theorem toInt_ofNat_small (n : Nat) (hn : n < 2048) : (BitVec.ofNat 32 n).toInt = (n : Int) := by
  have h1 : (BitVec.ofNat 32 n).toNat = n := by
    rw [BitVec.toNat_ofNat]; omega
  rw [BitVec.toInt_eq_toNat_cond, h1, if_pos (by omega)]

/-- Signed "row plus zero is at least column" on coordinates below 2048 is the natural order. -/
theorem mask_bit (t s : Nat) (ht : t < 2048) (hs : s < 2048) :
    IntOp.cmpi .sge (IntOp.addi (BitVec.ofNat 32 t) 0#32) (BitVec.ofNat 32 s) = if s ≤ t then 1#1 else 0#1 := by
  have e : IntOp.addi (BitVec.ofNat 32 t) 0#32 = BitVec.ofNat 32 t := by simp [IntOp.addi]
  rw [e]
  have hb : (BitVec.ofNat 32 s).sle (BitVec.ofNat 32 t) = decide (s ≤ t) := by
    rw [Bool.eq_iff_iff, BitVec.sle_iff_toInt_le, toInt_ofNat_small t ht, toInt_ofNat_small s hs, decide_eq_true_eq,
      Int.ofNat_le]
  show BitVec.ofBool ((BitVec.ofNat 32 s).sle (BitVec.ofNat 32 t)) = _
  rw [hb]
  by_cases h : s ≤ t
  · rw [if_pos h, decide_eq_true h]; rfl
  · rw [if_neg h, decide_eq_false h]; rfl

/-! ## The mask -/

/-- The lower-triangular mask at (t, s): set exactly when s ≤ t. -/
theorem tril_apply (t s : Fin 2048) :
    val_main_v7 (F := Ideal) (ix2 t s) = if s.val ≤ t.val then 1#1 else 0#1 := by
  rw [val_main_v7_apply, val_main_call0_v4_apply, val_main_call0_v2_apply, val_main_call0_v0_apply,
    val_main_call0_v1_apply, val_main_call0_c_apply, val_main_call0_v3_apply, val_main_v6_apply, val_main_c_apply,
    val_main_call0_v5_apply, val_main_call0_c_0_apply]
  show Scalar.select (IntOp.cmpi .sge (IntOp.addi (BitVec.ofNat 32 t.val) 0#32) (BitVec.ofNat 32 s.val)) 1#1 0#1 = _
  rw [mask_bit t.val s.val t.isLt s.isLt]
  by_cases h : s.val ≤ t.val
  · rw [if_pos h]; rfl
  · rw [if_neg h]; rfl

/-! ## The projections and the scores -/

section
variable (x0 : (⟨S8x2048x1024, .f32⟩ : BufTy).Contents (Elt Ideal))
  (x1 x2 x3 : (⟨S128x1024, .f32⟩ : BufTy).Contents (Elt Ideal))

/-- The first product is the projection by its weight matrix. -/
theorem v0_lin (b : Fin 8) (s : Fin 2048) (h : Fin 128) :
    val_main_v0 (F := Ideal) x0 x1 (ix3 b s h) = Cert.Attn.lin x0 x1 b s h := by
  rw [val_main_v0_apply]
  unfold Cert.Attn.lin
  refine Finset.sum_congr rfl fun k _ => ?_
  congr 1
  · exact congrArg x0 (funext fun a => match a with | ⟨0, _⟩ => rfl | ⟨1, _⟩ => rfl | ⟨2, _⟩ => rfl)
  · exact congrArg x1 (funext fun a => match a with | ⟨0, _⟩ => rfl | ⟨1, _⟩ => rfl)

theorem v1_lin (b : Fin 8) (s : Fin 2048) (h : Fin 128) :
    val_main_v1 (F := Ideal) x0 x2 (ix3 b s h) = Cert.Attn.lin x0 x2 b s h := by
  rw [val_main_v1_apply]
  unfold Cert.Attn.lin
  refine Finset.sum_congr rfl fun k _ => ?_
  congr 1
  · exact congrArg x0 (funext fun a => match a with | ⟨0, _⟩ => rfl | ⟨1, _⟩ => rfl | ⟨2, _⟩ => rfl)
  · exact congrArg x2 (funext fun a => match a with | ⟨0, _⟩ => rfl | ⟨1, _⟩ => rfl)

theorem v2_lin (b : Fin 8) (s : Fin 2048) (h : Fin 128) :
    val_main_v2 (F := Ideal) x0 x3 (ix3 b s h) = Cert.Attn.lin x0 x3 b s h := by
  rw [val_main_v2_apply]
  unfold Cert.Attn.lin
  refine Finset.sum_congr rfl fun k _ => ?_
  congr 1
  · exact congrArg x0 (funext fun a => match a with | ⟨0, _⟩ => rfl | ⟨1, _⟩ => rfl | ⟨2, _⟩ => rfl)
  · exact congrArg x3 (funext fun a => match a with | ⟨0, _⟩ => rfl | ⟨1, _⟩ => rfl)

/-- The query-key product at (b, t, s). -/
theorem v3_dot (b : Fin 8) (t s : Fin 2048) :
    val_main_v3 (F := Ideal) x0 x1 x2 (ix3 b t s)
      = ∑ h : Fin 128, Cert.Attn.lin x0 x2 b t h * Cert.Attn.lin x0 x1 b s h := by
  rw [val_main_v3_apply]
  refine Finset.sum_congr rfl fun k _ => ?_
  have e1 : lidx_main_v3 (ix3 b t s) k = ix3 b t k :=
    funext fun a => match a with | ⟨0, _⟩ => rfl | ⟨1, _⟩ => rfl | ⟨2, _⟩ => rfl
  have e2 : ridx_main_v3 (ix3 b t s) k = ix3 b s k :=
    funext fun a => match a with | ⟨0, _⟩ => rfl | ⟨1, _⟩ => rfl | ⟨2, _⟩ => rfl
  rw [e1, e2, v1_lin, v0_lin]

/-- The masked, scaled score at (b, t, s). -/
theorem v8_score (b : Fin 8) (t s : Fin 2048) :
    val_main_v8 (F := Ideal) x0 x1 x2 (ix3 b t s) = Cert.Attn.scoreR x0 x1 x2 b t s := by
  rw [val_main_v8_apply, val_main_call1_v1_apply, val_main_call1_v2_apply, val_main_call1_v0_apply,
    val_main_cst_0_apply, val_main_v5_apply, val_main_v4_apply, val_main_cst_apply, v3_dot]
  have e : idx_main_call1_v1 (ix3 b t s) = ix2 t s :=
    funext fun a => match a with | ⟨0, _⟩ => rfl | ⟨1, _⟩ => rfl
  rw [e, tril_apply]
  unfold Cert.Attn.scoreR Cert.Attn.cS
  by_cases h : s.val ≤ t.val
  · rw [if_pos h, if_pos h, select_one]; rfl
  · rw [if_neg h, if_neg h, select_zero]; exact ofBits_negInf

/-! ## The row maximum -/

theorem red_d2 : S8x2048x2048.Reduces [2] S8x2048 := by decide

/-- The reduced index (b, t) with key s put back is (b, t, s). -/
theorem lift_ix3 (b : Fin 8) (t : Fin 2048) (k : Fin (S8x2048x2048.size 2)) :
    red_d2.lift (ix2 b t) k = ix3 b t (⟨k.val, k.isLt⟩ : Fin 2048) := by
  funext c; apply Fin.ext
  fin_cases c <;> rfl

/-- The max-reduce over the keys, from minus infinity. -/
theorem v9_fold (b : Fin 8) (t : Fin 2048) :
    val_main_v9 (F := Ideal) x0 x1 x2 (ix2 b t)
      = (Finset.univ : Finset (Fin 2048)).fold max ⊥ (fun s => Cert.Attn.scoreR x0 x1 x2 b t s) := by
  unfold val_main_v9
  rw [Host.reduce_eq_fold_single FloatOps.maximumf _ _ reducesTo_S8x2048x2048_S8x2048_d2 red_d2 h_S_]
  have hf : (val_main_v8 (F := Ideal) x0 x1 x2 ∘ red_d2.lift (ix2 b t))
      = fun s : Fin 2048 => Cert.Attn.scoreR x0 x1 x2 b t s := funext fun k => by
    show val_main_v8 (F := Ideal) x0 x1 x2 (red_d2.lift (ix2 b t) k) = _
    rw [lift_ix3, v8_score]
    rfl
  rw [hf, val_main_cst_1_apply]
  show (Finset.univ : Finset (Fin 2048)).fold max (Ideal.ofBits .f32 0xFF800000#32) _ = _
  rw [ofBits_negInf]

/-- The row maximum as the direct formula takes it. -/
theorem v11_rowMax (b : Fin 8) (t : Fin 2048) :
    val_main_v11 (F := Ideal) x0 x1 x2 (ix2 b t) = Cert.Attn.rowMax (fun s => Cert.Attn.scoreR x0 x1 x2 b t s) := by
  rw [val_main_v11_apply, val_main_v10_apply, val_main_cst_2_apply, v9_fold]
  unfold Cert.Attn.rowMax
  show max (Ideal.ofBits .f32 0xFF800000#32) _ = _
  rw [ofBits_negInf]

theorem v13_rowMax (b : Fin 8) (t s : Fin 2048) :
    val_main_v13 (F := Ideal) x0 x1 x2 (ix3 b t s) = Cert.Attn.rowMax (fun s => Cert.Attn.scoreR x0 x1 x2 b t s) := by
  rw [val_main_v13_apply, val_main_v12_apply]
  have e : idx_main_v12 (idx_main_v13 (ix3 b t s)) = ix2 b t :=
    funext fun a => match a with | ⟨0, _⟩ => rfl | ⟨1, _⟩ => rfl
  rw [e, v11_rowMax]

/-! ## The exponentials, the normalizer, the weights -/

theorem v15_exp (b : Fin 8) (t s : Fin 2048) :
    val_main_v15 (F := Ideal) x0 x1 x2 (ix3 b t s)
      = Ideal.exp (Cert.Attn.scoreR x0 x1 x2 b t s - Cert.Attn.rowMax (fun s => Cert.Attn.scoreR x0 x1 x2 b t s)) := by
  rw [val_main_v15_apply, val_main_v14_apply, v8_score, v13_rowMax]
  rfl

theorem v16_sum (b : Fin 8) (t : Fin 2048) :
    val_main_v16 (F := Ideal) x0 x1 x2 (ix2 b t)
      = 0 + ∑ s' : Fin 2048, Ideal.exp (Cert.Attn.scoreR x0 x1 x2 b t s' - Cert.Attn.rowMax (fun s => Cert.Attn.scoreR x0 x1 x2 b t s)) := by
  rw [val_main_v16_apply, val_main_cst_3_apply]
  congr 1
  · exact Ideal.ofBits_zero_f32
  · refine Finset.sum_congr rfl fun k _ => ?_
    have e : idx_main_v16 (ix2 b t) k = ix3 b t k :=
      funext fun a => match a with | ⟨0, _⟩ => rfl | ⟨1, _⟩ => rfl | ⟨2, _⟩ => rfl
    rw [e, v15_exp]

theorem v18_sum (b : Fin 8) (t s : Fin 2048) :
    val_main_v18 (F := Ideal) x0 x1 x2 (ix3 b t s)
      = 0 + ∑ s' : Fin 2048, Ideal.exp (Cert.Attn.scoreR x0 x1 x2 b t s' - Cert.Attn.rowMax (fun s => Cert.Attn.scoreR x0 x1 x2 b t s)) := by
  rw [val_main_v18_apply, val_main_v17_apply]
  have e : idx_main_v17 (idx_main_v18 (ix3 b t s)) = ix2 b t :=
    funext fun a => match a with | ⟨0, _⟩ => rfl | ⟨1, _⟩ => rfl
  rw [e, v16_sum]

theorem v19_weight (b : Fin 8) (t s : Fin 2048) :
    val_main_v19 (F := Ideal) x0 x1 x2 (ix3 b t s)
      = Ideal.div (Ideal.exp (Cert.Attn.scoreR x0 x1 x2 b t s - Cert.Attn.rowMax (fun s => Cert.Attn.scoreR x0 x1 x2 b t s)))
          (0 + ∑ s' : Fin 2048, Ideal.exp (Cert.Attn.scoreR x0 x1 x2 b t s' - Cert.Attn.rowMax (fun s => Cert.Attn.scoreR x0 x1 x2 b t s))) := by
  rw [val_main_v19_apply, v15_exp, v18_sum]
  rfl

end

/-! ## The result -/

open Idealize.ShloMosaic Idealize.ShloMosaic.ValueIdx in
theorem ref_value (x0 : (⟨Cert.ReferenceIdeal.S8x2048x1024, .f32⟩ : BufTy).Contents (Elt Ideal))
    (x1 x2 x3 : (⟨Cert.ReferenceIdeal.S128x1024, .f32⟩ : BufTy).Contents (Elt Ideal)) (b : Fin 8) (t : Fin 2048) (h : Fin 128) :
    Cert.ReferenceIdeal.Read.val_main_v20 (F := Ideal) x0 x1 x2 x3 (ix3 b t h)
      = Cert.Attn.refRow (fun s => Cert.Attn.scoreR x0 x1 x2 b t s) (fun s => Cert.Attn.lin x0 x3 b s h) := by
  rw [val_main_v20_apply]
  unfold Cert.Attn.refRow
  refine Finset.sum_congr rfl fun k _ => ?_
  have e1 : lidx_main_v20 (ix3 b t h) k = ix3 b t k :=
    funext fun a => match a with | ⟨0, _⟩ => rfl | ⟨1, _⟩ => rfl | ⟨2, _⟩ => rfl
  have e2 : ridx_main_v20 (ix3 b t h) k = ix3 b k h :=
    funext fun a => match a with | ⟨0, _⟩ => rfl | ⟨1, _⟩ => rfl | ⟨2, _⟩ => rfl
  rw [e1, e2, v19_weight, v2_lin]

end Cert.ReferenceIdeal.Hand

end
-- ==== Proof.Assemble.lean ====
/-
  The assembly: the kernel's result array and the reference's result array are the same function of the four inputs.
  Entry (b, t, h) of the kernel's result is the online softmax row over the kernel's scores and values; those scores are
  the reference's scores with the scale folded into the query weights, equal over the reals; and the online row is the
  direct row. The frames and the one ledger entry are stated beside it.
-/
import proofs.«172057_j17806934410015_2_alg».proof.Defs
import proofs.«172057_j17806934410015_2_alg».proof.Proof.KernelRun
import proofs.«172057_j17806934410015_2_alg».proof.Proof.RowSpec
import proofs.«172057_j17806934410015_2_alg».proof.Proof.AttnSpec
import proofs.«172057_j17806934410015_2_alg».proof.Proof.OnlineSoftmax
import proofs.«172057_j17806934410015_2_alg».proof.Proof.ScoreAlgebra
import proofs.«172057_j17806934410015_2_alg».proof.Proof.FiniteInputs
import proofs.«172057_j17806934410015_2_alg».proof.Proof.RefValue
import proofs.«172057_j17806934410015_2_alg».proof.Proof.Gen.ReferenceIdeal.Run
import proofs.«172057_j17806934410015_2_alg».proof.Proof.Gen.ReferenceIdeal.Read
import proofs.«172057_j17806934410015_2_alg».proof.Proof.Gen.KernelIdeal
import proofs.«172057_j17806934410015_2_alg».proof.Proof.Gen.ReferenceIdeal
import proofs.«172057_j17806934410015_2_alg».proof.Proof.Gen.Pre_finite_inputs

noncomputable section

namespace Cert.Proof.Hand

open Idealize.ShloMosaic Idealize.ShloMosaic.TcCoe Idealize.ShloMosaic.ValueIdx Idealize.SL.Sem
open scoped BigOperators

section KernelSide

open Cert.KernelIdeal Cert.KernelIdeal.Gen Cert.KernelIdeal.Hand

/-- A memory of the kernel's program, and its four argument arrays on a device as functions of an index: the input,
    the key weights, the query weights, the value weights. -/
abbrev Mem : Type := (ℓ : Loc nD τ sig) → Buf (Elt Ideal) ℓ
abbrev inX (m : Mem) (c : Dev nD) : S8x2048x1024.Idx → EReal := m ((c : Thread nD τ).loc main_arg0)
abbrev inK (m : Mem) (c : Dev nD) : S128x1024.Idx → EReal := m ((c : Thread nD τ).loc main_arg1)
abbrev inQ (m : Mem) (c : Dev nD) : S128x1024.Idx → EReal := m ((c : Thread nD τ).loc main_arg2)
abbrev inV (m : Mem) (c : Dev nD) : S128x1024.Idx → EReal := m ((c : Thread nD τ).loc main_arg3)

/-- The attention region's result array, from any contents of the buffers at its entry: entry (b, t, h) is the online
    row over the region's scores and values, two blocks of keys for the first 1024 query positions and four after. -/
abbrev HOut : Prop :=
  ∀ (V : (c : Dev nD) → (b : Ref sig .tc) → Buf (Elt Ideal) ((c : Thread nD τ).loc b)) (c : Dev nD) (b : Fin 8)
    (t : Fin 2048) (h : Fin 128),
    ((dat1 (F := Ideal) V c).arrAt 3 cfg1.N : S8x2048x128.Idx → EReal) (ix3 b t h)
      = Cert.Attn.onRow (rowS V c b t) (rowV V c b h) (if t.val < 1024 then 2 else 4)

/-- The three projections at the attention region's entry: the queries with the scale folded into the weights, the
    keys and the values. -/
abbrev HQ : Prop :=
  ∀ (m : Mem) (c : Dev nD) (b : Fin 8) (t : Fin 2048) (h : Fin 128),
    (Vt3 (F := Ideal) m c main_v9 : S8x2048x128.Idx → EReal) (ix3 b t h)
      = ∑ d : Fin 1024, inX m c (ix3 b t d) * (inQ m c (ix2 h d) * Cert.Attn.cS)
abbrev HK : Prop :=
  ∀ (m : Mem) (c : Dev nD) (b : Fin 8) (t : Fin 2048) (h : Fin 128),
    (Vt3 (F := Ideal) m c main_v11 : S8x2048x128.Idx → EReal) (ix3 b t h) = Cert.Attn.lin (inX m c) (inK m c) b t h
abbrev HV : Prop :=
  ∀ (m : Mem) (c : Dev nD) (b : Fin 8) (t : Fin 2048) (h : Fin 128),
    (Vt3 (F := Ideal) m c main_v13 : S8x2048x128.Idx → EReal) (ix3 b t h) = Cert.Attn.lin (inX m c) (inV m c) b t h

/-- Entry (b, t, h) of the kernel's result, for real inputs: the direct softmax row of the reference's scores. -/
theorem kernel_value (hout : HOut) (hq : HQ) (hk : HK) (hv : HV) (m : Mem) (c : Dev nD)
    (fx : ∀ i, ∃ r : ℝ, inX m c i = (r : EReal)) (fk : ∀ i, ∃ r : ℝ, inK m c i = (r : EReal))
    (fq : ∀ i, ∃ r : ℝ, inQ m c i = (r : EReal)) (fv : ∀ i, ∃ r : ℝ, inV m c i = (r : EReal))
    (b : Fin 8) (t : Fin 2048) (h : Fin 128) :
    (W4 (F := Ideal) m c (Proc.devRef .tc main_v14) : S8x2048x128.Idx → EReal) (ix3 b t h)
      = Cert.Attn.refRow (fun s => Cert.Attn.scoreR (inX m c) (inK m c) (inQ m c) b t s)
          (fun s => Cert.Attn.lin (inX m c) (inV m c) b s h) := by
  have e : W4 (F := Ideal) m c (Proc.devRef .tc main_v14) = (dat1 (Vt3 m) c).arrAt 3 cfg1.N := W4_arr m c 3
  rw [e, hout (Vt3 m) c b t h]
  have eS : rowS (Vt3 m) c b t = fun s => Cert.Attn.scoreR (inX m c) (inK m c) (inQ m c) b t s := by
    funext s
    rw [← Cert.Attn.scoreK_eq_scoreR _ _ _ fx fk fq]
    unfold rowS arrQ arrK Cert.Attn.scoreK
    by_cases hst : s.val ≤ t.val
    · rw [if_pos hst, if_pos hst]
      exact Finset.sum_congr rfl fun h' _ => by rw [hq m c b t h', hk m c b s h']
    · rw [if_neg hst, if_neg hst]
  have eV : rowV (Vt3 m) c b h = fun s => Cert.Attn.lin (inX m c) (inV m c) b s h := by
    funext s
    exact hv m c b s h
  rw [eS, eV]
  have hS := fun s => Cert.Attn.scoreR_real_or_bot _ _ _ fx fk fq b t s
  have hS0 := Cert.Attn.scoreR_zero_real _ _ _ fx fk fq b t
  have hV := fun s => Cert.Attn.lin_real _ _ fx fv b s h
  by_cases ht : t.val < 1024
  · rw [if_pos ht]
    refine Cert.Attn.onRow_two _ _ hS hS0 hV (fun s hs => ?_)
    unfold Cert.Attn.scoreR
    rw [if_neg (by omega)]
  · rw [if_neg ht]
    exact Cert.Attn.onRow_four _ _ hS hS0 hV

end KernelSide

/-- The kernel's program runs and its arguments end unchanged. -/
theorem frame_ki : Cert.frame_KernelIdeal := fun m ρ _ => Cert.KernelIdeal.Hand.frame_all m ρ

/-- The reference's program runs and its arguments end unchanged. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the certificate's table gives the masking constant's name the value minus infinity, and the
    printed constant is that value over the extended reals. -/
theorem preserves : Cert.preserves_Kernel_KernelIdeal :=
  IdealRules.named_const.statement Cert.KernelIdeal.κ "neg_big" .f32 0xFF333332#32 ⊥ rfl

/-- From memories that agree on the four arguments, both programs run, leave the arguments unchanged, and end with the
    same result array: entry by entry, the online row of the kernel is the direct row of the reference. -/
theorem algebraic_of (hout : HOut) (hq : HQ) (hk : HK) (hv : HV) : Cert.algebraic_KernelIdeal_ReferenceIdeal := by
  intro m ρ m' ρ' hpre hagree
  refine ⟨fun c => Cert.KernelIdeal.Hand.W4 (F := Ideal) m c (Proc.devRef .tc Cert.KernelIdeal.main_v14), ?_, ?_⟩
  · exact (θ_run Cert.KernelIdeal.defs _ _).mono (fun r h c =>
      ⟨h c _ (Cert.KernelIdeal.Hand.mem_uc Cert.KernelIdeal.main_v14 (by decide)),
       (h c _ (Cert.KernelIdeal.Hand.mem_uc Cert.KernelIdeal.main_arg0 (by decide))).trans
         (Cert.KernelIdeal.Hand.W4_main_arg0 m c),
       (h c _ (Cert.KernelIdeal.Hand.mem_uc Cert.KernelIdeal.main_arg1 (by decide))).trans
         (Cert.KernelIdeal.Hand.W4_main_arg1 m c),
       (h c _ (Cert.KernelIdeal.Hand.mem_uc Cert.KernelIdeal.main_arg2 (by decide))).trans
         (Cert.KernelIdeal.Hand.W4_main_arg2 m c),
       (h c _ (Cert.KernelIdeal.Hand.mem_uc Cert.KernelIdeal.main_arg3 (by decide))).trans
         (Cert.KernelIdeal.Hand.W4_main_arg3 m c)⟩) (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, (hagree c).1, (hagree c).2.1, (hagree c).2.2.1, (hagree c).2.2.2]
    obtain ⟨f0, f1, f2, f3⟩ := Cert.Pre_finite_inputs.Hand.finite_of_pre _ _ _ _ (hpre c)
    have key : ∀ (b : Fin 8) (t : Fin 2048) (h : Fin 128),
        Cert.ReferenceIdeal.Read.val_main_v20 (F := Ideal) (inX m c) (inK m c) (inQ m c) (inV m c) (ix3 b t h)
          = (Cert.KernelIdeal.Hand.W4 (F := Ideal) m c (Proc.devRef .tc Cert.KernelIdeal.main_v14)
              : Cert.KernelIdeal.S8x2048x128.Idx → EReal) (ix3 b t h) := fun b t h =>
      (Cert.ReferenceIdeal.Hand.ref_value _ _ _ _ b t h).trans (kernel_value hout hq hk hv m c f0 f1 f2 f3 b t h).symm
    refine funext fun (i : Cert.KernelIdeal.S8x2048x128.Idx) => ?_
    have hi : i = ix3 (n0 := 8) (n1 := 2048) (n2 := 128) (i 0) (i 1) (i 2) := eq_ix3 i
    rw [hi]
    exact key (i 0) (i 1) (i 2)

end Cert.Proof.Hand

end
-- ==== Proof.lean ====
/-
  Single-head causal self-attention over x : f32[8, 2048, 1024] with projections Wk, Wq, Wv : f32[128, 1024].
  The kernel program projects all three at once (one matrix product of the flattened input with the three transposed
  weight matrices side by side, the softmax scale 0.0883883461 folded into the query weights beforehand), then computes
  the attention by blocks: for each batch and block of 1024 query rows it walks the key blocks of 512 rows that start at
  or before the query block's last row, keeping per row a running maximum, normalizer and accumulator, masking key
  positions after the query position with a fill value that denotes minus infinity, and divides at the end.
  The reference computes the three projections, all scores times the scale, masks with minus infinity, and takes the
  softmax row by row before the weighted sum of the values.
  At the extended reals both are, at every (batch, position, feature), the softmax-weighted sum of the values over the
  key positions up to the query position: the reference directly (RefValue), the kernel as the online computation
  (ProjValue, FlashValue), and the online computation equals the direct one (OnlineSoftmax) once the inputs are finite,
  which also lets the scale move from the query weights to the finished scores (ScoreAlgebra, FiniteInputs).
  The three frames: both kernels' from one run through @main's four segments (KernelRun and its word-level copy), the
  reference's from its run. The one ledger entry: the fill value is named minus infinity.
-/
import proofs.«172057_j17806934410015_2_alg».proof.Defs
import proofs.«172057_j17806934410015_2_alg».proof.Proof.Gen.Kernel
import proofs.«172057_j17806934410015_2_alg».proof.Proof.Gen.KernelIdeal
import proofs.«172057_j17806934410015_2_alg».proof.Proof.Gen.ReferenceIdeal
import proofs.«172057_j17806934410015_2_alg».proof.Proof.Gen.Pre_finite_inputs
import proofs.«172057_j17806934410015_2_alg».proof.Proof.BitsKernelRun
import proofs.«172057_j17806934410015_2_alg».proof.Proof.FlashValue
import proofs.«172057_j17806934410015_2_alg».proof.Proof.ProjValue
import proofs.«172057_j17806934410015_2_alg».proof.Proof.Assemble

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame_all m ρ,
  Cert.Proof.Hand.frame_ki,
  Cert.Proof.Hand.frame_ri,
  Cert.Proof.Hand.preserves,
  Cert.Proof.Hand.algebraic_of
    (fun V c b t h => Cert.KernelIdeal.Hand.out_value V c b t h)
    Cert.KernelIdeal.Hand.q_val Cert.KernelIdeal.Hand.k_val Cert.KernelIdeal.Hand.v_val⟩

end Cert.Proof

end
